-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096x2 : Shape := ⟨3, ![4096, 4096, 2]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096x2 : S_.BroadcastsInDim S4096x4096x2 (![] : Fin 0 → Fin S4096x4096x2.rank)
  reducesTo_S4096x4096x2_S_d0_1_2 : S4096x4096x2.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S4096x256 .f32) (main_arg1 : FVec F S4096x4096x2 .f32) (main_arg2 : FVec F S4096x4096x2 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096x2 .f32 := Host.absf main_arg1
  let main_cst_0 : FVec F S_ .f32 := constant S_ .f32 0x7F800000#32
  let main_v5 : FVec F S4096x4096x2 .f32 := broadcastInDim S4096x4096x2 ![] bcast_S_S4096x4096x2 main_cst_0
  let main_v6 : IVec S4096x4096x2 1 := cmpf .olt main_v4 main_v5
  let main_c_1 : IVec S_ 1 := constantI S_ 1 1#1
  let main_v7 : IVec S_ 1 := (fun x v => Host.reduce IntOp.andi x v reducesTo_S4096x4096x2_S_d0_1_2 h_S_) main_v6 main_c_1
  let main_v8 : IVec S_ 1 := andi main_v3 main_v7
  let main_v9 : FVec F S4096x4096x2 .f32 := Host.absf main_arg2
  let main_cst_2 : FVec F S_ .f32 := constant S_ .f32 0x7F800000#32
  let main_v10 : FVec F S4096x4096x2 .f32 := broadcastInDim S4096x4096x2 ![] bcast_S_S4096x4096x2 main_cst_2
  let main_v11 : IVec S4096x4096x2 1 := cmpf .olt main_v9 main_v10
  let main_c_3 : IVec S_ 1 := constantI S_ 1 1#1
  let main_v12 : IVec S_ 1 := (fun x v => Host.reduce IntOp.andi x v reducesTo_S4096x4096x2_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S4096x256 : Shape := ⟨2, ![4096, 256]⟩
abbrev S4096x4096x2 : Shape := ⟨3, ![4096, 4096, 2]⟩
abbrev S256x256 : Shape := ⟨2, ![256, 256]⟩
abbrev S256 : Shape := ⟨1, ![256]⟩
abbrev S4096x4096x1 : Shape := ⟨3, ![4096, 4096, 1]⟩
abbrev S4096x4096 : Shape := ⟨2, ![4096, 4096]⟩
abbrev S_ : Shape := ⟨0, ![]⟩
abbrev S4096 : Shape := ⟨1, ![4096]⟩
abbrev S2048x256 : Shape := ⟨2, ![2048, 256]⟩
abbrev S256x2048 : Shape := ⟨2, ![256, 2048]⟩
abbrev S2048x2048 : Shape := ⟨2, ![2048, 2048]⟩
abbrev S1x256 : Shape := ⟨2, ![1, 256]⟩
abbrev S4096x1 : Shape := ⟨2, ![4096, 1]⟩

abbrev nBuf : Space → Nat
  | .hbm => 38
  | .vmem => 31
  | .smem => 0
  | _ => 0

abbrev bufTy : (tb : Table) → Fin (tcTables nBuf tb) → BufTy
  | .hbm, ⟨0, _⟩ => ⟨S4096x256, .f32⟩
  | .hbm, ⟨1, _⟩ => ⟨S4096x4096x2, .f32⟩
  | .hbm, ⟨2, _⟩ => ⟨S4096x4096x2, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4096x4096x1, .f32⟩
  | .hbm, ⟨10, _⟩ => ⟨S4096x4096, .f32⟩
  | .hbm, ⟨11, _⟩ => ⟨S4096x4096, .bf16⟩
  | .hbm, ⟨12, _⟩ => ⟨S4096x4096x1, .f32⟩
  | .hbm, ⟨13, _⟩ => ⟨S4096x4096, .f32⟩
  | .hbm, ⟨14, _⟩ => ⟨S4096x4096, .bf16⟩
  | .hbm, ⟨15, _⟩ => ⟨S4096x4096x1, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x4096, .bf16⟩
  | .hbm, ⟨23, _⟩ => ⟨S4096x256, .f32⟩
  | .hbm, ⟨24, _⟩ => ⟨S4096x256, .bf16⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S4096x256, .bf16⟩
  | .hbm, ⟨29, _⟩ => ⟨S1x256, .f32⟩
  | .hbm, ⟨30, _⟩ => ⟨S4096x256, .f32⟩
  | .hbm, ⟨31, _⟩ => ⟨S4096x256, .f32⟩
  | .hbm, ⟨32, _⟩ => ⟨S4096x256, .bf16⟩
  | .hbm, ⟨33, _⟩ => ⟨S1x256, .f32⟩
  | .hbm, ⟨34, _⟩ => ⟨S4096x256, .f32⟩
  | .hbm, ⟨35, _⟩ => ⟨S4096x1, .f32⟩
  | .hbm, ⟨36, _⟩ => ⟨S4096x256, .f32⟩
  | .hbm, ⟨37, _⟩ => ⟨S4096x256, .f32⟩
  | .local _ .vmem, ⟨0, _⟩ => ⟨S2048x256, .bf16⟩
  | .local _ .vmem, ⟨1, _⟩ => ⟨S2048x256, .bf16⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .f32⟩
  | .local _ .vmem, ⟨7, _⟩ => ⟨S2048x2048, .bf16⟩
  | .local _ .vmem, ⟨8, _⟩ => ⟨S2048x2048, .bf16⟩
  | .local _ .vmem, ⟨9, _⟩ => ⟨S2048x256, .bf16⟩
  | .local _ .vmem, ⟨10, _⟩ => ⟨S2048x256, .bf16⟩
  | .local _ .vmem, ⟨11, _⟩ => ⟨S1x256, .f32⟩
  | .local _ .vmem, ⟨12, _⟩ => ⟨S2048x256, .f32⟩
  | .local _ .vmem, ⟨13, _⟩ => ⟨S2048x256, .f32⟩
  | .local _ .vmem, ⟨14, _⟩ => ⟨S2048x256, .f32⟩
  | .local _ .vmem, ⟨15, _⟩ => ⟨S2048x2048, .bf16⟩
  | .local _ .vmem, ⟨16, _⟩ => ⟨S2048x2048, .bf16⟩
  | .local _ .vmem, ⟨17, _⟩ => ⟨S2048x256, .bf16⟩
  | .local _ .vmem, ⟨18, _⟩ => ⟨S2048x256, .bf16⟩
  | .local _ .vmem, ⟨19, _⟩ => ⟨S1x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x2048, .bf16⟩
  | .local _ .vmem, ⟨24, _⟩ => ⟨S2048x2048, .bf16⟩
  | .local _ .vmem, ⟨25, _⟩ => ⟨S2048x256, .bf16⟩
  | .local _ .vmem, ⟨26, _⟩ => ⟨S2048x256, .bf16⟩
  | .local _ .vmem, ⟨27, _⟩ => ⟨S1x256, .f32⟩
  | .local _ .vmem, ⟨28, _⟩ => ⟨S2048x256, .f32⟩
  | .local _ .vmem, ⟨29, _⟩ => ⟨S2048x256, .f32⟩
  | .local _ .vmem, ⟨30, _⟩ => ⟨S2048x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26

abbrev nD : Nat := 1
abbrev τ : Topo := Topo.v7x

variable {F : FTy → Type} [FloatOps F]

abbrev grid0 : Pipeline.Grid := ⟨3, ![2, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 2], ![false, false]⟩

def k2_cond2 (i : grid2.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 2], ![false, false]⟩

def k3_cond2 (i : grid3.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  slices_S4096x4096x2_S4096x4096x1_0_0_1 : S4096x4096x2.Slices ![0, 0, 1] S4096x4096x1
  shapeCasts_S4096x4096x1_S4096x4096 : S4096x4096x1.ShapeCasts S4096x4096
  bitsLt_bf16_f32 : FTy.bits .bf16 < FTy.bits .f32
  slices_S4096x4096x2_S4096x4096x1_0_0_0 : S4096x4096x2.Slices ![0, 0, 0] S4096x4096x1
  reducesTo_S4096x4096_S4096_d0 : S4096x4096.ReducesTo [0] S4096
  h_S_ : 0 < S_.numel
  bcast_S_S4096 : S_.BroadcastsInDim S4096 (![] : Fin 0 → Fin S4096.rank)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  packedbf16_S2048x2048_S2048x2048_0_0 : (Rect.unit (s := S2048x2048) ![0, 0] S2048x2048.size inb_S2048x2048_S2048x2048_0_0).PackedRows (EltTy.packing .bf16)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S2048x256_S256x2048_S2048x2048_1_0_0_1_n_n_wf : DotDims.WF S2048x256 S256x2048 S2048x2048 [1] [0] [0] [1] [] []
  dot_S4096x256_S256x256_S4096x256_1_0_0_1_n_n_wf : DotDims.WF S4096x256 S256x256 S4096x256 [1] [0] [0] [1] [] []
  dot_S2048x2048_S2048x256_S2048x256_1_0_0_1_n_n_wf : DotDims.WF S2048x2048 S2048x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .bf16 = 32 ∨ (Rect.block (s := S4096x4096) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .bf16 = 32 ∨ (Rect.block (s := S4096x4096) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S4096x4096.size a
  hwx0_2 : ∀ i : grid0.Coords, EltTy.bits .bf16 = 32 ∨ (Rect.block (s := S4096x4096) S2048x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S4096x4096.size a
  hwx1_0 : ∀ i : grid1.Coords, EltTy.bits .bf16 = 32 ∨ (Rect.block (s := S4096x4096) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x256.size a
  hwx1_1 : ∀ i : grid1.Coords, EltTy.bits .bf16 = 32 ∨ (Rect.block (s := S4096x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S4096x256.size a
  hwx1_3 : ∀ i : grid1.Coords, EltTy.bits .f32 = 32 ∨ (Rect.block (s := S4096x256) S2048x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S4096x4096.size a
  hwx2_0 : ∀ i : grid2.Coords, EltTy.bits .bf16 = 32 ∨ (Rect.block (s := S4096x4096) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S4096x256.size a
  hwx2_1 : ∀ i : grid2.Coords, EltTy.bits .bf16 = 32 ∨ (Rect.block (s := S4096x256) S2048x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S4096x256.size a
  hwx2_3 : ∀ i : grid2.Coords, EltTy.bits .f32 = 32 ∨ (Rect.block (s := S4096x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S4096x4096.size a
  hwx3_0 : ∀ i : grid3.Coords, EltTy.bits .bf16 = 32 ∨ (Rect.block (s := S4096x4096) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S4096x256.size a
  hwx3_1 : ∀ i : grid3.Coords, EltTy.bits .bf16 = 32 ∨ (Rect.block (s := S4096x256) S2048x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x256.size a ≤ S4096x256.size a
  hwx3_3 : ∀ i : grid3.Coords, EltTy.bits .f32 = 32 ∨ (Rect.block (s := S4096x256) S2048x256.size (cc3_transform_3 i) (hinb3_3 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf

abbrev win0_0 : Pipeline.Window sig grid0 :=
  Pipeline.Window.ofSpec (Memref.whole main_v5) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v11) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S2048x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x4096x2 : Shape := ⟨3, ![4096, 4096, 2]⟩
abbrev S256x256 : Shape := ⟨2, ![256, 256]⟩
abbrev S256 : Shape := ⟨1, ![256]⟩
abbrev S4096x4096x1 : Shape := ⟨3, ![4096, 4096, 1]⟩
abbrev S4096x4096 : Shape := ⟨2, ![4096, 4096]⟩
abbrev S1x256 : Shape := ⟨2, ![1, 256]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096x2, .f32⟩
  | .hbm, ⟨2, _⟩ => ⟨S4096x4096x2, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S4096x4096x1, .f32⟩
  | .hbm, ⟨10, _⟩ => ⟨S4096x4096, .f32⟩
  | .hbm, ⟨11, _⟩ => ⟨S4096x4096x1, .f32⟩
  | .hbm, ⟨12, _⟩ => ⟨S4096x4096, .f32⟩
  | .hbm, ⟨13, _⟩ => ⟨S4096x4096, .f32⟩
  | .hbm, ⟨14, _⟩ => ⟨S4096x256, .f32⟩
  | .hbm, ⟨15, _⟩ => ⟨S4096x256, .f32⟩
  | .hbm, ⟨16, _⟩ => ⟨S1x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S1x256, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S4096x256, .f32⟩
  | .hbm, ⟨32, _⟩ => ⟨S1x256, .f32⟩
  | .hbm, ⟨33, _⟩ => ⟨S4096x256, .f32⟩
  | .hbm, ⟨34, _⟩ => ⟨S4096x256, .f32⟩
  | .hbm, ⟨35, _⟩ => ⟨S4096x4096x1, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x256, .f32⟩
  | .hbm, ⟨44, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_cst : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_cst_0 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  slices_S4096x4096x2_S4096x4096x1_0_0_1 : S4096x4096x2.Slices ![0, 0, 1] S4096x4096x1
  shapeCasts_S4096x4096x1_S4096x4096 : S4096x4096x1.ShapeCasts S4096x4096
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  slices_S4096x4096x2_S4096x4096x1_0_0_0 : S4096x4096x2.Slices ![0, 0, 0] S4096x4096x1
  reducesTo_S4096x4096_S4096_d0 : S4096x4096.ReducesTo [0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  dot_S4096x4096_S4096x4096_S4096x4096_1_0_0_1_n_n_wf : DotDims.WF S4096x4096 S4096x4096 S4096x4096 [1] [0] [0] [1] [] []
  dot_S4096x4096_S4096x256_S4096x256_1_0_0_1_n_n_wf : DotDims.WF S4096x4096 S4096x256 S4096x256 [1] [0] [0] [1] [] []
  dot_S4096x256_S256x256_S4096x256_1_0_0_1_n_n_wf : DotDims.WF S4096x256 S256x256 S4096x256 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.K.R0Base.lean ====
import proofs.«137211_j12206297055730_2_alg».proof.Proof.Gen.Kernel.Launch
import proofs.«137211_j12206297055730_2_alg».proof.Proof.Gen.Kernel.Skeleton
import proofs.«137211_j12206297055730_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: fused = (channel 1 of the adjacency's derivative) · (channel 1 of the adjacency), block by block

The grid is 2 × 2 × 16: point t has output block (t / 32, (t / 16) % 2) and contraction block t % 16. At contraction
block 0 the body zeroes its accumulator; at every block it adds the product of a 2048 × 256 block of the left matrix
and a 256 × 2048 block of the right one; at contraction block 15 it stores the accumulator into the output block,
which is written back there and only there. -/

section
variable (V : (c : Dev nD) → (b : Ref sig .tc) → Buf (Elt F) ((c : Thread nD τ).loc b))

/-- Window w's block at point t, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions over the grid -/

/-- The reset branch is taken: the contraction block is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The store-out branch is taken: the contraction block is the last one. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x2048 .f32 := Memref.whole cc0_scratch0
abbrev VS0 : View sig .tc .vmem S2048x2048 .f32 := (scM0).view
/-- One staging buffer of the output window, through which its contents are stated. -/
abbrev VO0 : View sig .tc .vmem S2048x2048 .bf16 := (Memref.whole cc0_stg2_0 : Memref sig .tc .vmem S2048x2048 .bf16).view

/-- The region's resting invariant with the accumulator owned at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.Kernel.Hand

end
-- ==== Proof.K.R0RunA.lean ====
import proofs.«137211_j12206297055730_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0 (the accumulator at anything, the output block handed back untouched): it leaves the accumulator with the listed pieces written — the reset, then the first block product added. -/
noncomputable def kernelRun0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i)
    (x0 : Vec F S2048x256 .bf16) (x1 : Vec F S256x2048 .bf16) :
    Σ' (L2 : List (View.Piece (Elt F) S2048x2048 .bf16)), { LS : List (View.Piece (Elt F) S2048x2048 .f32) //
      ∀ (xi2 : Vec F S2048x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.K.R0RunB.lean ====
import proofs.«137211_j12206297055730_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle contraction block (the accumulator at what the point before left, the output block handed back untouched): it leaves the accumulator with the listed piece written — the block product added. -/
noncomputable def kernelRun0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i)
    (x0 : Vec F S2048x256 .bf16) (x1 : Vec F S256x2048 .bf16) (xs : Vec F S2048x2048 .f32) :
    Σ' (L2 : List (View.Piece (Elt F) S2048x2048 .bf16)), { LS : List (View.Piece (Elt F) S2048x2048 .f32) //
      ∀ (xi2 : Vec F S2048x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.K.R0RunC.lean ====
import proofs.«137211_j12206297055730_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block (the accumulator at what the point before left, the output block at anything): it leaves the accumulator and the output block with the listed pieces written — the block product added, the sum stored out. -/
noncomputable def kernelRun0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i)
    (x0 : Vec F S2048x256 .bf16) (x1 : Vec F S256x2048 .bf16) (xs : Vec F S2048x2048 .f32) :
    Σ' (L2 : List (View.Piece (Elt F) S2048x2048 .bf16)), { LS : List (View.Piece (Elt F) S2048x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.Kernel.Hand

end
-- ==== Proof.K.R0.lean ====
import proofs.«137211_j12206297055730_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- What case A leaves in the output block's staging buffer (nothing is stored there: a placeholder nothing consults, the window being idle and not written back). -/
def out0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i) (x0 : Vec F S2048x256 .bf16) (x1 : Vec F S256x2048 .bf16) : Vec F S2048x2048 .bf16 :=
  VO0.read (Elt F) (VO0.writes (Elt F) VO0.junk (kernelRun0_A c i arg3 harg3 arg4 harg4 arg5 harg5 arg6 harg6 hc0 hc1 x0 x1).1)

/-- Case A's stores into the accumulator cover it. -/
theorem scover0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i) (x0 : Vec F S2048x256 .bf16) (x1 : Vec F S256x2048 .bf16) (y : S2048x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S2048x2048.size (by sl_kernel_rfl) y

/-- What case A leaves in the accumulator. -/
def sout0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i) (x0 : Vec F S2048x256 .bf16) (x1 : Vec F S256x2048 .bf16) : Vec F S2048x2048 .f32 :=
  VS0.read (Elt F) (VS0.writes (Elt F) VS0.junk (kernelRun0_A c i arg3 harg3 arg4 harg4 arg5 harg5 arg6 harg6 hc0 hc1 x0 x1).2.1)

/-- What case B leaves in the output block's staging buffer (nothing is stored there: a placeholder nothing consults, the window being idle and not written back). -/
def out0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i) (x0 : Vec F S2048x256 .bf16) (x1 : Vec F S256x2048 .bf16) (xs : Vec F S2048x2048 .f32) : Vec F S2048x2048 .bf16 :=
  VO0.read (Elt F) (VO0.writes (Elt F) VO0.junk (kernelRun0_B c i arg3 harg3 arg4 harg4 arg5 harg5 arg6 harg6 hc0 hc1 x0 x1 xs).1)

/-- Case B's stores into the accumulator cover it. -/
theorem scover0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i) (x0 : Vec F S2048x256 .bf16) (x1 : Vec F S256x2048 .bf16) (xs : Vec F S2048x2048 .f32) (y : S2048x2048.Idx) :
    ∃ pc ∈ (kernelRun0_B c i arg3 harg3 arg4 harg4 arg5 harg5 arg6 harg6 hc0 hc1 x0 x1 xs).2.1, y ∈ pc.1.set :=
  View.cover_of_tiledL (kernelRun0_B c i arg3 harg3 arg4 harg4 arg5 harg5 arg6 harg6 hc0 hc1 x0 x1 xs).2.1 S2048x2048.size (by sl_kernel_rfl) y

/-- What case B leaves in the accumulator. -/
def sout0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i) (x0 : Vec F S2048x256 .bf16) (x1 : Vec F S256x2048 .bf16) (xs : Vec F S2048x2048 .f32) : Vec F S2048x2048 .f32 :=
  VS0.read (Elt F) (VS0.writes (Elt F) VS0.junk (kernelRun0_B c i arg3 harg3 arg4 harg4 arg5 harg5 arg6 harg6 hc0 hc1 x0 x1 xs).2.1)

/-- The store of the last contraction block covers the output block. -/
theorem cover0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) (y : S2048x2048.Idx) :
    ∃ pc ∈ (kernelRun0_C c i arg3 harg3 arg4 harg4 arg5 harg5 arg6 harg6 hc0 hc1 x0 x1 xs).1, y ∈ pc.1.set :=
  View.cover_of_tiledL (kernelRun0_C c i arg3 harg3 arg4 harg4 arg5 harg5 arg6 harg6 hc0 hc1 x0 x1 xs).1 S2048x2048.size (by sl_kernel_rfl) y

/-- What case C leaves in the output block's staging buffer. -/
def out0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) : Vec F S2048x2048 .bf16 :=
  VO0.read (Elt F) (VO0.writes (Elt F) VO0.junk (kernelRun0_C c i arg3 harg3 arg4 harg4 arg5 harg5 arg6 harg6 hc0 hc1 x0 x1 xs).1)

/-- Case C's stores into the accumulator cover it. -/
theorem scover0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) (y : S2048x2048.Idx) :
    ∃ pc ∈ (kernelRun0_C c i arg3 harg3 arg4 harg4 arg5 harg5 arg6 harg6 hc0 hc1 x0 x1 xs).2.1, y ∈ pc.1.set :=
  View.cover_of_tiledL (kernelRun0_C c i arg3 harg3 arg4 harg4 arg5 harg5 arg6 harg6 hc0 hc1 x0 x1 xs).2.1 S2048x2048.size (by sl_kernel_rfl) y

/-- What case C leaves in the accumulator. -/
def sout0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) : Vec F S2048x2048 .f32 :=
  VS0.read (Elt F) (VS0.writes (Elt F) VS0.junk (kernelRun0_C c i arg3 harg3 arg4 harg4 arg5 harg5 arg6 harg6 hc0 hc1 x0 x1 xs).2.1)

section
variable (V : (c : Dev nD) → (b : Ref sig .tc) → Buf (Elt F) ((c : Thread nD τ).loc b))

/-! ## Point by point -/

/-- What the output block's staging buffer and the accumulator hold after the body at position n: a position with
    contraction block 0 resets and adds the first product; every other adds its product to what the position before
    left; the last contraction block also stores the sum out. -/
def outsAt0 (c : Dev nD) : (n : ℕ) → n < cfg0.N → Vec F S2048x2048 .bf16 × Vec F S2048x2048 .f32
  | 0, hn =>
    have h0 : (⟨0, hn⟩ : Fin cfg0.N).val % 16 = 0 := Nat.zero_mod _
    have h1 : ¬(⟨0, hn⟩ : Fin cfg0.N).val % 16 = 15 := by dsimp only; omega
    (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr h0) (fun h => h1 ((hcond0_1 ⟨0, hn⟩).mp h)) (iblk0 V c 0 ⟨0, hn⟩) (iblk0 V c 1 ⟨0, hn⟩),
       sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr h0) (fun h => h1 ((hcond0_1 ⟨0, hn⟩).mp h)) (iblk0 V c 0 ⟨0, hn⟩) (iblk0 V c 1 ⟨0, hn⟩))
  | n + 1, hn =>
    if h0 : (n + 1) % 16 = 0 then
      have h1 : ¬(n + 1) % 16 = 15 := by omega
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
       sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
       sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
       sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: at the start the resting one; afterwards the accumulator at what the
    position before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the contraction block of the position says which
    case runs; the invariant hands the body the accumulator (at anything at contraction block 0, at what the position
    before left elsewhere) and takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A; (try dsimp only)
    have hrun := (kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hrest⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C sout0_C; (try dsimp only)
      have hrun := (kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2).2.2
      rw [PhiS0_castSucc V c t, PhiS0_pos V c _ _ hz]
      iintro ⟨⟨⟨HS, Hrest⟩, Hg⟩, Ho, ⟨%d0, H0⟩, ⟨%d1, H1⟩, ⟨%d2, H2⟩⟩
      iapply (hrun Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B; (try dsimp only)
      have hrun := (kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2).2.2
      rw [PhiS0_castSucc V c t, PhiS0_pos V c _ _ hz]
      iintro ⟨⟨⟨HS, Hrest⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the resting one back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hrest⟩, Hg⟩
  isplitl [HS Hrest]
  · isplitl [HS]
    · iexists _; iexact HS
    iexact Hrest
  iexact Hg

end

end Cert.Kernel.Hand

end
-- ==== Proof.K.R1Base.lean ====
import proofs.«137211_j12206297055730_2_alg».proof.Proof.Gen.Kernel.Launch
import proofs.«137211_j12206297055730_2_alg».proof.Proof.Gen.Kernel.Skeleton
import proofs.«137211_j12206297055730_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one layer's aggregation, out = fused · z + bias, the product accumulated over two column blocks of fused

The grid is 2 × 2: point t has row block t / 2 and contraction block t % 2. At contraction block 0 the body zeroes
its accumulator and adds the block product; at contraction block 1 it adds the second product and stores
accumulator + bias (through the layer's activation) into the output block, which is written back there and only there. -/

section
variable (V : (c : Dev nD) → (b : Ref sig .tc) → Buf (Elt F) ((c : Thread nD τ).loc b))

/-- Window w's block at point t, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or carried from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or carried from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or carried from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions over the grid -/

/-- The reset branch is taken: the contraction block is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The store-out branch is taken: the contraction block is the last one. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At contraction block 0 the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the last contraction block it is live. -/
theorem liveAt1_3_B : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x256 .f32 := Memref.whole cc1_scratch0
abbrev VS1 : View sig .tc .vmem S2048x256 .f32 := (scM1).view
/-- One staging buffer of the output window, through which its contents are stated. -/
abbrev VO1 : View sig .tc .vmem S2048x256 .f32 := (Memref.whole cc1_stg3_0 : Memref sig .tc .vmem S2048x256 .f32).view

/-- The scoped buffers that are no staging buffer of this call, split at the accumulator. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region's resting invariant with the accumulator owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.Kernel.Hand

end
-- ==== Proof.K.R1RunA.lean ====
import proofs.«137211_j12206297055730_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0, on whole memrefs — the three inputs at their contents, the output block handed
    back untouched, the accumulator at anything: it runs, leaving the accumulator with the listed pieces written
    (the reset, then the first block product added to it). -/
noncomputable def kernelRun1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .bf16) (x2 : Vec F S1x256 .f32) :
    Σ' (L3 : List (View.Piece (Elt F) S2048x256 .f32)), { LS : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R1RunB.lean ====
import proofs.«137211_j12206297055730_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block, on whole memrefs — the three inputs at their contents, the output block at
    anything, the accumulator at what the point before left: it runs, leaving the accumulator and the output block
    with the listed pieces written (the second block product added; accumulator + bias through the activation stored out). -/
noncomputable def kernelRun1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .bf16) (x2 : Vec F S1x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.K.R1.lean ====
import proofs.«137211_j12206297055730_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- At contraction block 0 nothing is stored into the output block: a placeholder nothing consults
    (the window is idle there and is not written back). -/
def out1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .bf16) (x2 : Vec F S1x256 .f32) : Vec F S2048x256 .f32 :=
  VO1.read (Elt F) (VO1.writes (Elt F) VO1.junk (kernelRun1_A c i arg2 harg2 arg3 harg3 arg4 harg4 arg5 harg5 arg6 harg6 hc0 hc1 x0 x1 x2).1)

/-- The stores of contraction block 0 cover the accumulator. -/
theorem scover1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .bf16) (x2 : Vec F S1x256 .f32) (y : S2048x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x256.size (by sl_kernel_rfl) y

/-- What contraction block 0 leaves in the accumulator. -/
def sout1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .bf16) (x2 : Vec F S1x256 .f32) : Vec F S2048x256 .f32 :=
  VS1.read (Elt F) (VS1.writes (Elt F) VS1.junk (kernelRun1_A c i arg2 harg2 arg3 harg3 arg4 harg4 arg5 harg5 arg6 harg6 hc0 hc1 x0 x1 x2).2.1)

/-- The store of the last contraction block covers the output block. -/
theorem cover1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) (y : S2048x256.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S2048x256.size (by sl_kernel_rfl) y

/-- What the last contraction block leaves in the output block. -/
def out1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) : Vec F S2048x256 .f32 :=
  VO1.read (Elt F) (VO1.writes (Elt F) VO1.junk (kernelRun1_B c i arg2 harg2 arg3 harg3 arg4 harg4 arg5 harg5 arg6 harg6 hc0 hc1 x0 x1 x2 xs).1)

/-- Its store into the accumulator covers it. -/
theorem scover1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) (y : S2048x256.Idx) :
    ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S2048x256.size (by sl_kernel_rfl) y

/-- What the last contraction block leaves in the accumulator. -/
def sout1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) : Vec F S2048x256 .f32 :=
  VS1.read (Elt F) (VS1.writes (Elt F) VS1.junk (kernelRun1_B c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## Point by point -/

/-- What the output block's staging buffer and the accumulator hold after the body at position n: an even position
    resets and adds the first product, an odd one adds the second to what the position before left. -/
def outsAt1 (c : Dev nD) : (n : ℕ) → n < cfg1.N → Vec F S2048x256 .f32 × Vec F S2048x256 .f32
  | 0, hn =>
    have h0 : (⟨0, hn⟩ : Fin cfg1.N).val % 2 = 0 := Nat.zero_mod _
    have h1 : ¬(⟨0, hn⟩ : Fin cfg1.N).val % 2 = 1 := by dsimp only; omega
    (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      have h1 : ¬(n + 1) % 2 = 1 := by omega
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      have h1 : (n + 1) % 2 = 1 := by omega
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 2 = 0) (h1 : ¬t.val % 2 = 1) :
    outsAt1 V c t.val t.isLt
      = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
         sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 2 = 0) (h1 : t.val % 2 = 1) :
    outsAt1 V c t.val t.isLt
      = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
         sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at the start the resting one; afterwards the accumulator at what the
    position before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at the
    point-by-point contents; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the parity of the position says which case runs;
    the invariant hands the body the accumulator (at anything at an even position, at what the position before left
    at an odd one) and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A; (try dsimp only)
    have hrun := (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.2
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B sout1_B; (try dsimp only)
    have hz : t.val ≠ 0 := by omega
    have hrun := (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.2
    rw [PhiS1_castSucc V c t, PhiS1_pos V c _ _ hz]
    iintro ⟨⟨⟨HS, Hrest⟩, Hg⟩, Ho, ⟨%d0, H0⟩, ⟨%d1, H1⟩, ⟨%d2, H2⟩, ⟨%d3, H3⟩⟩
    iapply (hrun Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _ _)

/-- The body obligation at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting one back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 4 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]
    · iexists _; iexact HS
    iexact Hrest
  iexact Hg

end

end Cert.Kernel.Hand

end
-- ==== Proof.K.R2Base.lean ====
import proofs.«137211_j12206297055730_2_alg».proof.Proof.Gen.Kernel.Launch
import proofs.«137211_j12206297055730_2_alg».proof.Proof.Gen.Kernel.Skeleton
import proofs.«137211_j12206297055730_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one layer's aggregation, out = fused · z + bias, the product accumulated over two column blocks of fused

The grid is 2 × 2: point t has row block t / 2 and contraction block t % 2. At contraction block 0 the body zeroes
its accumulator and adds the block product; at contraction block 1 it adds the second product and stores
accumulator + bias (through the layer's activation) into the output block, which is written back there and only there. -/

section
variable (V : (c : Dev nD) → (b : Ref sig .tc) → Buf (Elt F) ((c : Thread nD τ).loc b))

/-- Window w's block at point t, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or carried from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or carried from the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or carried from the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions over the grid -/

/-- The reset branch is taken: the contraction block is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The store-out branch is taken: the contraction block is the last one. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are live -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At contraction block 0 the output window is idle and is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- At the last contraction block it is live. -/
theorem liveAt2_3_B : ∀ t : Fin cfg2.N, ¬cond2_0 (grid2.coords t) → cond2_1 (grid2.coords t) → cfg2.idle 3 (grid2.coords t) = false := by decide +kernel

/-! ## The memrefs the body is called with -/

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2048x256 .f32 := Memref.whole cc2_scratch0
abbrev VS2 : View sig .tc .vmem S2048x256 .f32 := (scM2).view
/-- One staging buffer of the output window, through which its contents are stated. -/
abbrev VO2 : View sig .tc .vmem S2048x256 .f32 := (Memref.whole cc2_stg3_0 : Memref sig .tc .vmem S2048x256 .f32).view

/-- The scoped buffers that are no staging buffer of this call, split at the accumulator. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The region's resting invariant with the accumulator owned at some contents. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.Kernel.Hand

end
-- ==== Proof.K.R2RunA.lean ====
import proofs.«137211_j12206297055730_2_alg».proof.Proof.K.R2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0, on whole memrefs — the three inputs at their contents, the output block handed
    back untouched, the accumulator at anything: it runs, leaving the accumulator with the listed pieces written
    (the reset, then the first block product added to it). -/
noncomputable def kernelRun2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .bf16) (x2 : Vec F S1x256 .f32) :
    Σ' (L3 : List (View.Piece (Elt F) S2048x256 .f32)), { LS : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R2RunB.lean ====
import proofs.«137211_j12206297055730_2_alg».proof.Proof.K.R2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block, on whole memrefs — the three inputs at their contents, the output block at
    anything, the accumulator at what the point before left: it runs, leaving the accumulator and the output block
    with the listed pieces written (the second block product added; accumulator + bias through the activation stored out). -/
noncomputable def kernelRun2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .bf16) (x2 : Vec F S1x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.K.R2.lean ====
import proofs.«137211_j12206297055730_2_alg».proof.Proof.K.R2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- At contraction block 0 nothing is stored into the output block: a placeholder nothing consults
    (the window is idle there and is not written back). -/
def out2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .bf16) (x2 : Vec F S1x256 .f32) : Vec F S2048x256 .f32 :=
  VO2.read (Elt F) (VO2.writes (Elt F) VO2.junk (kernelRun2_A c i arg2 harg2 arg3 harg3 arg4 harg4 arg5 harg5 arg6 harg6 hc0 hc1 x0 x1 x2).1)

/-- The stores of contraction block 0 cover the accumulator. -/
theorem scover2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .bf16) (x2 : Vec F S1x256 .f32) (y : S2048x256.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x256.size (by sl_kernel_rfl) y

/-- What contraction block 0 leaves in the accumulator. -/
def sout2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .bf16) (x2 : Vec F S1x256 .f32) : Vec F S2048x256 .f32 :=
  VS2.read (Elt F) (VS2.writes (Elt F) VS2.junk (kernelRun2_A c i arg2 harg2 arg3 harg3 arg4 harg4 arg5 harg5 arg6 harg6 hc0 hc1 x0 x1 x2).2.1)

/-- The store of the last contraction block covers the output block. -/
theorem cover2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) (y : S2048x256.Idx) :
    ∃ pc ∈ (kernelRun2_B c i arg2 harg2 arg3 harg3 arg4 harg4 arg5 harg5 arg6 harg6 hc0 hc1 x0 x1 x2 xs).1, y ∈ pc.1.set :=
  View.cover_of_tiledL (kernelRun2_B c i arg2 harg2 arg3 harg3 arg4 harg4 arg5 harg5 arg6 harg6 hc0 hc1 x0 x1 x2 xs).1 S2048x256.size (by sl_kernel_rfl) y

/-- What the last contraction block leaves in the output block. -/
def out2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) : Vec F S2048x256 .f32 :=
  VO2.read (Elt F) (VO2.writes (Elt F) VO2.junk (kernelRun2_B c i arg2 harg2 arg3 harg3 arg4 harg4 arg5 harg5 arg6 harg6 hc0 hc1 x0 x1 x2 xs).1)

/-- Its store into the accumulator covers it. -/
theorem scover2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) (y : S2048x256.Idx) :
    ∃ pc ∈ (kernelRun2_B c i arg2 harg2 arg3 harg3 arg4 harg4 arg5 harg5 arg6 harg6 hc0 hc1 x0 x1 x2 xs).2.1, y ∈ pc.1.set :=
  View.cover_of_tiledL (kernelRun2_B c i arg2 harg2 arg3 harg3 arg4 harg4 arg5 harg5 arg6 harg6 hc0 hc1 x0 x1 x2 xs).2.1 S2048x256.size (by sl_kernel_rfl) y

/-- What the last contraction block leaves in the accumulator. -/
def sout2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) : Vec F S2048x256 .f32 :=
  VS2.read (Elt F) (VS2.writes (Elt F) VS2.junk (kernelRun2_B c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## Point by point -/

/-- What the output block's staging buffer and the accumulator hold after the body at position n: an even position
    resets and adds the first product, an odd one adds the second to what the position before left. -/
def outsAt2 (c : Dev nD) : (n : ℕ) → n < cfg2.N → Vec F S2048x256 .f32 × Vec F S2048x256 .f32
  | 0, hn =>
    have h0 : (⟨0, hn⟩ : Fin cfg2.N).val % 2 = 0 := Nat.zero_mod _
    have h1 : ¬(⟨0, hn⟩ : Fin cfg2.N).val % 2 = 1 := by dsimp only; omega
    (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      have h1 : ¬(n + 1) % 2 = 1 := by omega
      (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
       sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      have h1 : (n + 1) % 2 = 1 := by omega
      (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 2 = 0) (h1 : ¬t.val % 2 = 1) :
    outsAt2 V c t.val t.isLt
      = (out2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t),
         sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans rfl

theorem outsAt2_B (c : Dev nD) (t : Fin cfg2.N) (h0 : ¬t.val % 2 = 0) (h1 : t.val % 2 = 1) :
    outsAt2 V c t.val t.isLt
      = (out2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
         sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at the start the resting one; afterwards the accumulator at what the
    position before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block, the output's at the
    point-by-point contents; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the parity of the position says which case runs;
    the invariant hands the body the accumulator (at anything at an even position, at what the position before left
    at an odd one) and takes it back at this position's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 4 := lt_of_lt_of_eq t.isLt (show cfg2.N = 4 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have h1 : ¬t.val % 2 = 1 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A; (try dsimp only)
    have hrun := (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)).2.2
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1)], after2_3]
    rw [outsAt2_B V c t h0 h1]
    unfold out2_B sout2_B; (try dsimp only)
    have hz : t.val ≠ 0 := by omega
    have hrun := (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2).2.2
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩⟩
    iapply (hrun Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover2_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B c _ _ _ _ _ _ _ _ _ _ _ _ _ _ _ _ _)

/-- The body obligation at every point. -/
theorem body_obligation2 (c : Dev nD) : BodyObligation (dat2 (F := F) V c) (defs₀ (F := F)) Variants.none () Set.univ := fun t => by
  rw [bigSep_W2, bigSep_W2]
  exact sound_body2 V c t

/-- The resting invariant is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the resting one back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 4 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, Hrest⟩, Hg⟩
  isplitl [HS Hrest]
  · isplitl [HS]
    · iexists _; iexact HS
    iexact Hrest
  iexact Hg

end

end Cert.Kernel.Hand

end
-- ==== Proof.K.R3Base.lean ====
import proofs.«137211_j12206297055730_2_alg».proof.Proof.Gen.Kernel.Launch
import proofs.«137211_j12206297055730_2_alg».proof.Proof.Gen.Kernel.Skeleton
import proofs.«137211_j12206297055730_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one layer's aggregation, out = fused · z + bias, the product accumulated over two column blocks of fused

The grid is 2 × 2: point t has row block t / 2 and contraction block t % 2. At contraction block 0 the body zeroes
its accumulator and adds the block product; at contraction block 1 it adds the second product and stores
accumulator + bias (through the layer's activation) into the output block, which is written back there and only there. -/

section
variable (V : (c : Dev nD) → (b : Ref sig .tc) → Buf (Elt F) ((c : Thread nD τ).loc b))

/-- Window w's block at point t, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether fetched there or carried from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether fetched there or carried from the point before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether fetched there or carried from the point before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The two branch conditions over the grid -/

/-- The reset branch is taken: the contraction block is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- The store-out branch is taken: the contraction block is the last one. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are live -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At contraction block 0 the output window is idle and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At the last contraction block it is live. -/
theorem liveAt3_3_B : ∀ t : Fin cfg3.N, ¬cond3_0 (grid3.coords t) → cond3_1 (grid3.coords t) → cfg3.idle 3 (grid3.coords t) = false := by decide +kernel

/-! ## The memrefs the body is called with -/

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S2048x256 .f32 := Memref.whole cc3_scratch0
abbrev VS3 : View sig .tc .vmem S2048x256 .f32 := (scM3).view
/-- One staging buffer of the output window, through which its contents are stated. -/
abbrev VO3 : View sig .tc .vmem S2048x256 .f32 := (Memref.whole cc3_stg3_0 : Memref sig .tc .vmem S2048x256 .f32).view

/-- The scoped buffers that are no staging buffer of this call, split at the accumulator. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

/-- The region's resting invariant with the accumulator owned at some contents. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.Kernel.Hand

end
-- ==== Proof.K.R3RunA.lean ====
import proofs.«137211_j12206297055730_2_alg».proof.Proof.K.R3Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0, on whole memrefs — the three inputs at their contents, the output block handed
    back untouched, the accumulator at anything: it runs, leaving the accumulator with the listed pieces written
    (the reset, then the first block product added to it). -/
noncomputable def kernelRun3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .bf16) (x2 : Vec F S1x256 .f32) :
    Σ' (L3 : List (View.Piece (Elt F) S2048x256 .f32)), { LS : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Hand

end
-- ==== Proof.K.R3RunB.lean ====
import proofs.«137211_j12206297055730_2_alg».proof.Proof.K.R3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block, on whole memrefs — the three inputs at their contents, the output block at
    anything, the accumulator at what the point before left: it runs, leaving the accumulator and the output block
    with the listed pieces written (the second block product added; accumulator + bias through the activation stored out). -/
noncomputable def kernelRun3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .bf16) (x2 : Vec F S1x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.K.R3.lean ====
import proofs.«137211_j12206297055730_2_alg».proof.Proof.K.R3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- At contraction block 0 nothing is stored into the output block: a placeholder nothing consults
    (the window is idle there and is not written back). -/
def out3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .bf16) (x2 : Vec F S1x256 .f32) : Vec F S2048x256 .f32 :=
  VO3.read (Elt F) (VO3.writes (Elt F) VO3.junk (kernelRun3_A c i arg2 harg2 arg3 harg3 arg4 harg4 arg5 harg5 arg6 harg6 hc0 hc1 x0 x1 x2).1)

/-- The stores of contraction block 0 cover the accumulator. -/
theorem scover3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .bf16) (x2 : Vec F S1x256 .f32) (y : S2048x256.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x256.size (by sl_kernel_rfl) y

/-- What contraction block 0 leaves in the accumulator. -/
def sout3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .bf16) (x2 : Vec F S1x256 .f32) : Vec F S2048x256 .f32 :=
  VS3.read (Elt F) (VS3.writes (Elt F) VS3.junk (kernelRun3_A c i arg2 harg2 arg3 harg3 arg4 harg4 arg5 harg5 arg6 harg6 hc0 hc1 x0 x1 x2).2.1)

/-- The store of the last contraction block covers the output block. -/
theorem cover3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) (y : S2048x256.Idx) :
    ∃ pc ∈ (kernelRun3_B c i arg2 harg2 arg3 harg3 arg4 harg4 arg5 harg5 arg6 harg6 hc0 hc1 x0 x1 x2 xs).1, y ∈ pc.1.set :=
  View.cover_of_tiledL (kernelRun3_B c i arg2 harg2 arg3 harg3 arg4 harg4 arg5 harg5 arg6 harg6 hc0 hc1 x0 x1 x2 xs).1 S2048x256.size (by sl_kernel_rfl) y

/-- What the last contraction block leaves in the output block. -/
def out3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) : Vec F S2048x256 .f32 :=
  VO3.read (Elt F) (VO3.writes (Elt F) VO3.junk (kernelRun3_B c i arg2 harg2 arg3 harg3 arg4 harg4 arg5 harg5 arg6 harg6 hc0 hc1 x0 x1 x2 xs).1)

/-- Its store into the accumulator covers it. -/
theorem scover3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) (y : S2048x256.Idx) :
    ∃ pc ∈ (kernelRun3_B c i arg2 harg2 arg3 harg3 arg4 harg4 arg5 harg5 arg6 harg6 hc0 hc1 x0 x1 x2 xs).2.1, y ∈ pc.1.set :=
  View.cover_of_tiledL (kernelRun3_B c i arg2 harg2 arg3 harg3 arg4 harg4 arg5 harg5 arg6 harg6 hc0 hc1 x0 x1 x2 xs).2.1 S2048x256.size (by sl_kernel_rfl) y

/-- What the last contraction block leaves in the accumulator. -/
def sout3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) : Vec F S2048x256 .f32 :=
  VS3.read (Elt F) (VS3.writes (Elt F) VS3.junk (kernelRun3_B c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## Point by point -/

/-- What the output block's staging buffer and the accumulator hold after the body at position n: an even position
    resets and adds the first product, an odd one adds the second to what the position before left. -/
def outsAt3 (c : Dev nD) : (n : ℕ) → n < cfg3.N → Vec F S2048x256 .f32 × Vec F S2048x256 .f32
  | 0, hn =>
    have h0 : (⟨0, hn⟩ : Fin cfg3.N).val % 2 = 0 := Nat.zero_mod _
    have h1 : ¬(⟨0, hn⟩ : Fin cfg3.N).val % 2 = 1 := by dsimp only; omega
    (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩),
     sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      have h1 : ¬(n + 1) % 2 = 1 := by omega
      (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩),
       sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      have h1 : (n + 1) % 2 = 1 := by omega
      (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
       sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 2 = 0) (h1 : ¬t.val % 2 = 1) :
    outsAt3 V c t.val t.isLt
      = (out3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t),
         sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans rfl

theorem outsAt3_B (c : Dev nD) (t : Fin cfg3.N) (h0 : ¬t.val % 2 = 0) (h1 : t.val % 2 = 1) :
    outsAt3 V c t.val t.isLt
      = (out3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
         sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at the start the resting one; afterwards the accumulator at what the
    position before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block, the output's at the
    point-by-point contents; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the parity of the position says which case runs;
    the invariant hands the body the accumulator (at anything at an even position, at what the position before left
    at an odd one) and takes it back at this position's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 4 := lt_of_lt_of_eq t.isLt (show cfg3.N = 4 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have h1 : ¬t.val % 2 = 1 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A; (try dsimp only)
    have hrun := (kernelRun3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)).2.2
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat3 V c).leavesExact 3 t = owns (c : Thread nD τ) (ms3_3 t) fullShare ((dat3 V c).after 3 t) from by
      unfold Dat.leavesExact; rw [liveAt3_3_B t (fun h => h0 ((hcond3_0 t).mp h)) ((hcond3_1 t).mpr h1)], after3_3]
    rw [outsAt3_B V c t h0 h1]
    unfold out3_B sout3_B; (try dsimp only)
    have hz : t.val ≠ 0 := by omega
    have hrun := (kernelRun3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2).2.2
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩⟩
    iapply (hrun Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover3_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B c _ _ _ _ _ _ _ _ _ _ _ _ _ _ _ _ _)

/-- The body obligation at every point. -/
theorem body_obligation3 (c : Dev nD) : BodyObligation (dat3 (F := F) V c) (defs₀ (F := F)) Variants.none () Set.univ := fun t => by
  rw [bigSep_W3, bigSep_W3]
  exact sound_body3 V c t

/-- The resting invariant is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the resting one back: the accumulator's contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 4 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨HS, Hrest⟩, Hg⟩
  isplitl [HS Hrest]
  · isplitl [HS]
    · iexists _; iexact HS
    iexact Hrest
  iexact Hg

end

end Cert.Kernel.Hand

end
-- ==== Proof.K.Run.lean ====
import proofs.«137211_j12206297055730_2_alg».proof.Proof.K.R0
import proofs.«137211_j12206297055730_2_alg».proof.Proof.K.R1
import proofs.«137211_j12206297055730_2_alg».proof.Proof.K.R2
import proofs.«137211_j12206297055730_2_alg».proof.Proof.K.R3
import proofs.«137211_j12206297055730_2_alg».proof.Proof.Gen.Kernel.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: host stretch, region 0, host stretch, region 1, host stretch, region 2, host stretch, region 3, host stretch

The contents of the core's unscoped buffers at each of the ten boundaries are a fold from the launch memory: a host
stretch applies its operations; a region leaves its output array at what its write-backs leave and every other buffer
as entered. Every weakly fair execution terminates, and the final memory holds every unscoped buffer at the last
boundary's contents. -/

variable (m : (ℓ : Loc nD τ sig) → Buf (Elt F) ℓ)

/-- Core c's buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At region 0's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the next host stretch. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At region 1's exit: its arrays at what the pipeline leaves, every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)
/-- After the next host stretch. -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b

/-- At region 2's exit: its arrays at what the pipeline leaves, every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)
/-- After the next host stretch. -/
abbrev B7 : Dev nD → Valuation τ sig (Elt F) := fun c => StableHlo.after hostOps3 (B6 m c)
abbrev E7 : (c : Dev nD) → (b : Ref sig .tc) → Buf (Elt F) ((c : Thread nD τ).loc b) := fun c b => B7 m c b

/-- At region 3's exit: its arrays at what the pipeline leaves, every other buffer as entered. -/
def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev E8 : (c : Dev nD) → (b : Ref sig .tc) → Buf (Elt F) ((c : Thread nD τ).loc b) := fun c b => B8 m c b
theorem hF3 (c : Dev nD) (w : Fin cfg3.W) : (dat3 (E7 m) c).arrAt w cfg3.N = E8 m c (Pipeline.arrRef spec3 w) :=
  (B8_arr m c w).symm
theorem hrest3 (c : Dev nD) : ∀ b, b ∉ Finset.univ.image (Pipeline.arrRef spec3) → E8 m c b = E7 m c b :=
  fun b hb => B8_of_ne m c b fun w e => hb (Finset.mem_image.mpr ⟨w, Finset.mem_univ _, e⟩)
/-- After the next host stretch. -/
abbrev B9 : Dev nD → Valuation τ sig (Elt F) := fun c => StableHlo.after hostOps4 (B8 m c)
abbrev E9 : (c : Dev nD) → (b : Ref sig .tc) → Buf (Elt F) ((c : Thread nD τ).loc b) := fun c b => B9 m c b

/-! ## No host operation and no region writes an argument -/

theorem B9_main_arg0 (c : Dev nD) : B9 m c (Proc.devRef .tc main_arg0) = m ((c : Thread nD τ).loc main_arg0) :=
  (StableHlo.after_of_writes_sub hostOps4 _ hostOps4_writes (by decide : main_arg0 ∉ hostOps4_W)).trans <|
  (B8_of_ne m c main_arg0 (by decide)).trans <|
  (StableHlo.after_of_writes_sub hostOps3 _ hostOps3_writes (by decide : main_arg0 ∉ hostOps3_W)).trans <|
  (B6_of_ne m c main_arg0 (by decide)).trans <|
  (StableHlo.after_of_writes_sub hostOps2 _ hostOps2_writes (by decide : main_arg0 ∉ hostOps2_W)).trans <|
  (B4_of_ne m c main_arg0 (by decide)).trans <|
  (StableHlo.after_of_writes_sub hostOps1 _ hostOps1_writes (by decide : main_arg0 ∉ hostOps1_W)).trans <|
  (B2_of_ne m c main_arg0 (by decide)).trans <|
  (StableHlo.after_of_writes_sub hostOps0 _ hostOps0_writes (by decide : main_arg0 ∉ hostOps0_W)).trans rfl

theorem B9_main_arg1 (c : Dev nD) : B9 m c (Proc.devRef .tc main_arg1) = m ((c : Thread nD τ).loc main_arg1) :=
  (StableHlo.after_of_writes_sub hostOps4 _ hostOps4_writes (by decide : main_arg1 ∉ hostOps4_W)).trans <|
  (B8_of_ne m c main_arg1 (by decide)).trans <|
  (StableHlo.after_of_writes_sub hostOps3 _ hostOps3_writes (by decide : main_arg1 ∉ hostOps3_W)).trans <|
  (B6_of_ne m c main_arg1 (by decide)).trans <|
  (StableHlo.after_of_writes_sub hostOps2 _ hostOps2_writes (by decide : main_arg1 ∉ hostOps2_W)).trans <|
  (B4_of_ne m c main_arg1 (by decide)).trans <|
  (StableHlo.after_of_writes_sub hostOps1 _ hostOps1_writes (by decide : main_arg1 ∉ hostOps1_W)).trans <|
  (B2_of_ne m c main_arg1 (by decide)).trans <|
  (StableHlo.after_of_writes_sub hostOps0 _ hostOps0_writes (by decide : main_arg1 ∉ hostOps0_W)).trans rfl

theorem B9_main_arg2 (c : Dev nD) : B9 m c (Proc.devRef .tc main_arg2) = m ((c : Thread nD τ).loc main_arg2) :=
  (StableHlo.after_of_writes_sub hostOps4 _ hostOps4_writes (by decide : main_arg2 ∉ hostOps4_W)).trans <|
  (B8_of_ne m c main_arg2 (by decide)).trans <|
  (StableHlo.after_of_writes_sub hostOps3 _ hostOps3_writes (by decide : main_arg2 ∉ hostOps3_W)).trans <|
  (B6_of_ne m c main_arg2 (by decide)).trans <|
  (StableHlo.after_of_writes_sub hostOps2 _ hostOps2_writes (by decide : main_arg2 ∉ hostOps2_W)).trans <|
  (B4_of_ne m c main_arg2 (by decide)).trans <|
  (StableHlo.after_of_writes_sub hostOps1 _ hostOps1_writes (by decide : main_arg2 ∉ hostOps1_W)).trans <|
  (B2_of_ne m c main_arg2 (by decide)).trans <|
  (StableHlo.after_of_writes_sub hostOps0 _ hostOps0_writes (by decide : main_arg2 ∉ hostOps0_W)).trans rfl

theorem B9_main_arg3 (c : Dev nD) : B9 m c (Proc.devRef .tc main_arg3) = m ((c : Thread nD τ).loc main_arg3) :=
  (StableHlo.after_of_writes_sub hostOps4 _ hostOps4_writes (by decide : main_arg3 ∉ hostOps4_W)).trans <|
  (B8_of_ne m c main_arg3 (by decide)).trans <|
  (StableHlo.after_of_writes_sub hostOps3 _ hostOps3_writes (by decide : main_arg3 ∉ hostOps3_W)).trans <|
  (B6_of_ne m c main_arg3 (by decide)).trans <|
  (StableHlo.after_of_writes_sub hostOps2 _ hostOps2_writes (by decide : main_arg3 ∉ hostOps2_W)).trans <|
  (B4_of_ne m c main_arg3 (by decide)).trans <|
  (StableHlo.after_of_writes_sub hostOps1 _ hostOps1_writes (by decide : main_arg3 ∉ hostOps1_W)).trans <|
  (B2_of_ne m c main_arg3 (by decide)).trans <|
  (StableHlo.after_of_writes_sub hostOps0 _ hostOps0_writes (by decide : main_arg3 ∉ hostOps0_W)).trans rfl

theorem B9_main_arg4 (c : Dev nD) : B9 m c (Proc.devRef .tc main_arg4) = m ((c : Thread nD τ).loc main_arg4) :=
  (StableHlo.after_of_writes_sub hostOps4 _ hostOps4_writes (by decide : main_arg4 ∉ hostOps4_W)).trans <|
  (B8_of_ne m c main_arg4 (by decide)).trans <|
  (StableHlo.after_of_writes_sub hostOps3 _ hostOps3_writes (by decide : main_arg4 ∉ hostOps3_W)).trans <|
  (B6_of_ne m c main_arg4 (by decide)).trans <|
  (StableHlo.after_of_writes_sub hostOps2 _ hostOps2_writes (by decide : main_arg4 ∉ hostOps2_W)).trans <|
  (B4_of_ne m c main_arg4 (by decide)).trans <|
  (StableHlo.after_of_writes_sub hostOps1 _ hostOps1_writes (by decide : main_arg4 ∉ hostOps1_W)).trans <|
  (B2_of_ne m c main_arg4 (by decide)).trans <|
  (StableHlo.after_of_writes_sub hostOps0 _ hostOps0_writes (by decide : main_arg4 ∉ hostOps0_W)).trans rfl

theorem B9_main_arg5 (c : Dev nD) : B9 m c (Proc.devRef .tc main_arg5) = m ((c : Thread nD τ).loc main_arg5) :=
  (StableHlo.after_of_writes_sub hostOps4 _ hostOps4_writes (by decide : main_arg5 ∉ hostOps4_W)).trans <|
  (B8_of_ne m c main_arg5 (by decide)).trans <|
  (StableHlo.after_of_writes_sub hostOps3 _ hostOps3_writes (by decide : main_arg5 ∉ hostOps3_W)).trans <|
  (B6_of_ne m c main_arg5 (by decide)).trans <|
  (StableHlo.after_of_writes_sub hostOps2 _ hostOps2_writes (by decide : main_arg5 ∉ hostOps2_W)).trans <|
  (B4_of_ne m c main_arg5 (by decide)).trans <|
  (StableHlo.after_of_writes_sub hostOps1 _ hostOps1_writes (by decide : main_arg5 ∉ hostOps1_W)).trans <|
  (B2_of_ne m c main_arg5 (by decide)).trans <|
  (StableHlo.after_of_writes_sub hostOps0 _ hostOps0_writes (by decide : main_arg5 ∉ hostOps0_W)).trans rfl

theorem B9_main_arg6 (c : Dev nD) : B9 m c (Proc.devRef .tc main_arg6) = m ((c : Thread nD τ).loc main_arg6) :=
  (StableHlo.after_of_writes_sub hostOps4 _ hostOps4_writes (by decide : main_arg6 ∉ hostOps4_W)).trans <|
  (B8_of_ne m c main_arg6 (by decide)).trans <|
  (StableHlo.after_of_writes_sub hostOps3 _ hostOps3_writes (by decide : main_arg6 ∉ hostOps3_W)).trans <|
  (B6_of_ne m c main_arg6 (by decide)).trans <|
  (StableHlo.after_of_writes_sub hostOps2 _ hostOps2_writes (by decide : main_arg6 ∉ hostOps2_W)).trans <|
  (B4_of_ne m c main_arg6 (by decide)).trans <|
  (StableHlo.after_of_writes_sub hostOps1 _ hostOps1_writes (by decide : main_arg6 ∉ hostOps1_W)).trans <|
  (B2_of_ne m c main_arg6 (by decide)).trans <|
  (StableHlo.after_of_writes_sub hostOps0 _ hostOps0_writes (by decide : main_arg6 ∉ hostOps0_W)).trans rfl

theorem B9_main_arg7 (c : Dev nD) : B9 m c (Proc.devRef .tc main_arg7) = m ((c : Thread nD τ).loc main_arg7) :=
  (StableHlo.after_of_writes_sub hostOps4 _ hostOps4_writes (by decide : main_arg7 ∉ hostOps4_W)).trans <|
  (B8_of_ne m c main_arg7 (by decide)).trans <|
  (StableHlo.after_of_writes_sub hostOps3 _ hostOps3_writes (by decide : main_arg7 ∉ hostOps3_W)).trans <|
  (B6_of_ne m c main_arg7 (by decide)).trans <|
  (StableHlo.after_of_writes_sub hostOps2 _ hostOps2_writes (by decide : main_arg7 ∉ hostOps2_W)).trans <|
  (B4_of_ne m c main_arg7 (by decide)).trans <|
  (StableHlo.after_of_writes_sub hostOps1 _ hostOps1_writes (by decide : main_arg7 ∉ hostOps1_W)).trans <|
  (B2_of_ne m c main_arg7 (by decide)).trans <|
  (StableHlo.after_of_writes_sub hostOps0 _ hostOps0_writes (by decide : main_arg7 ∉ hostOps0_W)).trans rfl

theorem B9_main_arg8 (c : Dev nD) : B9 m c (Proc.devRef .tc main_arg8) = m ((c : Thread nD τ).loc main_arg8) :=
  (StableHlo.after_of_writes_sub hostOps4 _ hostOps4_writes (by decide : main_arg8 ∉ hostOps4_W)).trans <|
  (B8_of_ne m c main_arg8 (by decide)).trans <|
  (StableHlo.after_of_writes_sub hostOps3 _ hostOps3_writes (by decide : main_arg8 ∉ hostOps3_W)).trans <|
  (B6_of_ne m c main_arg8 (by decide)).trans <|
  (StableHlo.after_of_writes_sub hostOps2 _ hostOps2_writes (by decide : main_arg8 ∉ hostOps2_W)).trans <|
  (B4_of_ne m c main_arg8 (by decide)).trans <|
  (StableHlo.after_of_writes_sub hostOps1 _ hostOps1_writes (by decide : main_arg8 ∉ hostOps1_W)).trans <|
  (B2_of_ne m c main_arg8 (by decide)).trans <|
  (StableHlo.after_of_writes_sub hostOps0 _ hostOps0_writes (by decide : main_arg8 ∉ hostOps0_W)).trans rfl

/-! ## The proof data family and the thread state -/

/-- No pipeline has a prefetched table. -/
abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E3 m) c
  | ⟨2, _⟩ => fun c => dat2 (E5 m) c
  | ⟨3, _⟩ => fun c => dat3 (E7 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
/-- A host stretch as a segment over the unscoped buffers. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev TH (c : Dev nD) : sProp 𝕄 := iprop(StableHlo.held (c : Thread nD τ) (Pipeline.ucRefs τ sig) (B9 m c) ∗ ∃ r, prngReg c r)

/-! ## The regions as segments -/

set_option backward.isDefEq.respectTransparency.types false in
/-- Region 0: entered from every unscoped buffer at the boundary before it, left at the one after it. Its arrays are
    split out of the unscoped buffers and put back at the exit contents; the generator register and the scoped rest go
    into the region's invariant and come back; nothing owed; no semaphore of the kernel's own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (admH (F := F) 0).1
          ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄)
        ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the boundary before it, left at the one after it. Its arrays are
    split out of the unscoped buffers and put back at the exit contents; the generator register and the scoped rest go
    into the region's invariant and come back; nothing owed; no semaphore of the kernel's own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (B3 m c) ∗ RH c)
  post c := iprop(StableHlo.held (c : Thread nD τ) (Pipeline.ucRefs τ sig) (B4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (admH (F := F) 1).1
          ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none]
    have h : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E3 m c) (E4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the boundary before it, left at the one after it. Its arrays are
    split out of the unscoped buffers and put back at the exit contents; the generator register and the scoped rest go
    into the region's invariant and come back; nothing owed; no semaphore of the kernel's own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (B5 m c) ∗ RH c)
  post c := iprop(StableHlo.held (c : Thread nD τ) (Pipeline.ucRefs τ sig) (B6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (admH (F := F) 2).1
          ∗ Pipeline.scopedRest (Ix := Unit) (Name := ℕ) (U := UR sig nD τ) (Lvl := ℕ) (Val := Elt F) spec2 c)
        ⊢ (Pipeline.ΦA spec2 c : sProp 𝕄) := by
      unfold Pipeline.ΦA
      iintro ⟨Hp, -, Hr⟩
      isplitl [Hr]; · iexact Hr
      iexact Hp
    exact h.trans (hin2 (E5 m) c)
  hout c := by
    rw [Pipeline.ownSems0_none]
    have h : (Pipeline.ΦA spec2 c : sProp 𝕄)
        ⊢ iprop((∃ r, prngReg c r) ∗ emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (E5 m) c).trans h
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E5 m c) (E6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the boundary before it, left at the one after it. Its arrays are
    split out of the unscoped buffers and put back at the exit contents; the generator register and the scoped rest go
    into the region's invariant and come back; nothing owed; no semaphore of the kernel's own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LH lvH 3 fun _ _ => rfl
  pre c := iprop(StableHlo.held (c : Thread nD τ) (Pipeline.ucRefs τ sig) (B7 m c) ∗ RH c)
  post c := iprop(StableHlo.held (c : Thread nD τ) (Pipeline.ucRefs τ sig) (B8 m c) ∗ RH c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 3).pre c (fun _ => fullShare) (admH (F := F) 3).1
          ∗ Pipeline.scopedRest (Ix := Unit) (Name := ℕ) (U := UR sig nD τ) (Lvl := ℕ) (Val := Elt F) spec3 c)
        ⊢ (Pipeline.ΦA spec3 c : sProp 𝕄) := by
      unfold Pipeline.ΦA
      iintro ⟨Hp, -, Hr⟩
      isplitl [Hr]; · iexact Hr
      iexact Hp
    exact h.trans (hin3 (E7 m) c)
  hout c := by
    rw [Pipeline.ownSems0_none]
    have h : (Pipeline.ΦA spec3 c : sProp 𝕄)
        ⊢ iprop((∃ r, prngReg c r) ∗ emp ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (E7 m) c).trans h
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (E7 m c) (E8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (B0 m)),
    .region (reg0 m),
    .host (hsegH hostOps1 hostOps1_sub hostOps1_fresh (B2 m)),
    .region (reg1 m),
    .host (hsegH hostOps2 hostOps2_sub hostOps2_fresh (B4 m)),
    .region (reg2 m),
    .host (hsegH hostOps3 hostOps3_sub hostOps3_fresh (B6 m)),
    .region (reg3 m),
    .host (hsegH hostOps4 hostOps4_sub hostOps4_fresh (B8 m)) ]

/-- @main is the run of the segments. -/
theorem main_runH (c : Dev nD) : main (F := F) c = Pipeline.Seg.run (segsH m) := (main_chain c).trans (by chain_rfl)

set_option backward.isDefEq.respectTransparency.types false in
/-- From any memory with zero counters every weakly fair execution of @main terminates, nothing faulting, and the final
    memory holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TH m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B9 m c) ∗ RH c)
          ⊢ (iprop(TH m c ∗ ∃ W, owes (c : Thread nD τ) (0 : CellTallies nD τ sig Unit) W) : sProp 𝕄)
        iintro ⟨Hh, ⟨Hp, HO⟩⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- The frame: the arguments end as launched. -/
theorem frameH (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (mem_ucH main_arg0 (by decide))).trans (B9_main_arg0 m c),
    (h c _ (mem_ucH main_arg1 (by decide))).trans (B9_main_arg1 m c),
    (h c _ (mem_ucH main_arg2 (by decide))).trans (B9_main_arg2 m c),
    (h c _ (mem_ucH main_arg3 (by decide))).trans (B9_main_arg3 m c),
    (h c _ (mem_ucH main_arg4 (by decide))).trans (B9_main_arg4 m c),
    (h c _ (mem_ucH main_arg5 (by decide))).trans (B9_main_arg5 m c),
    (h c _ (mem_ucH main_arg6 (by decide))).trans (B9_main_arg6 m c),
    (h c _ (mem_ucH main_arg7 (by decide))).trans (B9_main_arg7 m c),
    (h c _ (mem_ucH main_arg8 (by decide))).trans (B9_main_arg8 m c)⟩) (run_all m ρ)

end Cert.Kernel.Hand

end
-- ==== Proof.KI.R0Base.lean ====
import proofs.«137211_j12206297055730_2_alg».proof.Proof.Gen.KernelIdeal.Launch
import proofs.«137211_j12206297055730_2_alg».proof.Proof.Gen.KernelIdeal.Skeleton
import proofs.«137211_j12206297055730_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: fused = (channel 1 of the adjacency's derivative) · (channel 1 of the adjacency), block by block

The grid is 2 × 2 × 16: point t has output block (t / 32, (t / 16) % 2) and contraction block t % 16. At contraction
block 0 the body zeroes its accumulator; at every block it adds the product of a 2048 × 256 block of the left matrix
and a 256 × 2048 block of the right one; at contraction block 15 it stores the accumulator into the output block,
which is written back there and only there. -/

section
variable (V : (c : Dev nD) → (b : Ref sig .tc) → Buf (Elt F) ((c : Thread nD τ).loc b))

/-- Window w's block at point t, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions over the grid -/

/-- The reset branch is taken: the contraction block is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- The store-out branch is taken: the contraction block is the last one. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The memrefs the body is called with -/

abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x2048 .f32 := Memref.whole cc0_scratch0
abbrev VS0 : View sig .tc .vmem S2048x2048 .f32 := (scM0).view
/-- One staging buffer of the output window, through which its contents are stated. -/
abbrev VO0 : View sig .tc .vmem S2048x2048 .bf16 := (Memref.whole cc0_stg2_0 : Memref sig .tc .vmem S2048x2048 .bf16).view

/-- The region's resting invariant with the accumulator owned at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

end Cert.KernelIdeal.Hand

end
-- ==== Proof.KI.R0RunA.lean ====
import proofs.«137211_j12206297055730_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0 (the accumulator at anything, the output block handed back untouched): it leaves the accumulator with the listed pieces written — the reset, then the first block product added. -/
noncomputable def kernelRun0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i)
    (x0 : Vec F S2048x256 .bf16) (x1 : Vec F S256x2048 .bf16) :
    Σ' (L2 : List (View.Piece (Elt F) S2048x2048 .bf16)), { LS : List (View.Piece (Elt F) S2048x2048 .f32) //
      ∀ (xi2 : Vec F S2048x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.KI.R0RunB.lean ====
import proofs.«137211_j12206297055730_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle contraction block (the accumulator at what the point before left, the output block handed back untouched): it leaves the accumulator with the listed piece written — the block product added. -/
noncomputable def kernelRun0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i)
    (x0 : Vec F S2048x256 .bf16) (x1 : Vec F S256x2048 .bf16) (xs : Vec F S2048x2048 .f32) :
    Σ' (L2 : List (View.Piece (Elt F) S2048x2048 .bf16)), { LS : List (View.Piece (Elt F) S2048x2048 .f32) //
      ∀ (xi2 : Vec F S2048x2048 .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg3 harg3 arg4 harg4 arg5 harg5 arg6 harg6) K } := by
  refine ⟨[], ?_, fun xi2 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.KI.R0RunC.lean ====
import proofs.«137211_j12206297055730_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block (the accumulator at what the point before left, the output block at anything): it leaves the accumulator and the output block with the listed pieces written — the block product added, the sum stored out. -/
noncomputable def kernelRun0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i)
    (x0 : Vec F S2048x256 .bf16) (x1 : Vec F S256x2048 .bf16) (xs : Vec F S2048x2048 .f32) :
    Σ' (L2 : List (View.Piece (Elt F) S2048x2048 .bf16)), { LS : List (View.Piece (Elt F) S2048x2048 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc0_kernel i arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; iexact H2
    iexists _; iexact HS

end Cert.KernelIdeal.Hand

end
-- ==== Proof.KI.R0.lean ====
import proofs.«137211_j12206297055730_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- What case A leaves in the output block's staging buffer (nothing is stored there: a placeholder nothing consults, the window being idle and not written back). -/
def out0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i) (x0 : Vec F S2048x256 .bf16) (x1 : Vec F S256x2048 .bf16) : Vec F S2048x2048 .bf16 :=
  VO0.read (Elt F) (VO0.writes (Elt F) VO0.junk (kernelRun0_A c i arg3 harg3 arg4 harg4 arg5 harg5 arg6 harg6 hc0 hc1 x0 x1).1)

/-- Case A's stores into the accumulator cover it. -/
theorem scover0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i) (x0 : Vec F S2048x256 .bf16) (x1 : Vec F S256x2048 .bf16) (y : S2048x2048.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S2048x2048.size (by sl_kernel_rfl) y

/-- What case A leaves in the accumulator. -/
def sout0_A (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i) (x0 : Vec F S2048x256 .bf16) (x1 : Vec F S256x2048 .bf16) : Vec F S2048x2048 .f32 :=
  VS0.read (Elt F) (VS0.writes (Elt F) VS0.junk (kernelRun0_A c i arg3 harg3 arg4 harg4 arg5 harg5 arg6 harg6 hc0 hc1 x0 x1).2.1)

/-- What case B leaves in the output block's staging buffer (nothing is stored there: a placeholder nothing consults, the window being idle and not written back). -/
def out0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i) (x0 : Vec F S2048x256 .bf16) (x1 : Vec F S256x2048 .bf16) (xs : Vec F S2048x2048 .f32) : Vec F S2048x2048 .bf16 :=
  VO0.read (Elt F) (VO0.writes (Elt F) VO0.junk (kernelRun0_B c i arg3 harg3 arg4 harg4 arg5 harg5 arg6 harg6 hc0 hc1 x0 x1 xs).1)

/-- Case B's stores into the accumulator cover it. -/
theorem scover0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i) (x0 : Vec F S2048x256 .bf16) (x1 : Vec F S256x2048 .bf16) (xs : Vec F S2048x2048 .f32) (y : S2048x2048.Idx) :
    ∃ pc ∈ (kernelRun0_B c i arg3 harg3 arg4 harg4 arg5 harg5 arg6 harg6 hc0 hc1 x0 x1 xs).2.1, y ∈ pc.1.set :=
  View.cover_of_tiledL (kernelRun0_B c i arg3 harg3 arg4 harg4 arg5 harg5 arg6 harg6 hc0 hc1 x0 x1 xs).2.1 S2048x2048.size (by sl_kernel_rfl) y

/-- What case B leaves in the accumulator. -/
def sout0_B (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i) (x0 : Vec F S2048x256 .bf16) (x1 : Vec F S256x2048 .bf16) (xs : Vec F S2048x2048 .f32) : Vec F S2048x2048 .f32 :=
  VS0.read (Elt F) (VS0.writes (Elt F) VS0.junk (kernelRun0_B c i arg3 harg3 arg4 harg4 arg5 harg5 arg6 harg6 hc0 hc1 x0 x1 xs).2.1)

/-- The store of the last contraction block covers the output block. -/
theorem cover0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) (y : S2048x2048.Idx) :
    ∃ pc ∈ (kernelRun0_C c i arg3 harg3 arg4 harg4 arg5 harg5 arg6 harg6 hc0 hc1 x0 x1 xs).1, y ∈ pc.1.set :=
  View.cover_of_tiledL (kernelRun0_C c i arg3 harg3 arg4 harg4 arg5 harg5 arg6 harg6 hc0 hc1 x0 x1 xs).1 S2048x2048.size (by sl_kernel_rfl) y

/-- What case C leaves in the output block's staging buffer. -/
def out0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) : Vec F S2048x2048 .bf16 :=
  VO0.read (Elt F) (VO0.writes (Elt F) VO0.junk (kernelRun0_C c i arg3 harg3 arg4 harg4 arg5 harg5 arg6 harg6 hc0 hc1 x0 x1 xs).1)

/-- Case C's stores into the accumulator cover it. -/
theorem scover0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) (y : S2048x2048.Idx) :
    ∃ pc ∈ (kernelRun0_C c i arg3 harg3 arg4 harg4 arg5 harg5 arg6 harg6 hc0 hc1 x0 x1 xs).2.1, y ∈ pc.1.set :=
  View.cover_of_tiledL (kernelRun0_C c i arg3 harg3 arg4 harg4 arg5 harg5 arg6 harg6 hc0 hc1 x0 x1 xs).2.1 S2048x2048.size (by sl_kernel_rfl) y

/-- What case C leaves in the accumulator. -/
def sout0_C (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) : Vec F S2048x2048 .f32 :=
  VS0.read (Elt F) (VS0.writes (Elt F) VS0.junk (kernelRun0_C c i arg3 harg3 arg4 harg4 arg5 harg5 arg6 harg6 hc0 hc1 x0 x1 xs).2.1)

section
variable (V : (c : Dev nD) → (b : Ref sig .tc) → Buf (Elt F) ((c : Thread nD τ).loc b))

/-! ## Point by point -/

/-- What the output block's staging buffer and the accumulator hold after the body at position n: a position with
    contraction block 0 resets and adds the first product; every other adds its product to what the position before
    left; the last contraction block also stores the sum out. -/
def outsAt0 (c : Dev nD) : (n : ℕ) → n < cfg0.N → Vec F S2048x2048 .bf16 × Vec F S2048x2048 .f32
  | 0, hn =>
    have h0 : (⟨0, hn⟩ : Fin cfg0.N).val % 16 = 0 := Nat.zero_mod _
    have h1 : ¬(⟨0, hn⟩ : Fin cfg0.N).val % 16 = 15 := by dsimp only; omega
    (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr h0) (fun h => h1 ((hcond0_1 ⟨0, hn⟩).mp h)) (iblk0 V c 0 ⟨0, hn⟩) (iblk0 V c 1 ⟨0, hn⟩),
       sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr h0) (fun h => h1 ((hcond0_1 ⟨0, hn⟩).mp h)) (iblk0 V c 0 ⟨0, hn⟩) (iblk0 V c 1 ⟨0, hn⟩))
  | n + 1, hn =>
    if h0 : (n + 1) % 16 = 0 then
      have h1 : ¬(n + 1) % 16 = 15 := by omega
      (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
       sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
       sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
       sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
       sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: at the start the resting one; afterwards the accumulator at what the
    position before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the contraction block of the position says which
    case runs; the invariant hands the body the accumulator (at anything at contraction block 0, at what the position
    before left elsewhere) and takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
    rw [outsAt0_A V c t h0 h1]
    unfold sout0_A; (try dsimp only)
    have hrun := (kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2.2
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hrest⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := by intro h; rw [h] at h0; exact h0 (Nat.zero_mod _)
    by_cases h1 : t.val % 16 = 15
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C sout0_C; (try dsimp only)
      have hrun := (kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2).2.2
      rw [PhiS0_castSucc V c t, PhiS0_pos V c _ _ hz]
      iintro ⟨⟨⟨HS, Hrest⟩, Hg⟩, Ho, ⟨%d0, H0⟩, ⟨%d1, H1⟩, ⟨%d2, H2⟩⟩
      iapply (hrun Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B; (try dsimp only)
      have hrun := (kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2).2.2
      rw [PhiS0_castSucc V c t, PhiS0_pos V c _ _ hz]
      iintro ⟨⟨⟨HS, Hrest⟩, Hg⟩, Ho, ⟨%d0, H0⟩, ⟨%d1, H1⟩, ⟨%d2, H2⟩⟩
      iapply (hrun _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- The resting invariant is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the resting one back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hrest⟩, Hg⟩
  isplitl [HS Hrest]
  · isplitl [HS]
    · iexists _; iexact HS
    iexact Hrest
  iexact Hg

end

end Cert.KernelIdeal.Hand

end
-- ==== Proof.KI.R1Base.lean ====
import proofs.«137211_j12206297055730_2_alg».proof.Proof.Gen.KernelIdeal.Launch
import proofs.«137211_j12206297055730_2_alg».proof.Proof.Gen.KernelIdeal.Skeleton
import proofs.«137211_j12206297055730_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: one layer's aggregation, out = fused · z + bias, the product accumulated over two column blocks of fused

The grid is 2 × 2: point t has row block t / 2 and contraction block t % 2. At contraction block 0 the body zeroes
its accumulator and adds the block product; at contraction block 1 it adds the second product and stores
accumulator + bias (through the layer's activation) into the output block, which is written back there and only there. -/

section
variable (V : (c : Dev nD) → (b : Ref sig .tc) → Buf (Elt F) ((c : Thread nD τ).loc b))

/-- Window w's block at point t, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether fetched there or carried from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether fetched there or carried from the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether fetched there or carried from the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions over the grid -/

/-- The reset branch is taken: the contraction block is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- The store-out branch is taken: the contraction block is the last one. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At contraction block 0 the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the last contraction block it is live. -/
theorem liveAt1_3_B : ∀ t : Fin cfg1.N, ¬cond1_0 (grid1.coords t) → cond1_1 (grid1.coords t) → cfg1.idle 3 (grid1.coords t) = false := by decide +kernel

/-! ## The memrefs the body is called with -/

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x256 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S2048x256 .f32 := Memref.whole cc1_scratch0
abbrev VS1 : View sig .tc .vmem S2048x256 .f32 := (scM1).view
/-- One staging buffer of the output window, through which its contents are stated. -/
abbrev VO1 : View sig .tc .vmem S2048x256 .f32 := (Memref.whole cc1_stg3_0 : Memref sig .tc .vmem S2048x256 .f32).view

/-- The scoped buffers that are no staging buffer of this call, split at the accumulator. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region's resting invariant with the accumulator owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

end Cert.KernelIdeal.Hand

end
-- ==== Proof.KI.R1RunA.lean ====
import proofs.«137211_j12206297055730_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0, on whole memrefs — the three inputs at their contents, the output block handed
    back untouched, the accumulator at anything: it runs, leaving the accumulator with the listed pieces written
    (the reset, then the first block product added to it). -/
noncomputable def kernelRun1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i)
    (x0 : Vec F S2048x2048 .bf16) (x1 : Vec F S2048x256 .bf16) (x2 : Vec F S1x256 .f32) :
    Σ' (L3 : List (View.Piece (Elt F) S2048x256 .f32)), { LS : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R1RunB.lean ====
import proofs.«137211_j12206297055730_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block, on whole memrefs — the three inputs at their contents, the output block at
    anything, the accumulator at what the point before left: it runs, leaving the accumulator and the output block
    with the listed pieces written (the second block product added; accumulator + bias through the activation stored out). -/
noncomputable def kernelRun1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i)
    (x0 : Vec F S2048x2048 .bf16) (x1 : Vec F S2048x256 .bf16) (x2 : Vec F S1x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.KI.R1.lean ====
import proofs.«137211_j12206297055730_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- At contraction block 0 nothing is stored into the output block: a placeholder nothing consults
    (the window is idle there and is not written back). -/
def out1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .bf16) (x2 : Vec F S1x256 .f32) : Vec F S2048x256 .f32 :=
  VO1.read (Elt F) (VO1.writes (Elt F) VO1.junk (kernelRun1_A c i arg2 harg2 arg3 harg3 arg4 harg4 arg5 harg5 arg6 harg6 hc0 hc1 x0 x1 x2).1)

/-- The stores of contraction block 0 cover the accumulator. -/
theorem scover1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .bf16) (x2 : Vec F S1x256 .f32) (y : S2048x256.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x256.size (by sl_kernel_rfl) y

/-- What contraction block 0 leaves in the accumulator. -/
def sout1_A (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .bf16) (x2 : Vec F S1x256 .f32) : Vec F S2048x256 .f32 :=
  VS1.read (Elt F) (VS1.writes (Elt F) VS1.junk (kernelRun1_A c i arg2 harg2 arg3 harg3 arg4 harg4 arg5 harg5 arg6 harg6 hc0 hc1 x0 x1 x2).2.1)

/-- The store of the last contraction block covers the output block. -/
theorem cover1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) (y : S2048x256.Idx) :
    ∃ pc ∈ (kernelRun1_B c i arg2 harg2 arg3 harg3 arg4 harg4 arg5 harg5 arg6 harg6 hc0 hc1 x0 x1 x2 xs).1, y ∈ pc.1.set :=
  View.cover_of_tiledL (kernelRun1_B c i arg2 harg2 arg3 harg3 arg4 harg4 arg5 harg5 arg6 harg6 hc0 hc1 x0 x1 x2 xs).1 S2048x256.size (by sl_kernel_rfl) y

/-- What the last contraction block leaves in the output block. -/
def out1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) : Vec F S2048x256 .f32 :=
  VO1.read (Elt F) (VO1.writes (Elt F) VO1.junk (kernelRun1_B c i arg2 harg2 arg3 harg3 arg4 harg4 arg5 harg5 arg6 harg6 hc0 hc1 x0 x1 x2 xs).1)

/-- Its store into the accumulator covers it. -/
theorem scover1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) (y : S2048x256.Idx) :
    ∃ pc ∈ (kernelRun1_B c i arg2 harg2 arg3 harg3 arg4 harg4 arg5 harg5 arg6 harg6 hc0 hc1 x0 x1 x2 xs).2.1, y ∈ pc.1.set :=
  View.cover_of_tiledL (kernelRun1_B c i arg2 harg2 arg3 harg3 arg4 harg4 arg5 harg5 arg6 harg6 hc0 hc1 x0 x1 x2 xs).2.1 S2048x256.size (by sl_kernel_rfl) y

/-- What the last contraction block leaves in the accumulator. -/
def sout1_B (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) : Vec F S2048x256 .f32 :=
  VS1.read (Elt F) (VS1.writes (Elt F) VS1.junk (kernelRun1_B c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## Point by point -/

/-- What the output block's staging buffer and the accumulator hold after the body at position n: an even position
    resets and adds the first product, an odd one adds the second to what the position before left. -/
def outsAt1 (c : Dev nD) : (n : ℕ) → n < cfg1.N → Vec F S2048x256 .f32 × Vec F S2048x256 .f32
  | 0, hn =>
    have h0 : (⟨0, hn⟩ : Fin cfg1.N).val % 2 = 0 := Nat.zero_mod _
    have h1 : ¬(⟨0, hn⟩ : Fin cfg1.N).val % 2 = 1 := by dsimp only; omega
    (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
     sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      have h1 : ¬(n + 1) % 2 = 1 := by omega
      (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
       sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      have h1 : (n + 1) % 2 = 1 := by omega
      (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 2 = 0) (h1 : ¬t.val % 2 = 1) :
    outsAt1 V c t.val t.isLt
      = (out1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
         sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 2 = 0) (h1 : t.val % 2 = 1) :
    outsAt1 V c t.val t.isLt
      = (out1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
         sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at the start the resting one; afterwards the accumulator at what the
    position before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at the
    point-by-point contents; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the parity of the position says which case runs;
    the invariant hands the body the accumulator (at anything at an even position, at what the position before left
    at an odd one) and takes it back at this position's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 4 := lt_of_lt_of_eq t.isLt (show cfg1.N = 4 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A; (try dsimp only)
    have hrun := (kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2.2
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover1_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B sout1_B; (try dsimp only)
    have hz : t.val ≠ 0 := by omega
    have hrun := (kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2).2.2
    rw [PhiS1_castSucc V c t, PhiS1_pos V c _ _ hz]
    iintro ⟨⟨⟨HS, Hrest⟩, Hg⟩, Ho, ⟨%d0, H0⟩, ⟨%d1, H1⟩, ⟨%d2, H2⟩, ⟨%d3, H3⟩⟩
    iapply (hrun Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover1_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _ _)

/-- The body obligation at every point. -/
theorem body_obligation1 (c : Dev nD) : BodyObligation (dat1 (F := F) V c) (defs₀ (F := F)) Variants.none () Set.univ := fun t => by
  rw [bigSep_W1, bigSep_W1]
  exact sound_body1 V c t

/-- The resting invariant is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the resting one back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 4 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS, Hrest⟩, Hg⟩
  isplitl [HS Hrest]
  · isplitl [HS]
    · iexists _; iexact HS
    iexact Hrest
  iexact Hg

end

end Cert.KernelIdeal.Hand

end
-- ==== Proof.KI.R2Base.lean ====
import proofs.«137211_j12206297055730_2_alg».proof.Proof.Gen.KernelIdeal.Launch
import proofs.«137211_j12206297055730_2_alg».proof.Proof.Gen.KernelIdeal.Skeleton
import proofs.«137211_j12206297055730_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: one layer's aggregation, out = fused · z + bias, the product accumulated over two column blocks of fused

The grid is 2 × 2: point t has row block t / 2 and contraction block t % 2. At contraction block 0 the body zeroes
its accumulator and adds the block product; at contraction block 1 it adds the second product and stores
accumulator + bias (through the layer's activation) into the output block, which is written back there and only there. -/

section
variable (V : (c : Dev nD) → (b : Ref sig .tc) → Buf (Elt F) ((c : Thread nD τ).loc b))

/-- Window w's block at point t, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or carried from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether fetched there or carried from the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether fetched there or carried from the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions over the grid -/

/-- The reset branch is taken: the contraction block is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- The store-out branch is taken: the contraction block is the last one. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are live -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At contraction block 0 the output window is idle and is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- At the last contraction block it is live. -/
theorem liveAt2_3_B : ∀ t : Fin cfg2.N, ¬cond2_0 (grid2.coords t) → cond2_1 (grid2.coords t) → cfg2.idle 3 (grid2.coords t) = false := by decide +kernel

/-! ## The memrefs the body is called with -/

abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x256 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2 : Memref sig .tc .vmem S2048x256 .f32 := Memref.whole cc2_scratch0
abbrev VS2 : View sig .tc .vmem S2048x256 .f32 := (scM2).view
/-- One staging buffer of the output window, through which its contents are stated. -/
abbrev VO2 : View sig .tc .vmem S2048x256 .f32 := (Memref.whole cc2_stg3_0 : Memref sig .tc .vmem S2048x256 .f32).view

/-- The scoped buffers that are no staging buffer of this call, split at the accumulator. -/
theorem scopedRest2_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f))
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The region's resting invariant with the accumulator owned at some contents. -/
theorem PhiA2_eq (c : Dev nD) :
    (Pipeline.ΦA spec2 c : sProp 𝕄)
      = iprop(iprop((∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

end Cert.KernelIdeal.Hand

end
-- ==== Proof.KI.R2RunA.lean ====
import proofs.«137211_j12206297055730_2_alg».proof.Proof.KI.R2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0, on whole memrefs — the three inputs at their contents, the output block handed
    back untouched, the accumulator at anything: it runs, leaving the accumulator with the listed pieces written
    (the reset, then the first block product added to it). -/
noncomputable def kernelRun2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i)
    (x0 : Vec F S2048x2048 .bf16) (x1 : Vec F S2048x256 .bf16) (x2 : Vec F S1x256 .f32) :
    Σ' (L3 : List (View.Piece (Elt F) S2048x256 .f32)), { LS : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R2RunB.lean ====
import proofs.«137211_j12206297055730_2_alg».proof.Proof.KI.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block, on whole memrefs — the three inputs at their contents, the output block at
    anything, the accumulator at what the point before left: it runs, leaving the accumulator and the output block
    with the listed pieces written (the second block product added; accumulator + bias through the activation stored out). -/
noncomputable def kernelRun2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i)
    (x0 : Vec F S2048x2048 .bf16) (x1 : Vec F S2048x256 .bf16) (x2 : Vec F S1x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.KI.R2.lean ====
import proofs.«137211_j12206297055730_2_alg».proof.Proof.KI.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- At contraction block 0 nothing is stored into the output block: a placeholder nothing consults
    (the window is idle there and is not written back). -/
def out2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .bf16) (x2 : Vec F S1x256 .f32) : Vec F S2048x256 .f32 :=
  VO2.read (Elt F) (VO2.writes (Elt F) VO2.junk (kernelRun2_A c i arg2 harg2 arg3 harg3 arg4 harg4 arg5 harg5 arg6 harg6 hc0 hc1 x0 x1 x2).1)

/-- The stores of contraction block 0 cover the accumulator. -/
theorem scover2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .bf16) (x2 : Vec F S1x256 .f32) (y : S2048x256.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x256.size (by sl_kernel_rfl) y

/-- What contraction block 0 leaves in the accumulator. -/
def sout2_A (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .bf16) (x2 : Vec F S1x256 .f32) : Vec F S2048x256 .f32 :=
  VS2.read (Elt F) (VS2.writes (Elt F) VS2.junk (kernelRun2_A c i arg2 harg2 arg3 harg3 arg4 harg4 arg5 harg5 arg6 harg6 hc0 hc1 x0 x1 x2).2.1)

/-- The store of the last contraction block covers the output block. -/
theorem cover2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) (y : S2048x256.Idx) :
    ∃ pc ∈ (kernelRun2_B c i arg2 harg2 arg3 harg3 arg4 harg4 arg5 harg5 arg6 harg6 hc0 hc1 x0 x1 x2 xs).1, y ∈ pc.1.set :=
  View.cover_of_tiledL (kernelRun2_B c i arg2 harg2 arg3 harg3 arg4 harg4 arg5 harg5 arg6 harg6 hc0 hc1 x0 x1 x2 xs).1 S2048x256.size (by sl_kernel_rfl) y

/-- What the last contraction block leaves in the output block. -/
def out2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) : Vec F S2048x256 .f32 :=
  VO2.read (Elt F) (VO2.writes (Elt F) VO2.junk (kernelRun2_B c i arg2 harg2 arg3 harg3 arg4 harg4 arg5 harg5 arg6 harg6 hc0 hc1 x0 x1 x2 xs).1)

/-- Its store into the accumulator covers it. -/
theorem scover2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) (y : S2048x256.Idx) :
    ∃ pc ∈ (kernelRun2_B c i arg2 harg2 arg3 harg3 arg4 harg4 arg5 harg5 arg6 harg6 hc0 hc1 x0 x1 x2 xs).2.1, y ∈ pc.1.set :=
  View.cover_of_tiledL (kernelRun2_B c i arg2 harg2 arg3 harg3 arg4 harg4 arg5 harg5 arg6 harg6 hc0 hc1 x0 x1 x2 xs).2.1 S2048x256.size (by sl_kernel_rfl) y

/-- What the last contraction block leaves in the accumulator. -/
def sout2_B (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) : Vec F S2048x256 .f32 :=
  VS2.read (Elt F) (VS2.writes (Elt F) VS2.junk (kernelRun2_B c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## Point by point -/

/-- What the output block's staging buffer and the accumulator hold after the body at position n: an even position
    resets and adds the first product, an odd one adds the second to what the position before left. -/
def outsAt2 (c : Dev nD) : (n : ℕ) → n < cfg2.N → Vec F S2048x256 .f32 × Vec F S2048x256 .f32
  | 0, hn =>
    have h0 : (⟨0, hn⟩ : Fin cfg2.N).val % 2 = 0 := Nat.zero_mod _
    have h1 : ¬(⟨0, hn⟩ : Fin cfg2.N).val % 2 = 1 := by dsimp only; omega
    (out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩),
     sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      have h1 : ¬(n + 1) % 2 = 1 := by omega
      (out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
       sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      have h1 : (n + 1) % 2 = 1 := by omega
      (out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
       sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 2 = 0) (h1 : ¬t.val % 2 = 1) :
    outsAt2 V c t.val t.isLt
      = (out2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t),
         sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans rfl

theorem outsAt2_B (c : Dev nD) (t : Fin cfg2.N) (h0 : ¬t.val % 2 = 0) (h1 : t.val % 2 = 1) :
    outsAt2 V c t.val t.isLt
      = (out2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
         sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at the start the resting one; afterwards the accumulator at what the
    position before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; after the body each input's buffer at its block, the output's at the
    point-by-point contents; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the parity of the position says which case runs;
    the invariant hands the body the accumulator (at anything at an even position, at what the position before left
    at an odd one) and takes it back at this position's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 4 := lt_of_lt_of_eq t.isLt (show cfg2.N = 4 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have h1 : ¬t.val % 2 = 1 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A; (try dsimp only)
    have hrun := (kernelRun2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)).2.2
    by_cases hz : t.val = 0
    · rw [PhiS2_castSucc V c t, PhiS2_zero V c _ _ hz, PhiA2_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover2_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1)], after2_3]
    rw [outsAt2_B V c t h0 h1]
    unfold out2_B sout2_B; (try dsimp only)
    have hz : t.val ≠ 0 := by omega
    have hrun := (kernelRun2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2).2.2
    rw [PhiS2_castSucc V c t, PhiS2_pos V c _ _ hz]
    iintro ⟨⟨⟨HS, Hrest⟩, Hg⟩, Ho, ⟨%d0, H0⟩, ⟨%d1, H1⟩, ⟨%d2, H2⟩, ⟨%d3, H3⟩⟩
    iapply (hrun Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover2_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_B c _ _ _ _ _ _ _ _ _ _ _ _ _ _ _ _ _)

/-- The body obligation at every point. -/
theorem body_obligation2 (c : Dev nD) : BodyObligation (dat2 (F := F) V c) (defs₀ (F := F)) Variants.none () Set.univ := fun t => by
  rw [bigSep_W2, bigSep_W2]
  exact sound_body2 V c t

/-- The resting invariant is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the resting one back: the accumulator's contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 4 := N_2; omega
  rw [show (dat2 V c).Φ (Fin.last cfg2.N) = PhiS2 V c (Fin.last cfg2.N).val (Nat.le_of_lt_succ (Fin.last cfg2.N).isLt) from rfl,
    PhiS2_pos V c _ _ hne, PhiA2_eq]
  iintro ⟨⟨HS, Hrest⟩, Hg⟩
  isplitl [HS Hrest]
  · isplitl [HS]
    · iexists _; iexact HS
    iexact Hrest
  iexact Hg

end

end Cert.KernelIdeal.Hand

end
-- ==== Proof.KI.R3Base.lean ====
import proofs.«137211_j12206297055730_2_alg».proof.Proof.Gen.KernelIdeal.Launch
import proofs.«137211_j12206297055730_2_alg».proof.Proof.Gen.KernelIdeal.Skeleton
import proofs.«137211_j12206297055730_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: one layer's aggregation, out = fused · z + bias, the product accumulated over two column blocks of fused

The grid is 2 × 2: point t has row block t / 2 and contraction block t % 2. At contraction block 0 the body zeroes
its accumulator and adds the block product; at contraction block 1 it adds the second product and stores
accumulator + bias (through the layer's activation) into the output block, which is written back there and only there. -/

section
variable (V : (c : Dev nD) → (b : Ref sig .tc) → Buf (Elt F) ((c : Thread nD τ).loc b))

/-- Window w's block at point t, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether fetched there or carried from the point before. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether fetched there or carried from the point before. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether fetched there or carried from the point before. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end

/-! ## The two branch conditions over the grid -/

/-- The reset branch is taken: the contraction block is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 2 = 0 :=
  (by decide +kernel : ∀ t : Fin grid3.N, cond3_0 (grid3.coords t) ↔ t.val % 2 = 0)
/-- The store-out branch is taken: the contraction block is the last one. -/
abbrev cond3_1 (i : grid3.Coords) : Prop := k3_cond2 i = 1#1
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are live -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At contraction block 0 the output window is idle and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At the last contraction block it is live. -/
theorem liveAt3_3_B : ∀ t : Fin cfg3.N, ¬cond3_0 (grid3.coords t) → cond3_1 (grid3.coords t) → cfg3.idle 3 (grid3.coords t) = false := by decide +kernel

/-! ## The memrefs the body is called with -/

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x256 .f32 := win3_3.stage (cfg3.slots t 3)
abbrev hs3_3 (t : Fin cfg3.N) : (ms3_3 t).IsWhole := hstage3_3 ((cfg3.slots t 3).cast nbuf3_3)
/-- The accumulator: a whole scoped buffer of the kernel's own. -/
abbrev scM3 : Memref sig .tc .vmem S2048x256 .f32 := Memref.whole cc3_scratch0
abbrev VS3 : View sig .tc .vmem S2048x256 .f32 := (scM3).view
/-- One staging buffer of the output window, through which its contents are stated. -/
abbrev VO3 : View sig .tc .vmem S2048x256 .f32 := (Memref.whole cc3_stg3_0 : Memref sig .tc .vmem S2048x256 .f32).view

/-- The scoped buffers that are no staging buffer of this call, split at the accumulator. -/
theorem scopedRest3_split (c : Dev nD) :
    (Pipeline.scopedRest (Ix := Unit) (Name := ℕ) (U := UR sig nD τ) (Lvl := ℕ) (Val := Elt F) spec3 c : sProp 𝕄)
      = iprop(iprop((∃ f : Buf (Elt F) ((c : Thread nD τ).loc cc3_scratch0), ((c : Thread nD τ).loc cc3_scratch0) ↦{fullShare} f))
          ∗ Pipeline.scopedRestBut (Ix := Unit) (Name := ℕ) (U := UR sig nD τ) (Lvl := ℕ) (Val := Elt F) spec3 c [cc3_scratch0]) :=
  Pipeline.scopedRest_split_of_list spec3 c [cc3_scratch0] (by decide) (by decide)

/-- The region's resting invariant with the accumulator owned at some contents. -/
theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

end Cert.KernelIdeal.Hand

end
-- ==== Proof.KI.R3RunA.lean ====
import proofs.«137211_j12206297055730_2_alg».proof.Proof.KI.R3Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at contraction block 0, on whole memrefs — the three inputs at their contents, the output block handed
    back untouched, the accumulator at anything: it runs, leaving the accumulator with the listed pieces written
    (the reset, then the first block product added to it). -/
noncomputable def kernelRun3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i)
    (x0 : Vec F S2048x2048 .bf16) (x1 : Vec F S2048x256 .bf16) (x2 : Vec F S1x256 .f32) :
    Σ' (L3 : List (View.Piece (Elt F) S2048x256 .f32)), { LS : List (View.Piece (Elt F) S2048x256 .f32) //
      ∀ (xi3 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨[], ?_, fun xi3 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Hand

end
-- ==== Proof.KI.R3RunB.lean ====
import proofs.«137211_j12206297055730_2_alg».proof.Proof.KI.R3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last contraction block, on whole memrefs — the three inputs at their contents, the output block at
    anything, the accumulator at what the point before left: it runs, leaving the accumulator and the output block
    with the listed pieces written (the second block product added; accumulator + bias through the activation stored out). -/
noncomputable def kernelRun3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i)
    (x0 : Vec F S2048x2048 .bf16) (x1 : Vec F S2048x256 .bf16) (x2 : Vec F S1x256 .f32) (xs : Vec F S2048x256 .f32) :
    Σ' (L3 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc3_kernel i arg2 harg2 arg3 harg3 arg4 harg4 arg5 harg5 arg6 harg6) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.KI.R3.lean ====
import proofs.«137211_j12206297055730_2_alg».proof.Proof.KI.R3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulator and in the output block -/

/-- At contraction block 0 nothing is stored into the output block: a placeholder nothing consults
    (the window is idle there and is not written back). -/
def out3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .bf16) (x2 : Vec F S1x256 .f32) : Vec F S2048x256 .f32 :=
  VO3.read (Elt F) (VO3.writes (Elt F) VO3.junk (kernelRun3_A c i arg2 harg2 arg3 harg3 arg4 harg4 arg5 harg5 arg6 harg6 hc0 hc1 x0 x1 x2).1)

/-- The stores of contraction block 0 cover the accumulator. -/
theorem scover3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .bf16) (x2 : Vec F S1x256 .f32) (y : S2048x256.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S2048x256.size (by sl_kernel_rfl) y

/-- What contraction block 0 leaves in the accumulator. -/
def sout3_A (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .bf16) (x2 : Vec F S1x256 .f32) : Vec F S2048x256 .f32 :=
  VS3.read (Elt F) (VS3.writes (Elt F) VS3.junk (kernelRun3_A c i arg2 harg2 arg3 harg3 arg4 harg4 arg5 harg5 arg6 harg6 hc0 hc1 x0 x1 x2).2.1)

/-- The store of the last contraction block covers the output block. -/
theorem cover3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) (y : S2048x256.Idx) :
    ∃ pc ∈ (kernelRun3_B c i arg2 harg2 arg3 harg3 arg4 harg4 arg5 harg5 arg6 harg6 hc0 hc1 x0 x1 x2 xs).1, y ∈ pc.1.set :=
  View.cover_of_tiledL (kernelRun3_B c i arg2 harg2 arg3 harg3 arg4 harg4 arg5 harg5 arg6 harg6 hc0 hc1 x0 x1 x2 xs).1 S2048x256.size (by sl_kernel_rfl) y

/-- What the last contraction block leaves in the output block. -/
def out3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) : Vec F S2048x256 .f32 :=
  VO3.read (Elt F) (VO3.writes (Elt F) VO3.junk (kernelRun3_B c i arg2 harg2 arg3 harg3 arg4 harg4 arg5 harg5 arg6 harg6 hc0 hc1 x0 x1 x2 xs).1)

/-- Its store into the accumulator covers it. -/
theorem scover3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) (y : S2048x256.Idx) :
    ∃ pc ∈ (kernelRun3_B c i arg2 harg2 arg3 harg3 arg4 harg4 arg5 harg5 arg6 harg6 hc0 hc1 x0 x1 x2 xs).2.1, y ∈ pc.1.set :=
  View.cover_of_tiledL (kernelRun3_B c i arg2 harg2 arg3 harg3 arg4 harg4 arg5 harg5 arg6 harg6 hc0 hc1 x0 x1 x2 xs).2.1 S2048x256.size (by sl_kernel_rfl) y

/-- What the last contraction block leaves in the accumulator. -/
def sout3_B (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) : Vec F S2048x256 .f32 :=
  VS3.read (Elt F) (VS3.writes (Elt F) VS3.junk (kernelRun3_B c i arg2 harg2 arg3 harg3 arg4 harg4 arg5 harg5 arg6 harg6 hc0 hc1 x0 x1 x2 xs).2.1)

section
variable (V : (c : Dev nD) → (b : Ref sig .tc) → Buf (Elt F) ((c : Thread nD τ).loc b))

/-! ## Point by point -/

/-- What the output block's staging buffer and the accumulator hold after the body at position n: an even position
    resets and adds the first product, an odd one adds the second to what the position before left. -/
def outsAt3 (c : Dev nD) : (n : ℕ) → n < cfg3.N → Vec F S2048x256 .f32 × Vec F S2048x256 .f32
  | 0, hn =>
    have h0 : (⟨0, hn⟩ : Fin cfg3.N).val % 2 = 0 := Nat.zero_mod _
    have h1 : ¬(⟨0, hn⟩ : Fin cfg3.N).val % 2 = 1 := by dsimp only; omega
    (out3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩),
     sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3 (Memref.isWhole_whole _) ((hcond3_0 ⟨0, hn⟩).mpr h0) (fun h => h1 ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      have h1 : ¬(n + 1) % 2 = 1 := by omega
      (out3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩),
       sout3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      have h1 : (n + 1) % 2 = 1 := by omega
      (out3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2,
       sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 2 = 0) (h1 : ¬t.val % 2 = 1) :
    outsAt3 V c t.val t.isLt
      = (out3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t),
         sout3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans rfl

theorem outsAt3_B (c : Dev nD) (t : Fin cfg3.N) (h0 : ¬t.val % 2 = 0) (h1 : t.val % 2 = 1) :
    outsAt3 V c t.val t.isLt
      = (out3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2,
         sout3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region's invariant before position n: at the start the resting one; afterwards the accumulator at what the
    position before left, the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The proof data -/

/-- The arrays as the region finds them; after the body each input's buffer at its block, the output's at the
    point-by-point contents; the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' buffers hold their blocks; the parity of the position says which case runs;
    the invariant hands the body the accumulator (at anything at an even position, at what the position before left
    at an odd one) and takes it back at this position's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 4 := lt_of_lt_of_eq t.isLt (show cfg3.N = 4 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 2 = 0
  · have h1 : ¬t.val % 2 = 1 := by omega
    rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
    rw [outsAt3_A V c t h0 h1]
    unfold sout3_A; (try dsimp only)
    have hrun := (kernelRun3_A c (grid3.coords t) (ms3_0 t) (hs3_0 t) (ms3_1 t) (hs3_1 t) (ms3_2 t) (hs3_2 t) (ms3_3 t) (hs3_3 t) scM3 (Memref.isWhole_whole _) ((hcond3_0 t).mpr h0) (fun h => h1 ((hcond3_1 t).mp h)) (iblk3 V c 0 t) (iblk3 V c 1 t) (iblk3 V c 2 t)).2.2
    by_cases hz : t.val = 0
    · rw [PhiS3_castSucc V c t, PhiS3_zero V c _ _ hz, PhiA3_eq]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, Hrest⟩, Hg⟩, Ho, ⟨%d0, H0⟩, ⟨%d1, H1⟩, ⟨%d2, H2⟩, ⟨%d3, H3⟩⟩
      iapply (hrun _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hrest Hg]
      · isplitl [HS Hrest]
        · isplitl [HS]
          · unfold owns; iexists _; isplitr
            swap; · iexact HS
            ipureintro; exact View.read_writes_of_cover _ _ _ _ _ (scover3_A c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat3 V c).leavesExact 3 t = owns (c : Thread nD τ) (ms3_3 t) fullShare ((dat3 V c).after 3 t) from by
      unfold Dat.leavesExact; rw [liveAt3_3_B t (fun h => h0 ((hcond3_0 t).mp h)) ((hcond3_1 t).mpr h1)], after3_3]
    rw [outsAt3_B V c t h0 h1]
    unfold out3_B sout3_B; (try dsimp only)
    have hz : t.val ≠ 0 := by omega
    have hrun := (kernelRun3_B c (grid3.coords t) (ms3_0 t) (hs3_0 t) (ms3_1 t) (hs3_1 t) (ms3_2 t) (hs3_2 t) (ms3_3 t) (hs3_3 t) scM3 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2).2.2
    rw [PhiS3_castSucc V c t, PhiS3_pos V c _ _ hz]
    iintro ⟨⟨⟨HS, Hrest⟩, Hg⟩, Ho, ⟨%d0, H0⟩, ⟨%d1, H1⟩, ⟨%d2, H2⟩, ⟨%d3, H3⟩⟩
    iapply (hrun Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest Hg]
    · isplitl [HS Hrest]
      · isplitl [HS]
        · unfold owns; iexists _; isplitr
          swap; · iexact HS
          ipureintro; exact View.read_writes_of_cover _ _ _ _ _ (scover3_B c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B c _ _ _ _ _ _ _ _ _ _ _ _ _ _ _ _ _)

/-- The body obligation at every point. -/
theorem body_obligation3 (c : Dev nD) : BodyObligation (dat3 (F := F) V c) (defs₀ (F := F)) Variants.none () Set.univ := fun t => by
  rw [bigSep_W3, bigSep_W3]
  exact sound_body3 V c t

/-- The resting invariant is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the resting one back: the accumulator's contents are forgotten. -/
theorem hout3 (c : Dev nD) : (dat3 V c).Φ (Fin.last cfg3.N) ⊢ Pipeline.ΦA spec3 c := by
  have hne : (Fin.last cfg3.N).val ≠ 0 := by rw [Fin.val_last]; have : cfg3.N = 4 := N_3; omega
  rw [show (dat3 V c).Φ (Fin.last cfg3.N) = PhiS3 V c (Fin.last cfg3.N).val (Nat.le_of_lt_succ (Fin.last cfg3.N).isLt) from rfl,
    PhiS3_pos V c _ _ hne, PhiA3_eq]
  iintro ⟨⟨HS, Hrest⟩, Hg⟩
  isplitl [HS Hrest]
  · isplitl [HS]
    · iexists _; iexact HS
    iexact Hrest
  iexact Hg

end

end Cert.KernelIdeal.Hand

end
-- ==== Proof.KI.Run.lean ====
import proofs.«137211_j12206297055730_2_alg».proof.Proof.KI.R0
import proofs.«137211_j12206297055730_2_alg».proof.Proof.KI.R1
import proofs.«137211_j12206297055730_2_alg».proof.Proof.KI.R2
import proofs.«137211_j12206297055730_2_alg».proof.Proof.KI.R3
import proofs.«137211_j12206297055730_2_alg».proof.Proof.Gen.KernelIdeal.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: host stretch, region 0, host stretch, region 1, host stretch, region 2, host stretch, region 3, host stretch

The contents of the core's unscoped buffers at each of the ten boundaries are a fold from the launch memory: a host
stretch applies its operations; a region leaves its output array at what its write-backs leave and every other buffer
as entered. Every weakly fair execution terminates, and the final memory holds every unscoped buffer at the last
boundary's contents. -/

variable (m : (ℓ : Loc nD τ sig) → Buf (Elt F) ℓ)

/-- Core c's buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At region 0's exit: its arrays at what the pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the next host stretch. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At region 1's exit: its arrays at what the pipeline leaves, every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)
/-- After the next host stretch. -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b

/-- At region 2's exit: its arrays at what the pipeline leaves, every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)
/-- After the next host stretch. -/
abbrev B7 : Dev nD → Valuation τ sig (Elt F) := fun c => StableHlo.after hostOps3 (B6 m c)
abbrev E7 : (c : Dev nD) → (b : Ref sig .tc) → Buf (Elt F) ((c : Thread nD τ).loc b) := fun c b => B7 m c b

/-- At region 3's exit: its arrays at what the pipeline leaves, every other buffer as entered. -/
def B8 (c : Dev nD) : Valuation τ sig (Elt F) :=
  Pipeline.withArrays spec3 c (B7 m c) fun w => (dat3 (E7 m) c).arrAt w cfg3.N
theorem B8_arr (c : Dev nD) (w : Fin cfg3.W) :
    B8 m c (Proc.devRef .tc (Pipeline.arrRef spec3 w)) = (dat3 (E7 m) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m c (Proc.devRef .tc b) = B7 m c (Proc.devRef .tc b) := by
  unfold B8; exact Pipeline.withArrays_of_ne spec3 c _ _ b hb
abbrev E8 : (c : Dev nD) → (b : Ref sig .tc) → Buf (Elt F) ((c : Thread nD τ).loc b) := fun c b => B8 m c b
theorem hF3 (c : Dev nD) (w : Fin cfg3.W) : (dat3 (E7 m) c).arrAt w cfg3.N = E8 m c (Pipeline.arrRef spec3 w) :=
  (B8_arr m c w).symm
theorem hrest3 (c : Dev nD) : ∀ b, b ∉ Finset.univ.image (Pipeline.arrRef spec3) → E8 m c b = E7 m c b :=
  fun b hb => B8_of_ne m c b fun w e => hb (Finset.mem_image.mpr ⟨w, Finset.mem_univ _, e⟩)
/-- After the next host stretch. -/
abbrev B9 : Dev nD → Valuation τ sig (Elt F) := fun c => StableHlo.after hostOps4 (B8 m c)
abbrev E9 : (c : Dev nD) → (b : Ref sig .tc) → Buf (Elt F) ((c : Thread nD τ).loc b) := fun c b => B9 m c b

/-! ## No host operation and no region writes an argument -/

theorem B9_main_arg0 (c : Dev nD) : B9 m c (Proc.devRef .tc main_arg0) = m ((c : Thread nD τ).loc main_arg0) :=
  (StableHlo.after_of_writes_sub hostOps4 _ hostOps4_writes (by decide : main_arg0 ∉ hostOps4_W)).trans <|
  (B8_of_ne m c main_arg0 (by decide)).trans <|
  (StableHlo.after_of_writes_sub hostOps3 _ hostOps3_writes (by decide : main_arg0 ∉ hostOps3_W)).trans <|
  (B6_of_ne m c main_arg0 (by decide)).trans <|
  (StableHlo.after_of_writes_sub hostOps2 _ hostOps2_writes (by decide : main_arg0 ∉ hostOps2_W)).trans <|
  (B4_of_ne m c main_arg0 (by decide)).trans <|
  (StableHlo.after_of_writes_sub hostOps1 _ hostOps1_writes (by decide : main_arg0 ∉ hostOps1_W)).trans <|
  (B2_of_ne m c main_arg0 (by decide)).trans <|
  (StableHlo.after_of_writes_sub hostOps0 _ hostOps0_writes (by decide : main_arg0 ∉ hostOps0_W)).trans rfl

theorem B9_main_arg1 (c : Dev nD) : B9 m c (Proc.devRef .tc main_arg1) = m ((c : Thread nD τ).loc main_arg1) :=
  (StableHlo.after_of_writes_sub hostOps4 _ hostOps4_writes (by decide : main_arg1 ∉ hostOps4_W)).trans <|
  (B8_of_ne m c main_arg1 (by decide)).trans <|
  (StableHlo.after_of_writes_sub hostOps3 _ hostOps3_writes (by decide : main_arg1 ∉ hostOps3_W)).trans <|
  (B6_of_ne m c main_arg1 (by decide)).trans <|
  (StableHlo.after_of_writes_sub hostOps2 _ hostOps2_writes (by decide : main_arg1 ∉ hostOps2_W)).trans <|
  (B4_of_ne m c main_arg1 (by decide)).trans <|
  (StableHlo.after_of_writes_sub hostOps1 _ hostOps1_writes (by decide : main_arg1 ∉ hostOps1_W)).trans <|
  (B2_of_ne m c main_arg1 (by decide)).trans <|
  (StableHlo.after_of_writes_sub hostOps0 _ hostOps0_writes (by decide : main_arg1 ∉ hostOps0_W)).trans rfl

theorem B9_main_arg2 (c : Dev nD) : B9 m c (Proc.devRef .tc main_arg2) = m ((c : Thread nD τ).loc main_arg2) :=
  (StableHlo.after_of_writes_sub hostOps4 _ hostOps4_writes (by decide : main_arg2 ∉ hostOps4_W)).trans <|
  (B8_of_ne m c main_arg2 (by decide)).trans <|
  (StableHlo.after_of_writes_sub hostOps3 _ hostOps3_writes (by decide : main_arg2 ∉ hostOps3_W)).trans <|
  (B6_of_ne m c main_arg2 (by decide)).trans <|
  (StableHlo.after_of_writes_sub hostOps2 _ hostOps2_writes (by decide : main_arg2 ∉ hostOps2_W)).trans <|
  (B4_of_ne m c main_arg2 (by decide)).trans <|
  (StableHlo.after_of_writes_sub hostOps1 _ hostOps1_writes (by decide : main_arg2 ∉ hostOps1_W)).trans <|
  (B2_of_ne m c main_arg2 (by decide)).trans <|
  (StableHlo.after_of_writes_sub hostOps0 _ hostOps0_writes (by decide : main_arg2 ∉ hostOps0_W)).trans rfl

theorem B9_main_arg3 (c : Dev nD) : B9 m c (Proc.devRef .tc main_arg3) = m ((c : Thread nD τ).loc main_arg3) :=
  (StableHlo.after_of_writes_sub hostOps4 _ hostOps4_writes (by decide : main_arg3 ∉ hostOps4_W)).trans <|
  (B8_of_ne m c main_arg3 (by decide)).trans <|
  (StableHlo.after_of_writes_sub hostOps3 _ hostOps3_writes (by decide : main_arg3 ∉ hostOps3_W)).trans <|
  (B6_of_ne m c main_arg3 (by decide)).trans <|
  (StableHlo.after_of_writes_sub hostOps2 _ hostOps2_writes (by decide : main_arg3 ∉ hostOps2_W)).trans <|
  (B4_of_ne m c main_arg3 (by decide)).trans <|
  (StableHlo.after_of_writes_sub hostOps1 _ hostOps1_writes (by decide : main_arg3 ∉ hostOps1_W)).trans <|
  (B2_of_ne m c main_arg3 (by decide)).trans <|
  (StableHlo.after_of_writes_sub hostOps0 _ hostOps0_writes (by decide : main_arg3 ∉ hostOps0_W)).trans rfl

theorem B9_main_arg4 (c : Dev nD) : B9 m c (Proc.devRef .tc main_arg4) = m ((c : Thread nD τ).loc main_arg4) :=
  (StableHlo.after_of_writes_sub hostOps4 _ hostOps4_writes (by decide : main_arg4 ∉ hostOps4_W)).trans <|
  (B8_of_ne m c main_arg4 (by decide)).trans <|
  (StableHlo.after_of_writes_sub hostOps3 _ hostOps3_writes (by decide : main_arg4 ∉ hostOps3_W)).trans <|
  (B6_of_ne m c main_arg4 (by decide)).trans <|
  (StableHlo.after_of_writes_sub hostOps2 _ hostOps2_writes (by decide : main_arg4 ∉ hostOps2_W)).trans <|
  (B4_of_ne m c main_arg4 (by decide)).trans <|
  (StableHlo.after_of_writes_sub hostOps1 _ hostOps1_writes (by decide : main_arg4 ∉ hostOps1_W)).trans <|
  (B2_of_ne m c main_arg4 (by decide)).trans <|
  (StableHlo.after_of_writes_sub hostOps0 _ hostOps0_writes (by decide : main_arg4 ∉ hostOps0_W)).trans rfl

theorem B9_main_arg5 (c : Dev nD) : B9 m c (Proc.devRef .tc main_arg5) = m ((c : Thread nD τ).loc main_arg5) :=
  (StableHlo.after_of_writes_sub hostOps4 _ hostOps4_writes (by decide : main_arg5 ∉ hostOps4_W)).trans <|
  (B8_of_ne m c main_arg5 (by decide)).trans <|
  (StableHlo.after_of_writes_sub hostOps3 _ hostOps3_writes (by decide : main_arg5 ∉ hostOps3_W)).trans <|
  (B6_of_ne m c main_arg5 (by decide)).trans <|
  (StableHlo.after_of_writes_sub hostOps2 _ hostOps2_writes (by decide : main_arg5 ∉ hostOps2_W)).trans <|
  (B4_of_ne m c main_arg5 (by decide)).trans <|
  (StableHlo.after_of_writes_sub hostOps1 _ hostOps1_writes (by decide : main_arg5 ∉ hostOps1_W)).trans <|
  (B2_of_ne m c main_arg5 (by decide)).trans <|
  (StableHlo.after_of_writes_sub hostOps0 _ hostOps0_writes (by decide : main_arg5 ∉ hostOps0_W)).trans rfl

theorem B9_main_arg6 (c : Dev nD) : B9 m c (Proc.devRef .tc main_arg6) = m ((c : Thread nD τ).loc main_arg6) :=
  (StableHlo.after_of_writes_sub hostOps4 _ hostOps4_writes (by decide : main_arg6 ∉ hostOps4_W)).trans <|
  (B8_of_ne m c main_arg6 (by decide)).trans <|
  (StableHlo.after_of_writes_sub hostOps3 _ hostOps3_writes (by decide : main_arg6 ∉ hostOps3_W)).trans <|
  (B6_of_ne m c main_arg6 (by decide)).trans <|
  (StableHlo.after_of_writes_sub hostOps2 _ hostOps2_writes (by decide : main_arg6 ∉ hostOps2_W)).trans <|
  (B4_of_ne m c main_arg6 (by decide)).trans <|
  (StableHlo.after_of_writes_sub hostOps1 _ hostOps1_writes (by decide : main_arg6 ∉ hostOps1_W)).trans <|
  (B2_of_ne m c main_arg6 (by decide)).trans <|
  (StableHlo.after_of_writes_sub hostOps0 _ hostOps0_writes (by decide : main_arg6 ∉ hostOps0_W)).trans rfl

theorem B9_main_arg7 (c : Dev nD) : B9 m c (Proc.devRef .tc main_arg7) = m ((c : Thread nD τ).loc main_arg7) :=
  (StableHlo.after_of_writes_sub hostOps4 _ hostOps4_writes (by decide : main_arg7 ∉ hostOps4_W)).trans <|
  (B8_of_ne m c main_arg7 (by decide)).trans <|
  (StableHlo.after_of_writes_sub hostOps3 _ hostOps3_writes (by decide : main_arg7 ∉ hostOps3_W)).trans <|
  (B6_of_ne m c main_arg7 (by decide)).trans <|
  (StableHlo.after_of_writes_sub hostOps2 _ hostOps2_writes (by decide : main_arg7 ∉ hostOps2_W)).trans <|
  (B4_of_ne m c main_arg7 (by decide)).trans <|
  (StableHlo.after_of_writes_sub hostOps1 _ hostOps1_writes (by decide : main_arg7 ∉ hostOps1_W)).trans <|
  (B2_of_ne m c main_arg7 (by decide)).trans <|
  (StableHlo.after_of_writes_sub hostOps0 _ hostOps0_writes (by decide : main_arg7 ∉ hostOps0_W)).trans rfl

theorem B9_main_arg8 (c : Dev nD) : B9 m c (Proc.devRef .tc main_arg8) = m ((c : Thread nD τ).loc main_arg8) :=
  (StableHlo.after_of_writes_sub hostOps4 _ hostOps4_writes (by decide : main_arg8 ∉ hostOps4_W)).trans <|
  (B8_of_ne m c main_arg8 (by decide)).trans <|
  (StableHlo.after_of_writes_sub hostOps3 _ hostOps3_writes (by decide : main_arg8 ∉ hostOps3_W)).trans <|
  (B6_of_ne m c main_arg8 (by decide)).trans <|
  (StableHlo.after_of_writes_sub hostOps2 _ hostOps2_writes (by decide : main_arg8 ∉ hostOps2_W)).trans <|
  (B4_of_ne m c main_arg8 (by decide)).trans <|
  (StableHlo.after_of_writes_sub hostOps1 _ hostOps1_writes (by decide : main_arg8 ∉ hostOps1_W)).trans <|
  (B2_of_ne m c main_arg8 (by decide)).trans <|
  (StableHlo.after_of_writes_sub hostOps0 _ hostOps0_writes (by decide : main_arg8 ∉ hostOps0_W)).trans rfl

/-! ## The proof data family and the thread state -/

/-- No pipeline has a prefetched table. -/
abbrev admH : (p : Fin 4) → (pcfgs (F := F) p).Adm := fun p => (cfgs p).toPCfg_adm
/-- Every pipeline's proof data, each at its region's entry contents. -/
def pdatsH : (p : Fin 4) → (c : Dev nD) → Dat τ (Elt F) Unit ℕ (UR sig nD τ) ℕ (Pipeline.pin (pcfgs (F := F)) admH p) c
  | ⟨0, _⟩ => fun c => dat0 (E1 m) c
  | ⟨1, _⟩ => fun c => dat1 (E3 m) c
  | ⟨2, _⟩ => fun c => dat2 (E5 m) c
  | ⟨3, _⟩ => fun c => dat3 (E7 m) c
abbrev 𝒱H : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state and the core owing nothing. -/
abbrev RH (c : Dev nD) : sProp 𝕄 := iprop((∃ r, prngReg c r) ∗ ∃ W, owes (c : Thread nD τ) (0 : CellTallies nD τ sig Unit) W)
/-- A host stretch as a segment over the unscoped buffers. -/
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev TH (c : Dev nD) : sProp 𝕄 := iprop(StableHlo.held (c : Thread nD τ) (Pipeline.ucRefs τ sig) (B9 m c) ∗ ∃ r, prngReg c r)

/-! ## The regions as segments -/

set_option backward.isDefEq.respectTransparency.types false in
/-- Region 0: entered from every unscoped buffer at the boundary before it, left at the one after it. Its arrays are
    split out of the unscoped buffers and put back at the exit contents; the generator register and the scoped rest go
    into the region's invariant and come back; nothing owed; no semaphore of the kernel's own. -/
def reg0 : Pipeline.RegionSeg (pcfgs (F := F)) admH (pdatsH m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ LH lvH 0 fun _ _ => rfl
  pre c := iprop(StableHlo.held (c : Thread nD τ) (Pipeline.ucRefs τ sig) (B1 m c) ∗ RH c)
  post c := iprop(StableHlo.held (c : Thread nD τ) (Pipeline.ucRefs τ sig) (B2 m c) ∗ RH c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admH (pdatsH m) launch0.win launch0.arr_whole c
      ((pdatsH m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (admH (F := F) 0).1
          ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h.trans (hin0 (E1 m) c)
  hout c := by
    rw [Pipeline.ownSems0_none]
    have h : (Pipeline.ΦA spec0 c : sProp 𝕄)
        ⊢ iprop((∃ r, prngReg c r) ∗ emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (E1 m) c).trans h
  hexit c := by
    have hjoin := Pipeline.unscopedBufs_of_arrays (p := 0) (pcfgs (F := F)) admH (Ix := Unit) (Name := ℕ) (U := UR sig nD τ) (Lvl := ℕ)
      launch0.win launch0.arr_whole c (pdatsH m) ((pdatsH m 0 c).share_full fun _ => rfl)
      (E1 m c) (E2 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at the boundary before it, left at the one after it. Its arrays are
    split out of the unscoped buffers and put back at the exit contents; the generator register and the scoped rest go
    into the region's invariant and come back; nothing owed; no semaphore of the kernel's own. -/
def reg1 : Pipeline.RegionSeg (pcfgs (F := F)) admH (pdatsH m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ LH lvH 1 fun _ _ => rfl
  pre c := iprop(StableHlo.held (c : Thread nD τ) (Pipeline.ucRefs τ sig) (B3 m c) ∗ RH c)
  post c := iprop(StableHlo.held (c : Thread nD τ) (Pipeline.ucRefs τ sig) (B4 m c) ∗ RH c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) admH (pdatsH m) launch1.win launch1.arr_whole c
      ((pdatsH m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (admH (F := F) 1).1
          ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (E3 m) c)
  hout c := by
    rw [Pipeline.ownSems0_none]
    have h : (Pipeline.ΦA spec1 c : sProp 𝕄)
        ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (E3 m) c).trans h
  hexit c := by
    have hjoin := Pipeline.unscopedBufs_of_arrays (p := 1) (pcfgs (F := F)) admH (Ix := Unit) (Name := ℕ) (U := UR sig nD τ) (Lvl := ℕ)
      launch1.win launch1.arr_whole c (pdatsH m) ((pdatsH m 1 c).share_full fun _ => rfl)
      (E3 m c) (E4 m c) ((pdatsH m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at the boundary before it, left at the one after it. Its arrays are
    split out of the unscoped buffers and put back at the exit contents; the generator register and the scoped rest go
    into the region's invariant and come back; nothing owed; no semaphore of the kernel's own. -/
def reg2 : Pipeline.RegionSeg (pcfgs (F := F)) admH (pdatsH m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ LH lvH 2 fun _ _ => rfl
  pre c := iprop(StableHlo.held (c : Thread nD τ) (Pipeline.ucRefs τ sig) (B5 m c) ∗ RH c)
  post c := iprop(StableHlo.held (c : Thread nD τ) (Pipeline.ucRefs τ sig) (B6 m c) ∗ RH c)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) admH (pdatsH m) launch2.win launch2.arr_whole c
      ((pdatsH m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 2).pre c (fun _ => fullShare) (admH (F := F) 2).1
          ∗ Pipeline.scopedRest (Ix := Unit) (Name := ℕ) (U := UR sig nD τ) (Lvl := ℕ) (Val := Elt F) spec2 c)
        ⊢ (Pipeline.ΦA spec2 c : sProp 𝕄) := by
      unfold Pipeline.ΦA
      iintro ⟨Hp, -, Hr⟩
      isplitl [Hr]; · iexact Hr
      iexact Hp
    exact h.trans (hin2 (E5 m) c)
  hout c := by
    rw [Pipeline.ownSems0_none]
    have h : (Pipeline.ΦA spec2 c : sProp 𝕄)
        ⊢ iprop((∃ r, prngReg c r) ∗ emp ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (E5 m) c).trans h
  hexit c := by
    have hjoin := Pipeline.unscopedBufs_of_arrays (p := 2) (pcfgs (F := F)) admH (Ix := Unit) (Name := ℕ) (U := UR sig nD τ) (Lvl := ℕ)
      launch2.win launch2.arr_whole c (pdatsH m) ((pdatsH m 2 c).share_full fun _ => rfl)
      (E5 m c) (E6 m c) ((pdatsH m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at the boundary before it, left at the one after it. Its arrays are
    split out of the unscoped buffers and put back at the exit contents; the generator register and the scoped rest go
    into the region's invariant and come back; nothing owed; no semaphore of the kernel's own. -/
def reg3 : Pipeline.RegionSeg (pcfgs (F := F)) admH (pdatsH m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m) c).loose
  hwaits := Pipeline.hwaits_of_owed_zero _ _ _ _ LH lvH 3 fun _ _ => rfl
  pre c := iprop(StableHlo.held (c : Thread nD τ) (Pipeline.ucRefs τ sig) (B7 m c) ∗ RH c)
  post c := iprop(StableHlo.held (c : Thread nD τ) (Pipeline.ucRefs τ sig) (B8 m c) ∗ RH c)
  X c := iprop(∃ r, prngReg c r)
  Y c := iprop(∃ r, prngReg c r)
  Z c := Pipeline.unscopedRest (Ix := Unit) (Name := ℕ) (U := UR sig nD τ) (Lvl := ℕ) spec3 c (E7 m c)
  hentry c := by
    rw [Pipeline.ownSems0_none]
    have hsplit := Pipeline.arrays_of_unscopedBufs (p := 3) (pcfgs (F := F)) admH (pdatsH m) launch3.win launch3.arr_whole c
      ((pdatsH m 3 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 3).pre c (fun _ => fullShare) (admH (F := F) 3).1
          ∗ Pipeline.scopedRest (Ix := Unit) (Name := ℕ) (U := UR sig nD τ) (Lvl := ℕ) (Val := Elt F) spec3 c)
        ⊢ (Pipeline.ΦA spec3 c : sProp 𝕄) := by
      unfold Pipeline.ΦA
      iintro ⟨Hp, -, Hr⟩
      isplitl [Hr]; · iexact Hr
      iexact Hp
    exact h.trans (hin3 (E7 m) c)
  hout c := by
    rw [Pipeline.ownSems0_none]
    have h : (Pipeline.ΦA spec3 c : sProp 𝕄)
        ⊢ iprop((∃ r, prngReg c r) ∗ emp ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (E7 m) c).trans h
  hexit c := by
    have hjoin := Pipeline.unscopedBufs_of_arrays (p := 3) (pcfgs (F := F)) admH (Ix := Unit) (Name := ℕ) (U := UR sig nD τ) (Lvl := ℕ)
      launch3.win launch3.arr_whole c (pdatsH m) ((pdatsH m 3 c).share_full fun _ => rfl)
      (E7 m c) (E8 m c) ((pdatsH m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) admH (pdatsH m) () defs₀ 𝒱H LH lvH) :=
  [ .host (hsegH hostOps0 hostOps0_sub hostOps0_fresh (B0 m)),
    .region (reg0 m),
    .host (hsegH hostOps1 hostOps1_sub hostOps1_fresh (B2 m)),
    .region (reg1 m),
    .host (hsegH hostOps2 hostOps2_sub hostOps2_fresh (B4 m)),
    .region (reg2 m),
    .host (hsegH hostOps3 hostOps3_sub hostOps3_fresh (B6 m)),
    .region (reg3 m),
    .host (hsegH hostOps4 hostOps4_sub hostOps4_fresh (B8 m)) ]

/-- @main is the run of the segments. -/
theorem main_runH (c : Dev nD) : main (F := F) c = Pipeline.Seg.run (segsH m) := (main_chain c).trans (by chain_rfl)

set_option backward.isDefEq.respectTransparency.types false in
/-- From any memory with zero counters every weakly fair execution of @main terminates, nothing faulting, and the final
    memory holds every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B9 m c b) :=
  Pipeline.θ_run_regions_kit (pcfgs (F := F)) admH (pdatsH m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ RH c)) (Tₙ := TH m)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (B9 m c) ∗ RH c)
          ⊢ (iprop(TH m c ∗ ∃ W, owes (c : Thread nD τ) (0 : CellTallies nD τ sig Unit) W) : sProp 𝕄)
        iintro ⟨Hh, ⟨Hp, HO⟩⟩
        isplitl [Hh Hp]
        · isplitl [Hh]; · iexact Hh
          iexact Hp
        iexact HO⟩)
    (hinit := by
      refine Pipeline.initEach LH lvH fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m c b)
    (hfin := fun c s' => by
      iintro ⟨⟨Hh, -⟩, HSI⟩
      unfold StableHlo.held
      imodintro
      iapply (pointsTo_read_all (Pipeline.ucRefs τ sig) (fun b => (((c : Thread nD τ)).1, b)) (B9 m c) s')
      isplitl [Hh] <;> iassumption)
    (hQ := fun s h c => h c)

/-- The frame: the arguments end as launched. -/
theorem frameH (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun _ h c => ⟨(h c _ (mem_ucH main_arg0 (by decide))).trans (B9_main_arg0 m c),
    (h c _ (mem_ucH main_arg1 (by decide))).trans (B9_main_arg1 m c),
    (h c _ (mem_ucH main_arg2 (by decide))).trans (B9_main_arg2 m c),
    (h c _ (mem_ucH main_arg3 (by decide))).trans (B9_main_arg3 m c),
    (h c _ (mem_ucH main_arg4 (by decide))).trans (B9_main_arg4 m c),
    (h c _ (mem_ucH main_arg5 (by decide))).trans (B9_main_arg5 m c),
    (h c _ (mem_ucH main_arg6 (by decide))).trans (B9_main_arg6 m c),
    (h c _ (mem_ucH main_arg7 (by decide))).trans (B9_main_arg7 m c),
    (h c _ (mem_ucH main_arg8 (by decide))).trans (B9_main_arg8 m c)⟩) (run_all m ρ)

end Cert.KernelIdeal.Hand

end
-- ==== Proof.Spec.lean ====
/-
  The mathematics of the graph network's three layers, over the extended reals, free of any program.

  A matrix product is the entrywise sum  (A · B) (i, j) = ∑ k, A (i, k) * B (k, j).  One layer maps the node
  features x to  fused · (x · W) + b  (the product with the weights taken first) or to  (fused · x) · W + b
  (the aggregation over the graph taken first), followed or not by  max · 0.  Over the reals the two are one
  function, because the matrix product is associative; over the extended reals the product distributes over
  sums only away from the infinities, so the equality is stated for matrices all of whose entries are real
  numbers, and a layer's result is then again such a matrix.
-/
import Mathlib.Data.EReal.Basic
import Mathlib.Algebra.BigOperators.Group.Finset.Basic

noncomputable section

namespace Cert.Spec

open Finset

/-- An extended real that is a real number. -/
def IsReal (x : EReal) : Prop := ∃ r : ℝ, x = (r : EReal)

/-- The matrix product, entry by entry. -/
def mm {ι κ μ : Type} [Fintype κ] (A : ι → κ → EReal) (B : κ → μ → EReal) (i : ι) (j : μ) : EReal :=
  ∑ k : κ, A i k * B k j

/-- A layer before its activation, the product with the weights taken first: fused · (x · W) + b. -/
def layW {n d e : Type} [Fintype n] [Fintype d] (Fm : n → n → EReal) (x : n → d → EReal) (W : d → e → EReal) (b : e → EReal)
    (i : n) (j : e) : EReal :=
  mm Fm (mm x W) i j + b j

/-- A layer before its activation, the aggregation taken first: (fused · x) · W + b. -/
def layA {n d e : Type} [Fintype n] [Fintype d] (Fm : n → n → EReal) (x : n → d → EReal) (W : d → e → EReal) (b : e → EReal)
    (i : n) (j : e) : EReal :=
  mm (mm Fm x) W i j + b j

/-- The activation of the first two layers. -/
def relu {n e : Type} (x : n → e → EReal) (i : n) (j : e) : EReal := max (x i j) 0

/-- The three layers, the product with the weights taken first in each (what the kernel computes). -/
def netW {n d : Type} [Fintype n] [Fintype d] (Fm : n → n → EReal) (y : n → d → EReal)
    (W0 : d → d → EReal) (b0 : d → EReal) (W1 : d → d → EReal) (b1 : d → EReal) (W2 : d → d → EReal) (b2 : d → EReal) : n → d → EReal :=
  layW Fm (relu (layW Fm (relu (layW Fm y W0 b0)) W1 b1)) W2 b2

/-- The three layers, the aggregation taken first in each (what the reference computes). -/
def netA {n d : Type} [Fintype n] [Fintype d] (Fm : n → n → EReal) (y : n → d → EReal)
    (W0 : d → d → EReal) (b0 : d → EReal) (W1 : d → d → EReal) (b1 : d → EReal) (W2 : d → d → EReal) (b2 : d → EReal) : n → d → EReal :=
  layA Fm (relu (layA Fm (relu (layA Fm y W0 b0)) W1 b1)) W2 b2

end Cert.Spec

end
-- ==== Proof.RefNet.lean ====
/-
  The reference program's result, entry by entry, over the extended reals.

  The program multiplies two arrays entrywise.  The first, `tgB`, depends on channel 0 of the derivative of the
  adjacency only: the mean over the source nodes, repeated along the feature axis.  The second, `net`, is the three graph
  layers: with  fused (i, j) = ∑ k, dA (i, k, 1) * A (k, j, 1)  the matrix product of the two channel-1 slices, each
  layer sends the node features x to  (fused · x) · W + b,  and the first two are followed by  max · 0.
  `net_apply` says that `net`, read at the entry (i, d), is the specification's `netA` of these matrices at (i, d):
  every matrix product is read as the sum over its one contracted axis, a bias as the vector repeated along the rows,
  the activation as the maximum with the real number zero.
-/
import proofs.«137211_j12206297055730_2_alg».proof.Proof.Gen.ReferenceIdeal.Read
import proofs.«137211_j12206297055730_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## The two factors of the result -/

/-- The first factor: the mean of channel 0 of `a2` over its first axis, repeated along the feature axis. -/
noncomputable def tgB (a2 : (⟨S4096x4096x2, .f32⟩ : BufTy).Contents (Elt Ideal)) : (⟨S4096x256, .f32⟩ : BufTy).Contents (Elt Ideal) :=
  broadcastInDim S4096x256 ![0, 1] bcast_S4096x1_S4096x256_0_1 (broadcastInDim S4096x1 ![0] bcast_S4096_S4096x1_0 (Host.divf (F := Ideal) (Host.reduceAdd (F := Ideal) (shapeCast _ (extractStridedSlice S4096x4096x1 ![0, 0, 0] a2 slices_S4096x4096x2_S4096x4096x1_0_0_0) shapeCasts_S4096x4096x1_S4096x4096) (constant (F := Ideal) S_ .f32 0x00000000#32) reducesTo_S4096x4096_S4096_d0 h_S_) (broadcastInDim S4096 ![] bcast_S_S4096 (constant (F := Ideal) S_ .f32 0x45800000#32))))

/-- The second factor: the three graph layers over the product of the channel-1 slices of `a2` and `a1`. -/
noncomputable def net (y : (⟨S4096x256, .f32⟩ : BufTy).Contents (Elt Ideal)) (a1 a2 : (⟨S4096x4096x2, .f32⟩ : BufTy).Contents (Elt Ideal)) (W0 : (⟨S256x256, .f32⟩ : BufTy).Contents (Elt Ideal)) (b0 : (⟨S256, .f32⟩ : BufTy).Contents (Elt Ideal)) (W1 : (⟨S256x256, .f32⟩ : BufTy).Contents (Elt Ideal)) (b1 : (⟨S256, .f32⟩ : BufTy).Contents (Elt Ideal)) (W2 : (⟨S256x256, .f32⟩ : BufTy).Contents (Elt Ideal)) (b2 : (⟨S256, .f32⟩ : BufTy).Contents (Elt Ideal)) : (⟨S4096x256, .f32⟩ : BufTy).Contents (Elt Ideal) :=
  (addf (Host.dotGeneral (F := Ideal) (φ₁ := .f32) (φ₂ := .f32) dot_S4096x256_S256x256_S4096x256_1_0_0_1_n_n none (Host.dotGeneral (F := Ideal) (φ₁ := .f32) (φ₂ := .f32) dot_S4096x4096_S4096x256_S4096x256_1_0_0_1_n_n none (Host.dotGeneral (F := Ideal) (φ₁ := .f32) (φ₂ := .f32) dot_S4096x4096_S4096x4096_S4096x4096_1_0_0_1_n_n none (shapeCast _ (extractStridedSlice S4096x4096x1 ![0, 0, 1] a2 slices_S4096x4096x2_S4096x4096x1_0_0_1) shapeCasts_S4096x4096x1_S4096x4096) (shapeCast _ (extractStridedSlice S4096x4096x1 ![0, 0, 1] a1 slices_S4096x4096x2_S4096x4096x1_0_0_1) shapeCasts_S4096x4096x1_S4096x4096)) (maximumf (addf (Host.dotGeneral (F := Ideal) (φ₁ := .f32) (φ₂ := .f32) dot_S4096x256_S256x256_S4096x256_1_0_0_1_n_n none (Host.dotGeneral (F := Ideal) (φ₁ := .f32) (φ₂ := .f32) dot_S4096x4096_S4096x256_S4096x256_1_0_0_1_n_n none (Host.dotGeneral (F := Ideal) (φ₁ := .f32) (φ₂ := .f32) dot_S4096x4096_S4096x4096_S4096x4096_1_0_0_1_n_n none (shapeCast _ (extractStridedSlice S4096x4096x1 ![0, 0, 1] a2 slices_S4096x4096x2_S4096x4096x1_0_0_1) shapeCasts_S4096x4096x1_S4096x4096) (shapeCast _ (extractStridedSlice S4096x4096x1 ![0, 0, 1] a1 slices_S4096x4096x2_S4096x4096x1_0_0_1) shapeCasts_S4096x4096x1_S4096x4096)) (maximumf (addf (Host.dotGeneral (F := Ideal) (φ₁ := .f32) (φ₂ := .f32) dot_S4096x256_S256x256_S4096x256_1_0_0_1_n_n none (Host.dotGeneral (F := Ideal) (φ₁ := .f32) (φ₂ := .f32) dot_S4096x4096_S4096x256_S4096x256_1_0_0_1_n_n none (Host.dotGeneral (F := Ideal) (φ₁ := .f32) (φ₂ := .f32) dot_S4096x4096_S4096x4096_S4096x4096_1_0_0_1_n_n none (shapeCast _ (extractStridedSlice S4096x4096x1 ![0, 0, 1] a2 slices_S4096x4096x2_S4096x4096x1_0_0_1) shapeCasts_S4096x4096x1_S4096x4096) (shapeCast _ (extractStridedSlice S4096x4096x1 ![0, 0, 1] a1 slices_S4096x4096x2_S4096x4096x1_0_0_1) shapeCasts_S4096x4096x1_S4096x4096)) y) W0) (broadcastInDim S4096x256 ![0, 1] bcast_S1x256_S4096x256_0_1 (broadcastInDim S1x256 ![1] bcast_S256_S1x256_1 b0))) (broadcastInDim S4096x256 ![] bcast_S_S4096x256 (constant (F := Ideal) S_ .f32 0x00000000#32)))) W1) (broadcastInDim S4096x256 ![0, 1] bcast_S1x256_S4096x256_0_1 (broadcastInDim S1x256 ![1] bcast_S256_S1x256_1 b1))) (broadcastInDim S4096x256 ![] bcast_S_S4096x256 (constant (F := Ideal) S_ .f32 0x00000000#32)))) W2) (broadcastInDim S4096x256 ![0, 1] bcast_S1x256_S4096x256_0_1 (broadcastInDim S1x256 ![1] bcast_S256_S1x256_1 b2)))

/-- Every execution of the reference ends with its result at the entrywise product of the two factors of the
    arguments' contents at the start, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = mulf (F := Ideal) (s := S4096x256) (φ := .f32) (tgB (m ((c.tc : Thread nD τ).loc main_arg2))) (net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.ReferenceIdeal.Value.run (F := Ideal) m ρ

/-! ## Arrays as matrices -/

/-- A rank-two array as a matrix. -/
def mat2 {n0 n1 : Nat} (x : (⟨2, ![n0, n1]⟩ : Shape).Idx → EReal) (i : Fin n0) (j : Fin n1) : EReal := x (ix2 i j)

/-- A rank-one array as a vector. -/
def vec1 {n : Nat} (x : (⟨1, ![n]⟩ : Shape).Idx → EReal) (j : Fin n) : EReal := x (ix1 j)

/-! ## The pieces of a layer -/

/-- The product of the channel-1 slices: the matrix every layer aggregates with. -/
def fused (a1 a2 : (⟨S4096x4096x2, .f32⟩ : BufTy).Contents (Elt Ideal)) : (⟨S4096x4096, .f32⟩ : BufTy).Contents (Elt Ideal) :=
  (Host.dotGeneral (F := Ideal) (φ₁ := .f32) (φ₂ := .f32) dot_S4096x4096_S4096x4096_S4096x4096_1_0_0_1_n_n none (shapeCast _ (extractStridedSlice S4096x4096x1 ![0, 0, 1] a2 slices_S4096x4096x2_S4096x4096x1_0_0_1) shapeCasts_S4096x4096x1_S4096x4096) (shapeCast _ (extractStridedSlice S4096x4096x1 ![0, 0, 1] a1 slices_S4096x4096x2_S4096x4096x1_0_0_1) shapeCasts_S4096x4096x1_S4096x4096))

/-- One layer before its activation: the aggregation, then the weights, then the bias repeated along the rows. -/
def lay (Fm : (⟨S4096x4096, .f32⟩ : BufTy).Contents (Elt Ideal)) (x : (⟨S4096x256, .f32⟩ : BufTy).Contents (Elt Ideal)) (W : (⟨S256x256, .f32⟩ : BufTy).Contents (Elt Ideal)) (b : (⟨S256, .f32⟩ : BufTy).Contents (Elt Ideal)) : (⟨S4096x256, .f32⟩ : BufTy).Contents (Elt Ideal) :=
  addf (Host.dotGeneral (F := Ideal) (φ₁ := .f32) (φ₂ := .f32) dot_S4096x256_S256x256_S4096x256_1_0_0_1_n_n none (Host.dotGeneral (F := Ideal) (φ₁ := .f32) (φ₂ := .f32) dot_S4096x4096_S4096x256_S4096x256_1_0_0_1_n_n none Fm x) W) (broadcastInDim S4096x256 ![0, 1] bcast_S1x256_S4096x256_0_1 (broadcastInDim S1x256 ![1] bcast_S256_S1x256_1 b))

/-- The activation: the entrywise maximum with the array of zeros. -/
def act (x : (⟨S4096x256, .f32⟩ : BufTy).Contents (Elt Ideal)) : (⟨S4096x256, .f32⟩ : BufTy).Contents (Elt Ideal) :=
  maximumf x (broadcastInDim S4096x256 ![] bcast_S_S4096x256 (constant (F := Ideal) S_ .f32 0x00000000#32))

/-- The second factor is three layers over one fused matrix, the first two activated. -/
theorem net_eq (y : (⟨S4096x256, .f32⟩ : BufTy).Contents (Elt Ideal)) (a1 a2 : (⟨S4096x4096x2, .f32⟩ : BufTy).Contents (Elt Ideal)) (W0 : (⟨S256x256, .f32⟩ : BufTy).Contents (Elt Ideal)) (b0 : (⟨S256, .f32⟩ : BufTy).Contents (Elt Ideal)) (W1 : (⟨S256x256, .f32⟩ : BufTy).Contents (Elt Ideal)) (b1 : (⟨S256, .f32⟩ : BufTy).Contents (Elt Ideal)) (W2 : (⟨S256x256, .f32⟩ : BufTy).Contents (Elt Ideal)) (b2 : (⟨S256, .f32⟩ : BufTy).Contents (Elt Ideal)) :
    net y a1 a2 W0 b0 W1 b1 W2 b2 = lay (fused a1 a2) (act (lay (fused a1 a2) (act (lay (fused a1 a2) y W0 b0)) W1 b1)) W2 b2 := rfl

/-! ## Each piece at an entry -/

/-- Channel 1 of a three-axis array, flattened to a matrix, at (i, k) is the array at (i, k, 1). -/
theorem chan_apply (a : (⟨S4096x4096x2, .f32⟩ : BufTy).Contents (Elt Ideal)) (i k : Fin 4096) :
    Read.val_main_v3 (F := Ideal) a (ix2 i k) = a (ix3 i k (1 : Fin 2)) := by
  rw [Read.val_main_v3_apply, Read.val_main_v2_apply]
  refine congrArg a (funext fun d => Fin.ext ?_)
  have hi := i.isLt
  have hk := k.isLt
  match d with
  | ⟨0, _⟩ => show (i.val * 4096 + k.val) / 4096 = i.val; omega
  | ⟨1, _⟩ => show (i.val * 4096 + k.val) / 1 % 4096 = k.val; omega
  | ⟨2, _⟩ => rfl

/-- The fused matrix is the matrix product of the two channel-1 slices. -/
theorem fused_mat (a1 a2 : (⟨S4096x4096x2, .f32⟩ : BufTy).Contents (Elt Ideal)) :
    mat2 (fused a1 a2) = Cert.Spec.mm (fun (i k : Fin 4096) => (a2 (ix3 i k (1 : Fin 2)) : EReal)) (fun (k j : Fin 4096) => (a1 (ix3 k j (1 : Fin 2)) : EReal)) := by
  funext i j
  show Read.val_main_v4 (F := Ideal) a1 a2 (ix2 i j) = ∑ k : Fin 4096, a2 (ix3 i k (1 : Fin 2)) * a1 (ix3 k j (1 : Fin 2))
  rw [Read.val_main_v4_apply]
  refine Finset.sum_congr rfl fun k _ => ?_
  have el : Read.lidx_main_v4 (ix2 i j) k = ix2 i k := funext fun a => Fin.ext (by
    match a with
    | ⟨0, _⟩ => rfl
    | ⟨1, _⟩ => rfl)
  have er : Read.ridx_main_v4 (ix2 i j) k = ix2 k j := funext fun a => Fin.ext (by
    match a with
    | ⟨0, _⟩ => rfl
    | ⟨1, _⟩ => rfl)
  rw [el, er, chan_apply]
  exact congrArg _ (chan_apply a1 k j)

/-- The aggregation of node features, at an entry: the sum over the source nodes. -/
theorem dotAgg_apply (l : (⟨S4096x4096, .f32⟩ : BufTy).Contents (Elt Ideal)) (r : (⟨S4096x256, .f32⟩ : BufTy).Contents (Elt Ideal)) (i : Fin 4096) (j : Fin 256) :
    Host.dotGeneral (F := Ideal) (φ₁ := .f32) (φ₂ := .f32) dot_S4096x4096_S4096x256_S4096x256_1_0_0_1_n_n none l r (ix2 i j) = ∑ k : Fin 4096, l (ix2 i k) * r (ix2 k j) := by
  simp only [Host.dotGeneral]
  rw [Ideal.dotGeneral_apply, ← Equiv.sum_comp (contrEquiv1 dot_S4096x4096_S4096x256_S4096x256_1_0_0_1_n_n 4096 rfl rfl).symm]
  refine Finset.sum_congr rfl fun k _ => ?_
  have hk := contrEquiv1_symm_val dot_S4096x4096_S4096x256_S4096x256_1_0_0_1_n_n 4096 rfl rfl k
  have el : dot_S4096x4096_S4096x256_S4096x256_1_0_0_1_n_n.lhsIdx (ix2 i j) ((contrEquiv1 dot_S4096x4096_S4096x256_S4096x256_1_0_0_1_n_n 4096 rfl rfl).symm k) = ix2 i k := funext fun a => Fin.ext (by
    match a with
    | ⟨0, _⟩ => exact Read.lhs_main_v5_0 _ _
    | ⟨1, _⟩ => exact (Read.lhs_main_v5_1 _ _).trans hk)
  have er : dot_S4096x4096_S4096x256_S4096x256_1_0_0_1_n_n.rhsIdx (ix2 i j) ((contrEquiv1 dot_S4096x4096_S4096x256_S4096x256_1_0_0_1_n_n 4096 rfl rfl).symm k) = ix2 k j := funext fun a => Fin.ext (by
    match a with
    | ⟨0, _⟩ => exact (Read.rhs_main_v5_0 _ _).trans hk
    | ⟨1, _⟩ => exact Read.rhs_main_v5_1 _ _)
  rw [el, er]

/-- The product with a weight matrix, at an entry: the sum over the input features. -/
theorem dotW_apply (l : (⟨S4096x256, .f32⟩ : BufTy).Contents (Elt Ideal)) (r : (⟨S256x256, .f32⟩ : BufTy).Contents (Elt Ideal)) (i : Fin 4096) (j : Fin 256) :
    Host.dotGeneral (F := Ideal) (φ₁ := .f32) (φ₂ := .f32) dot_S4096x256_S256x256_S4096x256_1_0_0_1_n_n none l r (ix2 i j) = ∑ k : Fin 256, l (ix2 i k) * r (ix2 k j) := by
  simp only [Host.dotGeneral]
  rw [Ideal.dotGeneral_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 i j) ((contrEquiv1 dot_S4096x256_S256x256_S4096x256_1_0_0_1_n_n 256 rfl rfl).symm k) = ix2 i k := funext fun a => Fin.ext (by
    match a with
    | ⟨0, _⟩ => exact Read.lhs_main_v6_0 _ _
    | ⟨1, _⟩ => exact (Read.lhs_main_v6_1 _ _).trans hk)
  have er : dot_S4096x256_S256x256_S4096x256_1_0_0_1_n_n.rhsIdx (ix2 i j) ((contrEquiv1 dot_S4096x256_S256x256_S4096x256_1_0_0_1_n_n 256 rfl rfl).symm k) = ix2 k j := funext fun a => Fin.ext (by
    match a with
    | ⟨0, _⟩ => exact (Read.rhs_main_v6_0 _ _).trans hk
    | ⟨1, _⟩ => exact Read.rhs_main_v6_1 _ _)
  rw [el, er]

/-- A bias repeated along the rows, at (i, d), is the bias at d. -/
theorem bias_apply (b : (⟨S256, .f32⟩ : BufTy).Contents (Elt Ideal)) (i : Fin 4096) (d : Fin 256) :
    broadcastInDim S4096x256 ![0, 1] bcast_S1x256_S4096x256_0_1 (broadcastInDim S1x256 ![1] bcast_S256_S1x256_1 b) (ix2 i d) = b (ix1 d) := by
  show Read.val_main_v8 (F := Ideal) b (ix2 i d) = b (ix1 d)
  rw [Read.val_main_v8_apply, Read.val_main_v7_apply]
  exact congrArg b (funext fun a => Fin.ext (by match a with | ⟨0, _⟩ => rfl))

/-- A layer, as a matrix, is the specification's layer of its operands as matrices. -/
theorem lay_mat (Fm : (⟨S4096x4096, .f32⟩ : BufTy).Contents (Elt Ideal)) (x : (⟨S4096x256, .f32⟩ : BufTy).Contents (Elt Ideal)) (W : (⟨S256x256, .f32⟩ : BufTy).Contents (Elt Ideal)) (b : (⟨S256, .f32⟩ : BufTy).Contents (Elt Ideal)) :
    mat2 (lay Fm x W b) = Cert.Spec.layA (mat2 Fm) (mat2 x) (mat2 W) (vec1 b) := by
  funext i d
  show lay Fm x W b (ix2 i d) = (∑ e : Fin 256, (∑ k : Fin 4096, Fm (ix2 i k) * x (ix2 k e)) * W (ix2 e d)) + b (ix1 d)
  unfold lay
  rw [addf_apply, bias_apply, dotW_apply]
  refine congrArg (· + b (ix1 d)) (Finset.sum_congr rfl fun e _ => ?_)
  rw [dotAgg_apply]

/-- The activation, as a matrix, is the entrywise maximum with the real number zero. -/
theorem act_mat (x : (⟨S4096x256, .f32⟩ : BufTy).Contents (Elt Ideal)) : mat2 (act x) = Cert.Spec.relu (mat2 x) := by
  funext i d
  show maximumf (F := Ideal) (s := S4096x256) (φ := .f32) x (Read.val_main_call0_v0 (F := Ideal)) (ix2 i d) = max (x (ix2 i d)) 0
  rw [maximumf_apply, Read.val_main_call0_v0_apply, Read.val_main_call0_cst_apply, Ideal.ofBits_def, Ideal.ofBits_zero_f32]

/-! ## The three layers at an entry -/

/-- The second factor at the entry (i, d): the specification's three layers, the aggregation taken first in each, over
    the matrix product of the channel-1 slices of `a2` and `a1`. -/
theorem net_apply (y : (⟨S4096x256, .f32⟩ : BufTy).Contents (Elt Ideal)) (a1 a2 : (⟨S4096x4096x2, .f32⟩ : BufTy).Contents (Elt Ideal)) (W0 : (⟨S256x256, .f32⟩ : BufTy).Contents (Elt Ideal)) (b0 : (⟨S256, .f32⟩ : BufTy).Contents (Elt Ideal)) (W1 : (⟨S256x256, .f32⟩ : BufTy).Contents (Elt Ideal)) (b1 : (⟨S256, .f32⟩ : BufTy).Contents (Elt Ideal)) (W2 : (⟨S256x256, .f32⟩ : BufTy).Contents (Elt Ideal)) (b2 : (⟨S256, .f32⟩ : BufTy).Contents (Elt Ideal)) (i : Fin 4096) (d : Fin 256) :
    net y a1 a2 W0 b0 W1 b1 W2 b2 (ix2 i d)
      = Cert.Spec.netA (Cert.Spec.mm (fun (i k : Fin 4096) => (a2 (ix3 i k (1 : Fin 2)) : EReal)) (fun (k j : Fin 4096) => (a1 (ix3 k j (1 : Fin 2)) : EReal)))
          (fun (i : Fin 4096) (e : Fin 256) => (y (ix2 i e) : EReal))
          (fun (e d : Fin 256) => (W0 (ix2 e d) : EReal)) (fun (d : Fin 256) => (b0 (ix1 d) : EReal))
          (fun (e d : Fin 256) => (W1 (ix2 e d) : EReal)) (fun (d : Fin 256) => (b1 (ix1 d) : EReal))
          (fun (e d : Fin 256) => (W2 (ix2 e d) : EReal)) (fun (d : Fin 256) => (b2 (ix1 d) : EReal)) i d := by
  show mat2 (net y a1 a2 W0 b0 W1 b1 W2 b2) i d = _
  rw [net_eq, lay_mat, act_mat, lay_mat, act_mat, lay_mat, fused_mat]
  rfl

end Cert.ReferenceIdeal.RefValue

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«137211_j12206297055730_2_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.KI.Host.lean ====
/-
  The host operations between the four regions, read entry by entry over the extended reals.

  Before the first region: channel 1 of each of the two three-axis arguments, flattened to a matrix (the change of
  float format is the identity on extended reals).  Before each later region: the previous layer's output (for the
  first, the node features) times that layer's weights, each entry the sum over the input features; the layer's bias
  as a one-row matrix; and the fused matrix, which the first region left and nobody overwrites.  After the last
  region: the result is the entrywise product of the time gradient — the same chain of operations on channel 0 as
  in the reference — and the last region's output.
-/
import proofs.«137211_j12206297055730_2_alg».proof.Proof.KI.Run
import proofs.«137211_j12206297055730_2_alg».proof.Proof.LibRowBlocks
import proofs.«137211_j12206297055730_2_alg».proof.Proof.RefNet
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

/-! ## The arrays the statements below mention, as arrays of extended reals -/

/-- The nine arguments' contents at launch. -/
abbrev arg0 : S4096x256.Idx → EReal := m ((c : Thread nD τ).loc main_arg0)
abbrev arg1 : S4096x4096x2.Idx → EReal := m ((c : Thread nD τ).loc main_arg1)
abbrev arg2 : S4096x4096x2.Idx → EReal := m ((c : Thread nD τ).loc main_arg2)
abbrev arg3 : S256x256.Idx → EReal := m ((c : Thread nD τ).loc main_arg3)
abbrev arg4 : S256.Idx → EReal := m ((c : Thread nD τ).loc main_arg4)
abbrev arg5 : S256x256.Idx → EReal := m ((c : Thread nD τ).loc main_arg5)
abbrev arg6 : S256.Idx → EReal := m ((c : Thread nD τ).loc main_arg6)
abbrev arg7 : S256x256.Idx → EReal := m ((c : Thread nD τ).loc main_arg7)
abbrev arg8 : S256.Idx → EReal := m ((c : Thread nD τ).loc main_arg8)
/-- What regions 1, 2 and 3 leave in their output arrays. -/
abbrev out1 : S4096x256.Idx → EReal := (dat1 (E3 m) c).arrAt 3 cfg1.N
abbrev out2 : S4096x256.Idx → EReal := (dat2 (E5 m) c).arrAt 3 cfg2.N
abbrev out3 : S4096x256.Idx → EReal := (dat3 (E7 m) c).arrAt 3 cfg3.N

/-! ## Arguments pass through: no host operation and no region writes one -/

theorem B2_main_arg0 : B2 m c (Proc.devRef .tc main_arg0) = m ((c : Thread nD τ).loc main_arg0) :=
  (B2_of_ne m c main_arg0 (by decide)).trans <|
  (StableHlo.after_of_writes_sub hostOps0 _ hostOps0_writes (by decide : main_arg0 ∉ hostOps0_W)).trans <|
  rfl

theorem B2_main_arg3 : B2 m c (Proc.devRef .tc main_arg3) = m ((c : Thread nD τ).loc main_arg3) :=
  (B2_of_ne m c main_arg3 (by decide)).trans <|
  (StableHlo.after_of_writes_sub hostOps0 _ hostOps0_writes (by decide : main_arg3 ∉ hostOps0_W)).trans <|
  rfl

theorem B2_main_arg4 : B2 m c (Proc.devRef .tc main_arg4) = m ((c : Thread nD τ).loc main_arg4) :=
  (B2_of_ne m c main_arg4 (by decide)).trans <|
  (StableHlo.after_of_writes_sub hostOps0 _ hostOps0_writes (by decide : main_arg4 ∉ hostOps0_W)).trans <|
  rfl

theorem B4_main_arg5 : B4 m c (Proc.devRef .tc main_arg5) = m ((c : Thread nD τ).loc main_arg5) :=
  (B4_of_ne m c main_arg5 (by decide)).trans <|
  (StableHlo.after_of_writes_sub hostOps1 _ hostOps1_writes (by decide : main_arg5 ∉ hostOps1_W)).trans <|
  (B2_of_ne m c main_arg5 (by decide)).trans <|
  (StableHlo.after_of_writes_sub hostOps0 _ hostOps0_writes (by decide : main_arg5 ∉ hostOps0_W)).trans <|
  rfl

theorem B4_main_arg6 : B4 m c (Proc.devRef .tc main_arg6) = m ((c : Thread nD τ).loc main_arg6) :=
  (B4_of_ne m c main_arg6 (by decide)).trans <|
  (StableHlo.after_of_writes_sub hostOps1 _ hostOps1_writes (by decide : main_arg6 ∉ hostOps1_W)).trans <|
  (B2_of_ne m c main_arg6 (by decide)).trans <|
  (StableHlo.after_of_writes_sub hostOps0 _ hostOps0_writes (by decide : main_arg6 ∉ hostOps0_W)).trans <|
  rfl

theorem B6_main_arg7 : B6 m c (Proc.devRef .tc main_arg7) = m ((c : Thread nD τ).loc main_arg7) :=
  (B6_of_ne m c main_arg7 (by decide)).trans <|
  (StableHlo.after_of_writes_sub hostOps2 _ hostOps2_writes (by decide : main_arg7 ∉ hostOps2_W)).trans <|
  (B4_of_ne m c main_arg7 (by decide)).trans <|
  (StableHlo.after_of_writes_sub hostOps1 _ hostOps1_writes (by decide : main_arg7 ∉ hostOps1_W)).trans <|
  (B2_of_ne m c main_arg7 (by decide)).trans <|
  (StableHlo.after_of_writes_sub hostOps0 _ hostOps0_writes (by decide : main_arg7 ∉ hostOps0_W)).trans <|
  rfl

theorem B6_main_arg8 : B6 m c (Proc.devRef .tc main_arg8) = m ((c : Thread nD τ).loc main_arg8) :=
  (B6_of_ne m c main_arg8 (by decide)).trans <|
  (StableHlo.after_of_writes_sub hostOps2 _ hostOps2_writes (by decide : main_arg8 ∉ hostOps2_W)).trans <|
  (B4_of_ne m c main_arg8 (by decide)).trans <|
  (StableHlo.after_of_writes_sub hostOps1 _ hostOps1_writes (by decide : main_arg8 ∉ hostOps1_W)).trans <|
  (B2_of_ne m c main_arg8 (by decide)).trans <|
  (StableHlo.after_of_writes_sub hostOps0 _ hostOps0_writes (by decide : main_arg8 ∉ hostOps0_W)).trans <|
  rfl

/-! ## Before region 0: the two channel-1 slices as matrices -/

/-- Channel 1 of a three-axis array, flattened, at (i, k) is the array at (i, k, 1). -/
theorem chan1_apply (a : (⟨S4096x4096x2, .f32⟩ : BufTy).Contents (Elt Ideal)) (i k : Fin 4096) :
    (shapeCast S4096x4096 (extractStridedSlice S4096x4096x1 ![0, 0, 1] a slices_S4096x4096x2_S4096x4096x1_0_0_1) shapeCasts_S4096x4096x1_S4096x4096 : (⟨S4096x4096, .f32⟩ : BufTy).Contents (Elt Ideal)) (ix2 i k)
      = a (ix3 i k (1 : Fin 2)) :=
  Cert.ReferenceIdeal.RefValue.chan_apply a i k

theorem E1_v5 (i k : Fin 4096) :
    (E1 m c main_v5 (ix2 i k) : EReal) = m ((c : Thread nD τ).loc main_arg2) (ix3 i k (1 : Fin 2)) := by
  have e : (E1 m c main_v5 : S4096x4096.Idx → EReal) = truncf (F := Ideal) .bf16 (shapeCast S4096x4096 (extractStridedSlice S4096x4096x1 ![0, 0, 1] (m ((c : Thread nD τ).loc main_arg2)) slices_S4096x4096x2_S4096x4096x1_0_0_1) shapeCasts_S4096x4096x1_S4096x4096 : (⟨S4096x4096, .f32⟩ : BufTy).Contents (Elt Ideal)) bitsLt_bf16_f32 := by
    show StableHlo.after hostOps0 _ (Proc.devRef .tc main_v5) = _
    after_results <;> rfl
  rw [e, truncf_apply]
  exact chan1_apply _ i k

theorem E1_v2 (k j : Fin 4096) :
    (E1 m c main_v2 (ix2 k j) : EReal) = m ((c : Thread nD τ).loc main_arg1) (ix3 k j (1 : Fin 2)) := by
  have e : (E1 m c main_v2 : S4096x4096.Idx → EReal) = truncf (F := Ideal) .bf16 (shapeCast S4096x4096 (extractStridedSlice S4096x4096x1 ![0, 0, 1] (m ((c : Thread nD τ).loc main_arg1)) slices_S4096x4096x2_S4096x4096x1_0_0_1) shapeCasts_S4096x4096x1_S4096x4096 : (⟨S4096x4096, .f32⟩ : BufTy).Contents (Elt Ideal)) bitsLt_bf16_f32 := by
    show StableHlo.after hostOps0 _ (Proc.devRef .tc main_v2) = _
    after_results <;> rfl
  rw [e, truncf_apply]
  exact chan1_apply _ k j

/-! ## A product with a weight matrix and a bias row, at an entry -/

/-- The host's product with a 256 × 256 weight matrix, at (k, d): the sum over the input features. -/
theorem dotW_apply (l : (⟨S4096x256, .f32⟩ : BufTy).Contents (Elt Ideal)) (r : (⟨S256x256, .f32⟩ : BufTy).Contents (Elt Ideal)) (k : Fin 4096) (d : Fin 256) :
    Host.dotGeneral (F := Ideal) (φ₁ := .f32) (φ₂ := .f32) dot_S4096x256_S256x256_S4096x256_1_0_0_1_n_n none l r (ix2 k d) = ∑ e : Fin 256, l (ix2 k e) * r (ix2 e d) :=
  Cert.Lib.RowBlocks.dotGeneral_plain_apply (M := 4096) (K := 256) (N := 256) none l r k d

/-- A vector recast as a one-row matrix, at (0, d), is the vector at d. -/
theorem row_apply (b : (⟨S256, .f32⟩ : BufTy).Contents (Elt Ideal)) (d : Fin 256) :
    (shapeCast S1x256 b shapeCasts_S256_S1x256 : (⟨S1x256, .f32⟩ : BufTy).Contents (Elt Ideal)) (ix2 (0 : Fin 1) d) = b (ix1 d) := by
  refine (shapeCast_apply b shapeCasts_S256_S1x256 (ix2 (0 : Fin 1) d) (ix1 d) ?_)
  rewrite [Shape.rowMajor_val_one, Shape.rowMajor_val_two]
  show d.val = 0 * 256 + d.val
  omega

/-! ## Before region 1 -/

/-- The fused matrix, which region 0 left, is still there when region 1 is entered. -/
theorem E3_v11 : E3 m c main_v11 = (dat0 (E1 m) c).arrAt 2 cfg0.N :=
  (StableHlo.after_of_writes_sub hostOps1 _ hostOps1_writes (by decide : main_v11 ∉ hostOps1_W)).trans (B2_arr m c 2)

theorem E3_v13 (k : Fin 4096) (d : Fin 256) :
    (E3 m c main_v13 (ix2 k d) : EReal) = ∑ e : Fin 256, arg0 m c (ix2 k e) * arg3 m c (ix2 e d) := by
  have e : (E3 m c main_v13 : S4096x256.Idx → EReal) = truncf (F := Ideal) .bf16 (Host.dotGeneral (F := Ideal) (φ₁ := .f32) (φ₂ := .f32) dot_S4096x256_S256x256_S4096x256_1_0_0_1_n_n none (B2 m c (Proc.devRef .tc main_arg0)) (B2 m c (Proc.devRef .tc main_arg3))) bitsLt_bf16_f32 := by
    show StableHlo.after hostOps1 _ (Proc.devRef .tc main_v13) = _
    after_results <;> rfl
  rw [e, truncf_apply, B2_main_arg0, B2_main_arg3]
  exact dotW_apply _ _ k d

theorem E3_v14 (d : Fin 256) :
    (E3 m c main_v14 (ix2 (0 : Fin 1) d) : EReal) = m ((c : Thread nD τ).loc main_arg4) (ix1 d) := by
  have e : (E3 m c main_v14 : S1x256.Idx → EReal) = (shapeCast S1x256 (B2 m c (Proc.devRef .tc main_arg4)) shapeCasts_S256_S1x256 : (⟨S1x256, .f32⟩ : BufTy).Contents (Elt Ideal)) := by
    show StableHlo.after hostOps1 _ (Proc.devRef .tc main_v14) = _
    after_results <;> rfl
  rw [e, B2_main_arg4]
  exact row_apply _ d

/-! ## Before region 2 -/

/-- The fused matrix is still there when region 2 is entered: region 1 only reads it. -/
theorem E5_v11 : E5 m c main_v11 = (dat0 (E1 m) c).arrAt 2 cfg0.N :=
  (StableHlo.after_of_writes_sub hostOps2 _ hostOps2_writes (by decide : main_v11 ∉ hostOps2_W)).trans <|
  (B4_arr m c 0).trans <|
  ((dat1 (E3 m) c).arrAt_in 0 rfl cfg1.N).trans <|
  (A_eq1 (E3 m) c 0).trans (E3_v11 m c)

theorem E5_v17 (k : Fin 4096) (d : Fin 256) :
    (E5 m c main_v17 (ix2 k d) : EReal)
      = ∑ e : Fin 256, out1 m c (ix2 k e) * arg5 m c (ix2 e d) := by
  have e : (E5 m c main_v17 : S4096x256.Idx → EReal) = truncf (F := Ideal) .bf16 (Host.dotGeneral (F := Ideal) (φ₁ := .f32) (φ₂ := .f32) dot_S4096x256_S256x256_S4096x256_1_0_0_1_n_n none (B4 m c (Proc.devRef .tc main_v15)) (B4 m c (Proc.devRef .tc main_arg5))) bitsLt_bf16_f32 := by
    show StableHlo.after hostOps2 _ (Proc.devRef .tc main_v17) = _
    after_results <;> rfl
  rw [e, truncf_apply, B4_main_arg5, show B4 m c (Proc.devRef .tc main_v15) = (dat1 (E3 m) c).arrAt 3 cfg1.N from B4_arr m c 3]
  exact dotW_apply _ _ k d

theorem E5_v18 (d : Fin 256) :
    (E5 m c main_v18 (ix2 (0 : Fin 1) d) : EReal) = m ((c : Thread nD τ).loc main_arg6) (ix1 d) := by
  have e : (E5 m c main_v18 : S1x256.Idx → EReal) = (shapeCast S1x256 (B4 m c (Proc.devRef .tc main_arg6)) shapeCasts_S256_S1x256 : (⟨S1x256, .f32⟩ : BufTy).Contents (Elt Ideal)) := by
    show StableHlo.after hostOps2 _ (Proc.devRef .tc main_v18) = _
    after_results <;> rfl
  rw [e, B4_main_arg6]
  exact row_apply _ d

/-! ## Before region 3 -/

/-- The fused matrix is still there when region 3 is entered: region 2 only reads it. -/
theorem E7_v11 : E7 m c main_v11 = (dat0 (E1 m) c).arrAt 2 cfg0.N :=
  (StableHlo.after_of_writes_sub hostOps3 _ hostOps3_writes (by decide : main_v11 ∉ hostOps3_W)).trans <|
  (B6_arr m c 0).trans <|
  ((dat2 (E5 m) c).arrAt_in 0 rfl cfg2.N).trans <|
  (A_eq2 (E5 m) c 0).trans (E5_v11 m c)

theorem E7_v21 (k : Fin 4096) (d : Fin 256) :
    (E7 m c main_v21 (ix2 k d) : EReal)
      = ∑ e : Fin 256, out2 m c (ix2 k e) * arg7 m c (ix2 e d) := by
  have e : (E7 m c main_v21 : S4096x256.Idx → EReal) = truncf (F := Ideal) .bf16 (Host.dotGeneral (F := Ideal) (φ₁ := .f32) (φ₂ := .f32) dot_S4096x256_S256x256_S4096x256_1_0_0_1_n_n none (B6 m c (Proc.devRef .tc main_v19)) (B6 m c (Proc.devRef .tc main_arg7))) bitsLt_bf16_f32 := by
    show StableHlo.after hostOps3 _ (Proc.devRef .tc main_v21) = _
    after_results <;> rfl
  rw [e, truncf_apply, B6_main_arg7, show B6 m c (Proc.devRef .tc main_v19) = (dat2 (E5 m) c).arrAt 3 cfg2.N from B6_arr m c 3]
  exact dotW_apply _ _ k d

theorem E7_v22 (d : Fin 256) :
    (E7 m c main_v22 (ix2 (0 : Fin 1) d) : EReal) = m ((c : Thread nD τ).loc main_arg8) (ix1 d) := by
  have e : (E7 m c main_v22 : S1x256.Idx → EReal) = (shapeCast S1x256 (B6 m c (Proc.devRef .tc main_arg8)) shapeCasts_S256_S1x256 : (⟨S1x256, .f32⟩ : BufTy).Contents (Elt Ideal)) := by
    show StableHlo.after hostOps3 _ (Proc.devRef .tc main_v22) = _
    after_results <;> rfl
  rw [e, B6_main_arg8]
  exact row_apply _ d

/-! ## After region 3: the result -/

/-- The time gradient, computed before region 0, is untouched by the regions and the host operations between them. -/
theorem B8_v10 : B8 m c (Proc.devRef .tc main_v10) = B1 m c (Proc.devRef .tc main_v10) :=
  (B8_of_ne m c main_v10 (by decide)).trans <|
  (StableHlo.after_of_writes_sub hostOps3 _ hostOps3_writes (by decide : main_v10 ∉ hostOps3_W)).trans <|
  (B6_of_ne m c main_v10 (by decide)).trans <|
  (StableHlo.after_of_writes_sub hostOps2 _ hostOps2_writes (by decide : main_v10 ∉ hostOps2_W)).trans <|
  (B4_of_ne m c main_v10 (by decide)).trans <|
  (StableHlo.after_of_writes_sub hostOps1 _ hostOps1_writes (by decide : main_v10 ∉ hostOps1_W)).trans <|
  (B2_of_ne m c main_v10 (by decide))

/-- The time gradient is the mean of channel 0 of the third argument over its first axis. -/
theorem B1_v10 : (B1 m c (Proc.devRef .tc main_v10) : S4096.Idx → EReal)
    = Host.divf (F := Ideal) (Host.reduceAdd (F := Ideal) (shapeCast S4096x4096 (extractStridedSlice S4096x4096x1 ![0, 0, 0] (m ((c : Thread nD τ).loc main_arg2)) slices_S4096x4096x2_S4096x4096x1_0_0_0) shapeCasts_S4096x4096x1_S4096x4096 : (⟨S4096x4096, .f32⟩ : BufTy).Contents (Elt Ideal)) (constant (F := Ideal) S_ .f32 0x00000000#32) reducesTo_S4096x4096_S4096_d0 h_S_) (broadcastInDim S4096 ![] bcast_S_S4096 (constant (F := Ideal) S_ .f32 0x45800000#32)) := by
  show StableHlo.after hostOps0 _ (Proc.devRef .tc main_v10) = _
  after_results <;> rfl

/-- The result: the time gradient repeated along the feature axis, times region 3's output, entry by entry. -/
theorem B9_v26 : B9 m c (Proc.devRef .tc main_v26)
    = mulf (F := Ideal) (s := S4096x256) (φ := .f32) (Cert.ReferenceIdeal.RefValue.tgB (m ((c : Thread nD τ).loc main_arg2))) ((dat3 (E7 m) c).arrAt 3 cfg3.N) := by
  have e : (B9 m c (Proc.devRef .tc main_v26) : S4096x256.Idx → EReal) = mulf (F := Ideal) (s := S4096x256) (φ := .f32) (broadcastInDim S4096x256 ![0, 1] bcast_S4096x1_S4096x256_0_1 (broadcastInDim S4096x1 ![0] bcast_S4096_S4096x1_0 (B8 m c (Proc.devRef .tc main_v10)))) (B8 m c (Proc.devRef .tc main_v23)) := by
    show StableHlo.after hostOps4 _ (Proc.devRef .tc main_v26) = _
    after_results <;> rfl
  rw [e, B8_v10, B1_v10, show B8 m c (Proc.devRef .tc main_v23) = (dat3 (E7 m) c).arrAt 3 cfg3.N from B8_arr m c 3]
  rfl

end Cert.KernelIdeal.Hand

end
-- ==== Proof.KI.KRun.lean ====
import proofs.«137211_j12206297055730_2_alg».proof.Proof.KI.Host

noncomputable section

namespace Cert.KernelIdeal.Hand

open Cert.KernelIdeal Cert.KernelIdeal.Gen
open Idealize.ShloMosaic Idealize.ShloMosaic.TcCoe
open Idealize.SL.Sem

/-- At the ideal values every weakly fair execution of the kernel program terminates with its result at the
    row-wise time gradient times the last region's output array, and its arguments as launched: the final memory
    is the last boundary's contents, whose result buffer is the last host stretch's product. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = mulf (F := Ideal) (s := S4096x256) (φ := .f32) (Cert.ReferenceIdeal.RefValue.tgB (m ((c.tc : Thread nD τ).loc main_arg2))) ((dat3 (E7 m) c).arrAt 3 cfg3.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c _ (mem_ucH main_v26 (by decide))).trans (B9_v26 m c),
    (h c _ (mem_ucH main_arg0 (by decide))).trans (B9_main_arg0 m c),
    (h c _ (mem_ucH main_arg1 (by decide))).trans (B9_main_arg1 m c),
    (h c _ (mem_ucH main_arg2 (by decide))).trans (B9_main_arg2 m c),
    (h c _ (mem_ucH main_arg3 (by decide))).trans (B9_main_arg3 m c),
    (h c _ (mem_ucH main_arg4 (by decide))).trans (B9_main_arg4 m c),
    (h c _ (mem_ucH main_arg5 (by decide))).trans (B9_main_arg5 m c),
    (h c _ (mem_ucH main_arg6 (by decide))).trans (B9_main_arg6 m c),
    (h c _ (mem_ucH main_arg7 (by decide))).trans (B9_main_arg7 m c),
    (h c _ (mem_ucH main_arg8 (by decide))).trans (B9_main_arg8 m c)⟩) (run_all m ρ)

end Cert.KernelIdeal.Hand

end
-- ==== Proof.NetAssoc.lean ====
/-
  Associativity of the matrix product over the extended reals, for matrices all of whose entries are real
  numbers, and its consequence for the three layers: taking the product with the weights first or the
  aggregation first gives the same network.  Also two re-indexing lemmas for a sum taken block by block.
-/
import proofs.«137211_j12206297055730_2_alg».proof.Proof.Spec
import Mathlib.Data.EReal.Basic
import Mathlib.Algebra.BigOperators.Ring.Finset
import Mathlib.Algebra.BigOperators.Fin
import Mathlib.Data.Fintype.BigOperators
import Mathlib.Logic.Equiv.Fin.Basic

noncomputable section

namespace Cert.Spec

open Finset

/-! ### Real numbers are closed under the operations of a layer -/

theorem IsReal.coe (r : ℝ) : IsReal (r : EReal) := ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max_zero {a : EReal} (ha : IsReal a) : IsReal (max a 0) := by
  obtain ⟨r, rfl⟩ := ha
  rcases le_total r 0 with h | h
  · have h' : (r : EReal) ≤ 0 := by
      rw [← EReal.coe_zero]; exact EReal.coe_le_coe_iff.mpr h
    rw [max_eq_right h']
    exact ⟨0, EReal.coe_zero.symm⟩
  · have h' : (0 : EReal) ≤ (r : EReal) := by
      rw [← EReal.coe_zero]; exact EReal.coe_le_coe_iff.mpr h
    rw [max_eq_left h']
    exact ⟨r, rfl⟩

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (hf : ∀ i, IsReal (f i)) :
    IsReal (∑ i ∈ s, f i) := by
  choose g hg using hf
  refine ⟨∑ i ∈ s, g i, ?_⟩
  rw [coe_sum]
  exact Finset.sum_congr rfl (fun i _ => hg i)

theorem mm_isReal {ι κ μ : Type} [Fintype κ] {A : ι → κ → EReal} {B : κ → μ → EReal}
    (hA : ∀ i k, IsReal (A i k)) (hB : ∀ k j, IsReal (B k j)) : ∀ i j, IsReal (mm A B i j) :=
  fun i j => IsReal.sum _ (fun k => (hA i k).mul (hB k j))

theorem layW_isReal {n d e : Type} [Fintype n] [Fintype d] {Fm : n → n → EReal} {x : n → d → EReal}
    {W : d → e → EReal} {b : e → EReal}
    (hF : ∀ i j, IsReal (Fm i j)) (hx : ∀ i j, IsReal (x i j)) (hW : ∀ i j, IsReal (W i j))
    (hb : ∀ j, IsReal (b j)) : ∀ i j, IsReal (layW Fm x W b i j) :=
  fun i j => (mm_isReal hF (mm_isReal hx hW) i j).add (hb j)

theorem layA_isReal {n d e : Type} [Fintype n] [Fintype d] {Fm : n → n → EReal} {x : n → d → EReal}
    {W : d → e → EReal} {b : e → EReal}
    (hF : ∀ i j, IsReal (Fm i j)) (hx : ∀ i j, IsReal (x i j)) (hW : ∀ i j, IsReal (W i j))
    (hb : ∀ j, IsReal (b j)) : ∀ i j, IsReal (layA Fm x W b i j) :=
  fun i j => (mm_isReal (mm_isReal hF hx) hW i j).add (hb j)

theorem relu_isReal {n e : Type} {x : n → e → EReal} (hx : ∀ i j, IsReal (x i j)) :
    ∀ i j, IsReal (relu x i j) :=
  fun i j => (hx i j).max_zero

/-! ### Associativity of the matrix product -/

/-- Associativity of the matrix product over the reals, one entry. -/
theorem real_mm_assoc {κ μ : Type} [Fintype κ] [Fintype μ] (a : κ → ℝ) (b : κ → μ → ℝ) (c : μ → ℝ) :
    ∑ l, (∑ k, a k * b k l) * c l = ∑ k, a k * ∑ l, b k l * c l := by
  simp only [Finset.sum_mul, Finset.mul_sum]
  rw [Finset.sum_comm]
  simp only [mul_assoc]

theorem mm_assoc {ι κ μ ν : Type} [Fintype κ] [Fintype μ] {A : ι → κ → EReal} {B : κ → μ → EReal}
    {C : μ → ν → EReal}
    (hA : ∀ i k, IsReal (A i k)) (hB : ∀ k l, IsReal (B k l)) (hC : ∀ l j, IsReal (C l j)) :
    mm (mm A B) C = mm A (mm B C) := by
  choose a ha using hA
  choose b hb using hB
  choose c hc using hC
  have hA' : A = fun i k => (a i k : EReal) := by funext i k; exact ha i k
  have hB' : B = fun k l => (b k l : EReal) := by funext k l; exact hb k l
  have hC' : C = fun l j => (c l j : EReal) := by funext l j; exact hc l j
  subst hA' hB' hC'
  funext i j
  simp only [mm, ← EReal.coe_mul, ← coe_sum]
  exact congrArg _ (real_mm_assoc (a i) b (fun l => c l j))

/-! ### The two orders of a layer, and of the three layers -/

theorem layW_eq_layA {n d e : Type} [Fintype n] [Fintype d] {Fm : n → n → EReal} {x : n → d → EReal}
    {W : d → e → EReal} {b : e → EReal}
    (hF : ∀ i j, IsReal (Fm i j)) (hx : ∀ i j, IsReal (x i j)) (hW : ∀ i j, IsReal (W i j)) :
    layW Fm x W b = layA Fm x W b := by
  funext i j
  simp only [layW, layA]
  rw [mm_assoc hF hx hW]

theorem netW_eq_netA {n d : Type} [Fintype n] [Fintype d] {Fm : n → n → EReal} {y : n → d → EReal}
    {W0 : d → d → EReal} {b0 : d → EReal} {W1 : d → d → EReal} {b1 : d → EReal}
    {W2 : d → d → EReal} {b2 : d → EReal}
    (hF : ∀ i j, IsReal (Fm i j)) (hy : ∀ i j, IsReal (y i j))
    (hW0 : ∀ i j, IsReal (W0 i j)) (hb0 : ∀ j, IsReal (b0 j))
    (hW1 : ∀ i j, IsReal (W1 i j)) (hb1 : ∀ j, IsReal (b1 j))
    (hW2 : ∀ i j, IsReal (W2 i j)) (hb2 : ∀ j, IsReal (b2 j)) :
    netW Fm y W0 b0 W1 b1 W2 b2 = netA Fm y W0 b0 W1 b1 W2 b2 := by
  unfold netW netA
  have r0 : ∀ i j, IsReal (relu (layA Fm y W0 b0) i j) := relu_isReal (layA_isReal hF hy hW0 hb0)
  have r1 : ∀ i j, IsReal (relu (layA Fm (relu (layA Fm y W0 b0)) W1 b1) i j) :=
    relu_isReal (layA_isReal hF r0 hW1 hb1)
  rw [layW_eq_layA (b := b0) hF hy hW0, layW_eq_layA (b := b1) hF r0 hW1,
    layW_eq_layA (b := b2) hF r1 hW2]

/-! ### A sum taken block by block -/

/-- A sum over `n` blocks of `m` consecutive indices is the sum over all `n * m` indices. -/
theorem sum_blocks {M : Type} [AddCommMonoid M] (n m : ℕ) (f : ℕ → M) :
    ∑ a : Fin n, ∑ b : Fin m, f (a.val * m + b.val) = ∑ k : Fin (n * m), f k.val := by
  rw [← Fintype.sum_prod_type' (fun (a : Fin n) (b : Fin m) => f (a.val * m + b.val))]
  refine Fintype.sum_equiv finProdFinEquiv _ _ ?_
  rintro ⟨a, b⟩
  simp only [finProdFinEquiv_apply_val]
  rw [Nat.add_comm, Nat.mul_comm]

theorem sum_blocks_16_256 {M : Type} [AddCommMonoid M] (f : ℕ → M) :
    ∑ a : Fin 16, ∑ b : Fin 256, f (a.val * 256 + b.val) = ∑ k : Fin 4096, f k.val :=
  sum_blocks 16 256 f

theorem sum_blocks_2_2048 {M : Type} [AddCommMonoid M] (f : ℕ → M) :
    ∑ a : Fin 2, ∑ b : Fin 2048, f (a.val * 2048 + b.val) = ∑ k : Fin 4096, f k.val :=
  sum_blocks 2 2048 f

end Cert.Spec

end
-- ==== Proof.KI.V0.lean ====
/-
  Region 0, read as values: what each control case of the body leaves in the accumulator and in the output block, the
  accumulator after every grid position as a running sum of block products, and the output array after the region as
  the matrix product of the two input arrays, entry by entry, over the extended reals.
-/
import proofs.«137211_j12206297055730_2_alg».proof.Proof.KI.R0
import Idealize.ShloMosaic.Lib.Pipeline.Value
import Idealize.ShloMosaic.Lib.ValueIdx
import Idealize.ShloMosaic.PureOps.Ideal.Laws
import proofs.«137211_j12206297055730_2_alg».proof.Proof.LibPlainDot
import proofs.«137211_j12206297055730_2_alg».proof.Proof.NetAssoc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem hz0 : (![0, 0] : Fin 2 → Nat) = fun _ => 0 := funext fun a => by fin_cases a <;> rfl

/-- Contraction block 0: the accumulator is reset and the first block product added. -/
theorem sout0_A_eq (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : cond0_0 i) (hc1 : ¬cond0_1 i) (x0 : Vec F S2048x256 .bf16) (x1 : Vec F S256x2048 .bf16) :
    sout0_A c i arg3 harg3 arg4 harg4 arg5 harg5 arg6 harg6 hc0 hc1 x0 x1 = k0_pay2 (k0_pay1 (F := F)) x0 x1 := by
  unfold sout0_A
  rw [View.read_writes_eq_canon _ _ _ (scover0_A c i arg3 harg3 arg4 harg4 arg5 harg5 arg6 harg6 hc0 hc1 x0 x1)]
  unfold kernelRun0_A
  dsimp only
  sl_unfold_words
  rw [View.canon_cons_unit_zero (S := S2048x2048) hz0, View.readCov_unit_zero (S := S2048x2048) _ hz0]
  simp only [View.readAt_eq_ld, harg3.read_unread, harg4.read_unread, View.ld_unit_zero (S := S2048x256) hz0, View.ld_unit_zero (S := S256x2048) hz0]

/-- A middle contraction block: the block product is added to what the accumulator held. -/
theorem sout0_B_eq (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : ¬cond0_1 i) (x0 : Vec F S2048x256 .bf16) (x1 : Vec F S256x2048 .bf16) (xs : Vec F S2048x2048 .f32) :
    sout0_B c i arg3 harg3 arg4 harg4 arg5 harg5 arg6 harg6 hc0 hc1 x0 x1 xs = k0_pay2 xs x0 x1 := by
  unfold sout0_B
  rw [View.read_writes_eq_canon _ _ _ (scover0_B c i arg3 harg3 arg4 harg4 arg5 harg5 arg6 harg6 hc0 hc1 x0 x1 xs)]
  unfold kernelRun0_B
  dsimp only
  rw [View.canon_unit_zero hz0]
  simp only [View.readAt_eq_ld, harg3.read_unread, harg4.read_unread, harg6.read_unread, View.ld_unit_zero (S := S2048x256) hz0, View.ld_unit_zero (S := S256x2048) hz0, View.ld_unit_zero (S := S2048x2048) hz0]

/-- The last contraction block, the accumulator: the block product is added to what the accumulator held. -/
theorem sout0_C_eq (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) :
    sout0_C c i arg3 harg3 arg4 harg4 arg5 harg5 arg6 harg6 hc0 hc1 x0 x1 xs = k0_pay2 xs x0 x1 := by
  unfold sout0_C
  rw [View.read_writes_eq_canon _ _ _ (scover0_C c i arg3 harg3 arg4 harg4 arg5 harg5 arg6 harg6 hc0 hc1 x0 x1 xs)]
  unfold kernelRun0_C
  dsimp only
  sl_unfold_words
  rw [View.canon_unit_zero hz0]
  simp only [View.readAt_eq_ld, harg3.read_unread, harg4.read_unread, harg6.read_unread, View.ld_unit_zero (S := S2048x256) hz0, View.ld_unit_zero (S := S256x2048) hz0, View.ld_unit_zero (S := S2048x2048) hz0]

/-- The last contraction block, the output block: the accumulator's new contents, stored out. -/
theorem out0_C_eq (c : Dev nD) (i : grid0.Coords) (arg3 : Memref sig .tc .vmem S2048x256 .bf16) (harg3 : arg3.IsWhole) (arg4 : Memref sig .tc .vmem S256x2048 .bf16) (harg4 : arg4.IsWhole) (arg5 : Memref sig .tc .vmem S2048x2048 .bf16) (harg5 : arg5.IsWhole) (arg6 : Memref sig .tc .vmem S2048x2048 .f32) (harg6 : arg6.IsWhole) (hc0 : ¬cond0_0 i) (hc1 : cond0_1 i) (x0 : Vec F S2048x256 .bf16) (x1 : Vec F S256x2048 .bf16) (xs : Vec F S2048x2048 .f32) :
    out0_C c i arg3 harg3 arg4 harg4 arg5 harg5 arg6 harg6 hc0 hc1 x0 x1 xs = k0_pay3 (k0_pay2 xs x0 x1) := by
  unfold out0_C
  rw [View.read_writes_eq_canon _ _ _ (cover0_C c i arg3 harg3 arg4 harg4 arg5 harg5 arg6 harg6 hc0 hc1 x0 x1 xs)]
  unfold kernelRun0_C
  dsimp only
  sl_unfold_words
  rw [View.canon_unit_zero hz0]
  simp only [View.readCov_unit_zero (S := S2048x2048) _ hz0, View.readAt_eq_ld, harg3.read_unread, harg4.read_unread, harg6.read_unread, View.ld_unit_zero (S := S2048x256) hz0, View.ld_unit_zero (S := S256x2048) hz0, View.ld_unit_zero (S := S2048x2048) hz0]

/-! ## The accumulator, point by point -/

section Steps
variable (V : (c : Dev nD) → (b : Ref sig .tc) → Buf (Elt F) ((c : Thread nD τ).loc b))

/-- At contraction block 0 the accumulator holds the zero block plus the first block product. -/
theorem acc0_reset (c : Dev nD) (n : ℕ) (h : n < cfg0.N) (h0 : n % 16 = 0) :
    (outsAt0 V c n h).2 = k0_pay2 (k0_pay1 (F := F)) (iblk0 V c 0 ⟨n, h⟩) (iblk0 V c 1 ⟨n, h⟩) := by
  have h1 : ¬(⟨n, h⟩ : Fin cfg0.N).val % 16 = 15 := by dsimp only; omega
  rw [outsAt0_A V c ⟨n, h⟩ h0 h1]
  dsimp only
  exact sout0_A_eq c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0 (Memref.isWhole_whole _) ((hcond0_0 ⟨n, h⟩).mpr h0) (fun hh => h1 ((hcond0_1 ⟨n, h⟩).mp hh)) (iblk0 V c 0 ⟨n, h⟩) (iblk0 V c 1 ⟨n, h⟩)

/-- At every other contraction block the accumulator holds what the position before left plus this block product. -/
theorem acc0_step (c : Dev nD) (n : ℕ) (h : n + 1 < cfg0.N) (h0 : ¬(n + 1) % 16 = 0) :
    (outsAt0 V c (n + 1) h).2
      = k0_pay2 (outsAt0 V c n (Nat.lt_of_succ_lt h)).2 (iblk0 V c 0 ⟨n + 1, h⟩) (iblk0 V c 1 ⟨n + 1, h⟩) := by
  by_cases h1 : (n + 1) % 16 = 15
  · rw [outsAt0_C V c ⟨n + 1, h⟩ h0 h1]
    dsimp only
    exact sout0_C_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0 (Memref.isWhole_whole _) (fun hh => h0 ((hcond0_0 ⟨n + 1, h⟩).mp hh)) ((hcond0_1 ⟨n + 1, h⟩).mpr h1) (iblk0 V c 0 ⟨n + 1, h⟩) (iblk0 V c 1 ⟨n + 1, h⟩) (outsAt0 V c n (Nat.lt_of_succ_lt h)).2
  · rw [outsAt0_B V c ⟨n + 1, h⟩ h0 h1]
    dsimp only
    exact sout0_B_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0 (Memref.isWhole_whole _) (fun hh => h0 ((hcond0_0 ⟨n + 1, h⟩).mp hh)) (fun hh => h1 ((hcond0_1 ⟨n + 1, h⟩).mp hh)) (iblk0 V c 0 ⟨n + 1, h⟩) (iblk0 V c 1 ⟨n + 1, h⟩) (outsAt0 V c n (Nat.lt_of_succ_lt h)).2

/-- At the last contraction block the output block holds the accumulator's contents, stored out. -/
theorem out0_last (c : Dev nD) (t : Fin cfg0.N) (h1 : t.val % 16 = 15) :
    (outsAt0 V c t.val t.isLt).1 = k0_pay3 (outsAt0 V c t.val t.isLt).2 := by
  have h0 : ¬t.val % 16 = 0 := by omega
  rw [outsAt0_C V c t h0 h1]
  dsimp only
  rw [out0_C_eq c (grid0.coords t) (ms0_0 t) (hs0_0 t) (ms0_1 t) (hs0_1 t) (ms0_2 t) (hs0_2 t) scM0 (Memref.isWhole_whole _) (fun hh => h0 ((hcond0_0 t).mp hh)) ((hcond0_1 t).mpr h1) (iblk0 V c 0 t) (iblk0 V c 1 t) (outsAt0 V c (t.val - 1) (Nat.lt_of_le_of_lt (Nat.sub_le _ _) t.isLt)).2,
    sout0_C_eq c (grid0.coords t) (ms0_0 t) (hs0_0 t) (ms0_1 t) (hs0_1 t) (ms0_2 t) (hs0_2 t) scM0 (Memref.isWhole_whole _) (fun hh => h0 ((hcond0_0 t).mp hh)) ((hcond0_1 t).mpr h1) (iblk0 V c 0 t) (iblk0 V c 1 t) (outsAt0 V c (t.val - 1) (Nat.lt_of_le_of_lt (Nat.sub_le _ _) t.isLt)).2]

end Steps

/-! ## Over the extended reals -/

section AtIdeal

/-- An array of the region read at two naturals, each taken modulo the extent so that every natural is an index. -/
def natAt (A : S4096x4096.Idx → EReal) (a b : ℕ) : EReal :=
  A (ix2 ⟨a % 4096, Nat.mod_lt _ (by decide)⟩ ⟨b % 4096, Nat.mod_lt _ (by decide)⟩)

theorem natAt_fin (A : S4096x4096.Idx → EReal) (i j : Fin 4096) : natAt A i.val j.val = A (ix2 i j) := by
  unfold natAt
  have hi : (⟨i.val % 4096, Nat.mod_lt _ (by decide)⟩ : Fin 4096) = i := Fin.ext (Nat.mod_eq_of_lt i.isLt)
  have hj : (⟨j.val % 4096, Nat.mod_lt _ (by decide)⟩ : Fin 4096) = j := Fin.ext (Nat.mod_eq_of_lt j.isLt)
  rw [hi, hj]

/-- The block indices of the three windows at position t, in closed form. -/
theorem idx0_0 : ∀ t : Fin grid0.N, cc0_transform_0 (grid0.coords t) 0 = t.val / 32 ∧ cc0_transform_0 (grid0.coords t) 1 = t.val % 16 := by decide +kernel
theorem idx0_1 : ∀ t : Fin grid0.N, cc0_transform_1 (grid0.coords t) 0 = t.val % 16 ∧ cc0_transform_1 (grid0.coords t) 1 = t.val / 16 % 2 := by decide +kernel
theorem idx0_2 : ∀ t : Fin grid0.N, cc0_transform_2 (grid0.coords t) 0 = t.val / 32 ∧ cc0_transform_2 (grid0.coords t) 1 = t.val / 16 % 2 := by decide +kernel

variable (V : (c : Dev nD) → (b : Ref sig .tc) → Buf (Elt Ideal) ((c : Thread nD τ).loc b))

/-- The left block at position t is the left array at row block t / 32, column block t % 16. -/
theorem iblk0_0_apply (c : Dev nD) (t : Fin cfg0.N) (p : Fin 2048) (kk : Fin 256) :
    ((iblk0 V c 0 t : Vec Ideal S2048x256 .bf16) (ix2 p kk) : EReal)
      = natAt (V c main_v5) (2048 * (t.val / 32) + p.val) (256 * (t.val % 16) + kk.val) := by
  have hN : t.val < 64 := lt_of_lt_of_eq t.isLt (show cfg0.N = 64 from N_0)
  unfold iblk0
  rw [View.read_apply]
  show V c main_v5 _ = _
  unfold natAt
  congr 1
  funext a
  apply Fin.ext
  match a with
  | ⟨0, _⟩ =>
    show cc0_transform_0 (grid0.coords t) 0 * 2048 + 1 * p.val = (2048 * (t.val / 32) + p.val) % 4096
    rw [(idx0_0 t).1]; omega
  | ⟨1, _⟩ =>
    show cc0_transform_0 (grid0.coords t) 1 * 256 + 1 * kk.val = (256 * (t.val % 16) + kk.val) % 4096
    rw [(idx0_0 t).2]; omega

/-- The right block at position t is the right array at row block t % 16, column block (t / 16) % 2. -/
theorem iblk0_1_apply (c : Dev nD) (t : Fin cfg0.N) (kk : Fin 256) (r : Fin 2048) :
    ((iblk0 V c 1 t : Vec Ideal S256x2048 .bf16) (ix2 kk r) : EReal)
      = natAt (V c main_v2) (256 * (t.val % 16) + kk.val) (2048 * (t.val / 16 % 2) + r.val) := by
  have hN : t.val < 64 := lt_of_lt_of_eq t.isLt (show cfg0.N = 64 from N_0)
  unfold iblk0
  rw [View.read_apply]
  show V c main_v2 _ = _
  unfold natAt
  congr 1
  funext a
  apply Fin.ext
  match a with
  | ⟨0, _⟩ =>
    show cc0_transform_1 (grid0.coords t) 0 * 256 + 1 * kk.val = (256 * (t.val % 16) + kk.val) % 4096
    rw [(idx0_1 t).1]; omega
  | ⟨1, _⟩ =>
    show cc0_transform_1 (grid0.coords t) 1 * 2048 + 1 * r.val = (2048 * (t.val / 16 % 2) + r.val) % 4096
    rw [(idx0_1 t).2]; omega

/-- The zero block, at an index. -/
theorem k0_pay1_apply (j : S2048x2048.Idx) : (k0_pay1 (F := Ideal) j : EReal) = 0 := by
  unfold k0_pay1
  simp only [shapeCast_self]
  exact Ideal.ofBits_zero_f32

/-- The accumulation step, at an index: what was held plus the sum over the block's contraction positions. -/
theorem k0_pay2_apply (xs : Vec Ideal S2048x2048 .f32) (x0 : Vec Ideal S2048x256 .bf16) (x1 : Vec Ideal S256x2048 .bf16) (p r : Fin 2048) :
    (k0_pay2 xs x0 x1 (ix2 p r) : EReal) = (xs (ix2 p r) : EReal) + ∑ kk : Fin 256, (x0 (ix2 p kk) : EReal) * (x1 (ix2 kk r) : EReal) := by
  unfold k0_pay2
  simp only [shapeCast_self]
  have hd : dot_S2048x256_S256x2048_S2048x2048_1_0_0_1_n_n = DotDims.plain 2048 256 2048 := rfl
  show (xs (ix2 p r) : EReal) + matmul dot_S2048x256_S256x2048_S2048x2048_1_0_0_1_n_n none x0 x1 (constant (F := Ideal) S2048x2048 .f32 0x00000000#32) (ix2 p r) = _
  rw [hd]
  exact congrArg (fun z => (xs (ix2 p r) : EReal) + z) (Cert.Lib.PlainDot.matmul_plain_zero_apply none x0 x1 p r)

/-- The store-out, at an index: rounding to the narrower format is exact over the extended reals. -/
theorem k0_pay3_apply (v : Vec Ideal S2048x2048 .f32) (j : S2048x2048.Idx) : (k0_pay3 v j : EReal) = (v j : EReal) := by
  unfold k0_pay3
  rfl

/-- The block product that position n adds, at a local index, read off the whole arrays. -/
def addend0 (c : Dev nD) (n : ℕ) (j : S2048x2048.Idx) : EReal :=
  ∑ kk : Fin 256, natAt (V c main_v5) (2048 * (n / 32) + (j 0).val) (256 * (n % 16) + kk.val)
    * natAt (V c main_v2) (256 * (n % 16) + kk.val) (2048 * (n / 16 % 2) + (j 1).val)

/-- One accumulation step at an index: what was held plus the position's block product. -/
theorem step0_apply (c : Dev nD) (n : ℕ) (h : n < cfg0.N) (acc : Vec Ideal S2048x2048 .f32) (j : S2048x2048.Idx) :
    (k0_pay2 acc (iblk0 V c 0 ⟨n, h⟩) (iblk0 V c 1 ⟨n, h⟩) j : EReal) = (acc j : EReal) + addend0 V c n j := by
  obtain ⟨p, r, rfl⟩ : ∃ p r, j = ix2 p r := ⟨j 0, j 1, eq_ix2 j⟩
  refine (k0_pay2_apply acc (iblk0 V c 0 ⟨n, h⟩) (iblk0 V c 1 ⟨n, h⟩) p r).trans ?_
  unfold addend0
  refine congrArg (fun z => (acc (ix2 p r) : EReal) + z) (Finset.sum_congr rfl fun kk _ => ?_)
  rw [iblk0_0_apply V c ⟨n, h⟩ p kk, iblk0_1_apply V c ⟨n, h⟩ kk r]

/-- The accumulator after position t, at a local index: the sum of the block products of the contraction blocks
    0 … t % 16 of the output block that t belongs to. -/
theorem acc0_apply (c : Dev nD) (t : Fin cfg0.N) (j : S2048x2048.Idx) :
    ((outsAt0 V c t.val t.isLt).2 j : EReal)
      = 0 + ∑ s ∈ Finset.range (t.val % 16 + 1), addend0 V c (16 * (t.val / 16) + s) j := by
  have h' : 16 * (t.val / 16) + t.val % 16 < cfg0.N := by rw [Nat.div_add_mod]; exact t.isLt
  have e := Pipeline.eq_accAt_of_mod (N := cfg0.N) (fun n h => (outsAt0 V c n h).2) 16
    (fun n h => k0_pay2 (k0_pay1 (F := Ideal)) (iblk0 V c 0 ⟨n, h⟩) (iblk0 V c 1 ⟨n, h⟩))
    (fun n h acc => k0_pay2 acc (iblk0 V c 0 ⟨n, h⟩) (iblk0 V c 1 ⟨n, h⟩))
    (fun n h h0 => acc0_reset V c n h h0) (fun n h hne => acc0_step V c n h hne) (by decide) t.val t.isLt h'
  refine (congrFun e j).trans ?_
  have hm : t.val % 16 ≤ 15 := by omega
  have ha : ∀ (h : 16 * (t.val / 16) < cfg0.N) (i : S2048x2048.Idx),
      (k0_pay2 (k0_pay1 (F := Ideal)) (iblk0 V c 0 ⟨16 * (t.val / 16), h⟩) (iblk0 V c 1 ⟨16 * (t.val / 16), h⟩) i : EReal)
        = 0 + addend0 V c (16 * (t.val / 16)) i := fun h i => by
    refine (step0_apply V c (16 * (t.val / 16)) h (k0_pay1 (F := Ideal)) i).trans ?_
    rw [k0_pay1_apply]
  exact Pipeline.accAt_add_apply (ι := S2048x2048.Idx) (β := EReal) _ _ (fun _ => 0) (addend0 V c) (16 * (t.val / 16)) 15
    ha (fun n h acc i _ _ => step0_apply V c n h acc i) (t.val % 16) hm h' j

/-- The product of the two arrays, entry by entry. -/
def prod0 (c : Dev nD) : S4096x4096.Idx → EReal :=
  fun idx => ∑ k : Fin 4096, natAt (V c main_v5) (idx 0).val k.val * natAt (V c main_v2) k.val (idx 1).val

/-- The one write-back of an output block, at its last contraction block, writes that block of the product. -/
theorem flushed0_eq (c : Dev nD) (t : Fin cfg0.N) (hf : (cfg0.win 2).flush t = true) :
    (dat0 V c).flushed 2 t = ((cfg0.win 2).blk t).view.read (Elt Ideal) (prod0 V c) := by
  have hN : t.val < 64 := lt_of_lt_of_eq t.isLt (show cfg0.N = 64 from N_0)
  have h15 : t.val % 16 = 15 := (flush0_2 t).mp hf
  show (cfg0.win 2).cut (grid0.coords t) ((dat0 V c).after 2 t) = _
  rw [after0_2, out0_last V c t h15]
  funext y
  obtain ⟨p, r, rfl⟩ : ∃ (p r : Fin 2048), y = ix2 p r := ⟨y 0, y 1, eq_ix2 y⟩
  rw [View.read_apply]
  have hx : (cfg0.win 2).xinj (grid0.coords t) (ix2 p r) = (ix2 p r : S2048x2048.Idx) :=
    funext fun a => by match a with | ⟨0, _⟩ => rfl | ⟨1, _⟩ => rfl
  show (k0_pay3 (outsAt0 V c t.val t.isLt).2 ((cfg0.win 2).xinj (grid0.coords t) (ix2 p r)) : EReal) = prod0 V c _
  rw [hx, k0_pay3_apply, acc0_apply V c t (ix2 p r), h15, zero_add, show (15 : ℕ) + 1 = 16 from rfl, Finset.sum_range]
  have er : ((((cfg0.win 2).blk t).view.emb (ix2 p r)) 0).val = 2048 * (t.val / 32) + p.val := by
    show cc0_transform_2 (grid0.coords t) 0 * 2048 + 1 * p.val = _
    rw [(idx0_2 t).1]; omega
  have ec : ((((cfg0.win 2).blk t).view.emb (ix2 p r)) 1).val = 2048 * (t.val / 16 % 2) + r.val := by
    show cc0_transform_2 (grid0.coords t) 1 * 2048 + 1 * r.val = _
    rw [(idx0_2 t).2]; omega
  show _ = ∑ k : Fin 4096, natAt (V c main_v5) ((((cfg0.win 2).blk t).view.emb (ix2 p r)) 0).val k.val
      * natAt (V c main_v2) k.val ((((cfg0.win 2).blk t).view.emb (ix2 p r)) 1).val
  rw [er, ec, ← Cert.Spec.sum_blocks_16_256 (fun k => natAt (V c main_v5) (2048 * (t.val / 32) + p.val) k
      * natAt (V c main_v2) k (2048 * (t.val / 16 % 2) + r.val))]
  refine Finset.sum_congr rfl fun s _ => ?_
  unfold addend0
  refine Finset.sum_congr rfl fun kk _ => ?_
  have hs := s.isLt
  have e1 : (16 * (t.val / 16) + s.val) / 32 = t.val / 32 := by omega
  have e2 : (16 * (t.val / 16) + s.val) % 16 = s.val := by omega
  have e3 : (16 * (t.val / 16) + s.val) / 16 % 2 = t.val / 16 % 2 := by omega
  rw [e1, e2, e3, Nat.mul_comm 256 s.val]

/-- Every entry of the output array lies in the block of exactly the position that writes its output block back. -/
theorem cover0 (c : Dev nD) (i : S4096x4096.Idx) :
    ∃ t : Fin cfg0.N, (cfg0.win 2).flush t = true ∧ i ∈ ((cfg0.win 2).blk t).view.set := by
  have h0 : (i 0 : ℕ) < 4096 := (i 0).isLt
  have h1 : (i 1 : ℕ) < 4096 := (i 1).isLt
  have hN : cfg0.N = 64 := N_0
  let t : Fin cfg0.N := ⟨32 * ((i 0).val / 2048) + 16 * ((i 1).val / 2048) + 15, by rw [hN]; omega⟩
  have ht : t.val = 32 * ((i 0).val / 2048) + 16 * ((i 1).val / 2048) + 15 := rfl
  refine ⟨t, (flush0_2 t).mpr (by rw [ht]; omega), ?_⟩
  show i ∈ ((View.whole main_v11).slice (win0_2.rect t)).set
  rw [View.set_slice_whole, Rect.mem_set_unit]
  intro a
  match a with
  | ⟨0, _⟩ =>
    show cc0_transform_2 (grid0.coords t) 0 * 2048 ≤ (i 0 : ℕ) ∧ (i 0 : ℕ) < cc0_transform_2 (grid0.coords t) 0 * 2048 + 2048
    rw [(idx0_2 t).1, ht]; omega
  | ⟨1, _⟩ =>
    show cc0_transform_2 (grid0.coords t) 1 * 2048 ≤ (i 1 : ℕ) ∧ (i 1 : ℕ) < cc0_transform_2 (grid0.coords t) 1 * 2048 + 2048
    rw [(idx0_2 t).2, ht]; omega

/-- After the region the output array holds the product of the two input arrays. -/
theorem arr0_eq (c : Dev nD) : (dat0 V c).arrAt 2 cfg0.N = prod0 V c :=
  (dat0 V c).arrAt_eq_of_cover 2 (prod0 V c) (flushed0_eq V c) (cover0 c)

/-- The left array of the region (window 0), as a matrix over the extended reals. -/
abbrev lhs0 (c : Dev nD) : S4096x4096.Idx → EReal := V c main_v5
/-- The right array of the region (window 1), as a matrix over the extended reals. -/
abbrev rhs0 (c : Dev nD) : S4096x4096.Idx → EReal := V c main_v2
/-- The output array after the region, as a matrix over the extended reals. -/
abbrev arr0 (c : Dev nD) : S4096x4096.Idx → EReal := (dat0 V c).arrAt 2 cfg0.N

/-- The interface: the output array after the region, entry by entry, is the sum over the contraction index of the
    products of the left array's row and the right array's column. -/
theorem arr0_apply (c : Dev nD) (i j : Fin 4096) :
    arr0 V c (ix2 i j) = ∑ k : Fin 4096, lhs0 V c (ix2 i k) * rhs0 V c (ix2 k j) := by
  have e : arr0 V c = prod0 V c := arr0_eq V c
  rw [e]
  show ∑ k : Fin 4096, natAt (V c main_v5) i.val k.val * natAt (V c main_v2) k.val j.val = _
  refine Finset.sum_congr rfl fun k _ => ?_
  rw [natAt_fin, natAt_fin]

end AtIdeal

end Cert.KernelIdeal.Hand

end
-- ==== Proof.KI.V1.lean ====
/-
  Region 1, read as values: what each control case of the body leaves in the accumulator and in the output block, and
  the output array after the region, entry by entry, over the extended reals: one layer's aggregation, the product
  of the fused matrix with the layer's input plus the bias, through the activation.
-/
import proofs.«137211_j12206297055730_2_alg».proof.Proof.KI.R1
import Idealize.ShloMosaic.Lib.Pipeline.Value
import Idealize.ShloMosaic.Lib.ValueIdx
import Idealize.ShloMosaic.PureOps.Ideal.Laws
import Idealize.ShloMosaic.Lib.ValueLayout
import proofs.«137211_j12206297055730_2_alg».proof.Proof.LibPlainDot
import proofs.«137211_j12206297055730_2_alg».proof.Proof.NetAssoc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem hz1 : (![0, 0] : Fin 2 → Nat) = fun _ => 0 := funext fun a => by fin_cases a <;> rfl

/-- Contraction block 0: the accumulator is reset and the first block product added to the zero block. -/
theorem sout1_A_eq (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond1_0 i) (hc1 : ¬cond1_1 i) (x0 : Vec F S2048x2048 .bf16) (x1 : Vec F S2048x256 .bf16) (x2 : Vec F S1x256 .f32) :
    sout1_A c i arg2 harg2 arg3 harg3 arg4 harg4 arg5 harg5 arg6 harg6 hc0 hc1 x0 x1 x2 = k1_pay2 x0 x1 (k1_pay1 (F := F)) := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S2048x256) hz1, View.readCov_unit_zero (S := S2048x256) _ hz1]
  simp only [View.readAt_eq_ld, harg2.read_unread, harg3.read_unread, View.ld_unit_zero (S := S2048x2048) hz1, View.ld_unit_zero (S := S2048x256) hz1]

/-- The last contraction block: the block product is added to what the accumulator held. -/
theorem sout1_B_eq (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) :
    sout1_B c i arg2 harg2 arg3 harg3 arg4 harg4 arg5 harg5 arg6 harg6 hc0 hc1 x0 x1 x2 xs = k1_pay2 x0 x1 xs := by
  unfold sout1_B
  rw [View.read_writes_eq_canon _ _ _ (scover1_B c i arg2 harg2 arg3 harg3 arg4 harg4 arg5 harg5 arg6 harg6 hc0 hc1 x0 x1 x2 xs)]
  unfold kernelRun1_B
  dsimp only
  sl_unfold_words
  rw [View.canon_unit_zero hz1]
  simp only [View.readAt_eq_ld, harg2.read_unread, harg3.read_unread, harg6.read_unread, View.ld_unit_zero (S := S2048x2048) hz1, View.ld_unit_zero (S := S2048x256) hz1]

/-- The last contraction block stores out the new accumulator plus the bias, through the activation. -/
theorem out1_B_eq (c : Dev nD) (i : grid1.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond1_0 i) (hc1 : cond1_1 i) (x0 : Vec F S2048x2048 .bf16) (x1 : Vec F S2048x256 .bf16) (x2 : Vec F S1x256 .f32) (xs : Vec F S2048x256 .f32) :
    out1_B c i arg2 harg2 arg3 harg3 arg4 harg4 arg5 harg5 arg6 harg6 hc0 hc1 x0 x1 x2 xs = k1_pay3 (k1_pay2 x0 x1 xs) x2 := by
  unfold out1_B
  rw [View.read_writes_eq_canon _ _ _ (cover1_B c i arg2 harg2 arg3 harg3 arg4 harg4 arg5 harg5 arg6 harg6 hc0 hc1 x0 x1 x2 xs)]
  unfold kernelRun1_B
  dsimp only
  sl_unfold_words
  rw [View.canon_unit_zero hz1, View.readCov_unit_zero (S := S2048x256) _ hz1]
  simp only [View.readAt_eq_ld, harg2.read_unread, harg3.read_unread, harg4.read_unread, harg6.read_unread, View.ld_unit_zero (S := S2048x2048) hz1, View.ld_unit_zero (S := S2048x256) hz1, View.ld_unit_zero (S := S1x256) hz1]

/-! ## The payloads at an entry, over the extended reals -/

/-- The printed dimension numbers are the plain rows × contraction times contraction × columns ones. -/
theorem dot1_eq_plain : dot_S2048x2048_S2048x256_S2048x256_1_0_0_1_n_n = DotDims.plain 2048 2048 256 := rfl

/-- The zero block, at an entry. -/
theorem k1_pay1_apply (j : S2048x256.Idx) : k1_pay1 (F := Ideal) j = 0 := by
  unfold k1_pay1
  simp only [shapeCast_self]
  exact Ideal.ofBits_zero_f32

/-- The block product added to an accumulator, at an entry: the accumulator's entry plus the sum over the block's
    contraction index. -/
theorem k1_pay2_apply (a : FVec Ideal S2048x2048 .bf16) (z : FVec Ideal S2048x256 .bf16) (acc : FVec Ideal S2048x256 .f32)
    (p : Fin 2048) (d : Fin 256) :
    k1_pay2 (F := Ideal) a z acc (ix2 p d) = acc (ix2 p d) + ∑ k : Fin 2048, a (ix2 p k) * z (ix2 k d) := by
  unfold k1_pay2
  simp only [shapeCast_self, dot1_eq_plain]
  exact congrArg (acc (ix2 p d) + ·) (Cert.Lib.PlainDot.matmul_plain_zero_apply none a z p d)

/-- What is stored out, at an entry: the accumulator's entry plus the bias of its column, through the activation. -/
theorem k1_pay3_apply (acc : FVec Ideal S2048x256 .f32) (b : FVec Ideal S1x256 .f32) (p : Fin 2048) (d : Fin 256) :
    k1_pay3 (F := Ideal) acc b (ix2 p d) = max (acc (ix2 p d) + b (ix2 (0 : Fin 1) d)) 0 := by
  unfold k1_pay3
  simp only [shapeCast_self]
  show max (acc (ix2 p d) + broadcastTo S2048x256 b broadcasts_S1x256_S2048x256 (ix2 p d)) (Ideal.ofBits .f32 0x00000000#32) = _
  rw [Ideal.ofBits_zero_f32, broadcastTo_1b_ab_apply b broadcasts_S1x256_S2048x256 p d]

/-- The two contraction blocks of one row block, at an entry. -/
theorem pay1_chain_apply (a0 a1 : FVec Ideal S2048x2048 .bf16) (z0 z1 : FVec Ideal S2048x256 .bf16) (b : FVec Ideal S1x256 .f32)
    (p : Fin 2048) (d : Fin 256) :
    k1_pay3 (F := Ideal) (k1_pay2 (F := Ideal) a1 z1 (k1_pay2 (F := Ideal) a0 z0 (k1_pay1 (F := Ideal)))) b (ix2 p d)
      = max (((∑ k : Fin 2048, a0 (ix2 p k) * z0 (ix2 k d)) + ∑ k : Fin 2048, a1 (ix2 p k) * z1 (ix2 k d)) + b (ix2 (0 : Fin 1) d)) 0 := by
  rw [k1_pay3_apply, k1_pay2_apply, k1_pay2_apply, k1_pay1_apply, zero_add]

/-- A sum over 4096 indices, in two halves. -/
theorem sum_halves1_4096 {M : Type} [AddCommMonoid M] (g : Fin 4096 → M) :
    ∑ k : Fin 4096, g k = (∑ b : Fin 2048, g ⟨b.val, by omega⟩) + ∑ b : Fin 2048, g ⟨2048 + b.val, by omega⟩ :=
  Fin.sum_univ_add (a := 2048) (b := 2048) g

/-! ## The layer, entry by entry -/

/-- One entry of the layer: row i of the fused matrix times column d of the layer's input, plus the bias of column d,
    through the activation. -/
def lay1 (A : S4096x4096.Idx → EReal) (Z : S4096x256.Idx → EReal) (B : S1x256.Idx → EReal) (i : Fin 4096) (d : Fin 256) : EReal :=
  max ((∑ k : Fin 4096, A (ix2 i k) * Z (ix2 k d)) + B (ix2 (0 : Fin 1) d)) 0

/-- The layer as contents of the output array. -/
def G1 (A : S4096x4096.Idx → EReal) (Z : S4096x256.Idx → EReal) (B : S1x256.Idx → EReal) : S4096x256.Idx → EReal :=
  fun j => lay1 A Z B ⟨(j 0).val, idx2_lt0 j⟩ ⟨(j 1).val, idx2_lt1 j⟩

theorem G1_apply_of (A : S4096x4096.Idx → EReal) (Z : S4096x256.Idx → EReal) (B : S1x256.Idx → EReal)
    (j : S4096x256.Idx) (i : Fin 4096) (d : Fin 256) (hi : (j 0).val = i.val) (hd : (j 1).val = d.val) :
    G1 A Z B j = lay1 A Z B i d := by
  unfold G1
  rw [show (⟨(j 0).val, idx2_lt0 j⟩ : Fin 4096) = i from Fin.ext hi, show (⟨(j 1).val, idx2_lt1 j⟩ : Fin 256) = d from Fin.ext hd]

/-- The layer's entry with its contraction sum in two halves. -/
theorem lay1_halves (A : S4096x4096.Idx → EReal) (Z : S4096x256.Idx → EReal) (B : S1x256.Idx → EReal) (i : Fin 4096) (d : Fin 256) :
    lay1 A Z B i d
      = max (((∑ k : Fin 2048, A (ix2 i ⟨k.val, by omega⟩) * Z (ix2 (⟨k.val, by omega⟩ : Fin 4096) d))
          + ∑ k : Fin 2048, A (ix2 i ⟨2048 + k.val, by omega⟩) * Z (ix2 (⟨2048 + k.val, by omega⟩ : Fin 4096) d))
          + B (ix2 (0 : Fin 1) d)) 0 := by
  unfold lay1
  rw [sum_halves1_4096]

section
variable (V : (c : Dev nD) → (b : Ref sig .tc) → Buf (Elt Ideal) ((c : Thread nD τ).loc b))

/-! ## The blocks the body reads, entry by entry -/

/-- The printed index maps over the grid: the row block is the position's quotient by 2, the contraction block its
    remainder. -/
theorem idx_facts1 : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = 0 ∧ win1_2.index t (1 : Fin 2) = 0
    ∧ win1_3.index t (0 : Fin 2) = t.val / 2 ∧ win1_3.index t (1 : Fin 2) = 0 :=
  (by decide +kernel : ∀ t : Fin grid1.N, _)

/-- The fused matrix's block at position t, at an entry. -/
theorem iblk1_0_apply (c : Dev nD) (A : S4096x4096.Idx → EReal) (hA : V c main_v11 = A) (t : Fin cfg1.N) (p k : Fin 2048) (r s : Fin 4096)
    (hr : r.val = t.val / 2 * 2048 + p.val) (hs : s.val = t.val % 2 * 2048 + k.val) :
    (iblk1 V c 0 t : FVec Ideal S2048x2048 .bf16) (ix2 p k) = A (ix2 r s) := by
  subst hA
  obtain ⟨e0, e1, -⟩ := idx_facts1 t
  show (V c main_v11 : S4096x4096.Idx → EReal) (((cfg1.win 0).blk t).view.emb (ix2 p k)) = _
  refine congrArg _ (funext fun a => Fin.ext ?_)
  match a with
  | ⟨0, _⟩ => show win1_0.index t (0 : Fin 2) * 2048 + 1 * p.val = r.val; omega
  | ⟨1, _⟩ => show win1_0.index t (1 : Fin 2) * 2048 + 1 * k.val = s.val; omega

/-- The layer input's block at position t, at an entry. -/
theorem iblk1_1_apply (c : Dev nD) (Z : S4096x256.Idx → EReal) (hZ : V c main_v13 = Z) (t : Fin cfg1.N) (k : Fin 2048) (d : Fin 256) (s : Fin 4096)
    (hs : s.val = t.val % 2 * 2048 + k.val) :
    (iblk1 V c 1 t : FVec Ideal S2048x256 .bf16) (ix2 k d) = Z (ix2 s d) := by
  subst hZ
  obtain ⟨-, -, e2, e3, -⟩ := idx_facts1 t
  show (V c main_v13 : S4096x256.Idx → EReal) (((cfg1.win 1).blk t).view.emb (ix2 k d)) = _
  refine congrArg _ (funext fun a => Fin.ext ?_)
  match a with
  | ⟨0, _⟩ => show win1_1.index t (0 : Fin 2) * 2048 + 1 * k.val = s.val; omega
  | ⟨1, _⟩ => show win1_1.index t (1 : Fin 2) * 256 + 1 * d.val = d.val; omega

/-- The bias's block at position t, at an entry. -/
theorem iblk1_2_apply (c : Dev nD) (B : S1x256.Idx → EReal) (hB : V c main_v14 = B) (t : Fin cfg1.N) (d : Fin 256) :
    (iblk1 V c 2 t : FVec Ideal S1x256 .f32) (ix2 (0 : Fin 1) d) = B (ix2 (0 : Fin 1) d) := by
  subst hB
  obtain ⟨-, -, -, -, e4, e5, -⟩ := idx_facts1 t
  show (V c main_v14 : S1x256.Idx → EReal) (((cfg1.win 2).blk t).view.emb (ix2 (0 : Fin 1) d)) = _
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * d.val = d.val; omega

end

/-! ## Position by position -/

/-- After an odd position the output block holds what is stored out of the two contraction blocks of its row block. -/
theorem out1_odd {F : FTy → Type} [FloatOps F] (V : (c : Dev nD) → (b : Ref sig .tc) → Buf (Elt F) ((c : Thread nD τ).loc b))
    (c : Dev nD) (t : Fin cfg1.N) (h1 : t.val % 2 = 1) (hlt : t.val - 1 < cfg1.N) :
    (outsAt1 V c t.val t.isLt).1
      = k1_pay3 (k1_pay2 (iblk1 V c 0 t) (iblk1 V c 1 t) (k1_pay2 (iblk1 V c 0 ⟨t.val - 1, hlt⟩) (iblk1 V c 1 ⟨t.val - 1, hlt⟩) (k1_pay1 (F := F)))) (iblk1 V c 2 t) := by
  have h0 : ¬t.val % 2 = 0 := by omega
  have h0' : (⟨t.val - 1, hlt⟩ : Fin cfg1.N).val % 2 = 0 := by show (t.val - 1) % 2 = 0; omega
  have h1' : ¬(⟨t.val - 1, hlt⟩ : Fin cfg1.N).val % 2 = 1 := by show ¬(t.val - 1) % 2 = 1; omega
  have e2 := congrArg Prod.snd (outsAt1_A V c ⟨t.val - 1, hlt⟩ h0' h1')
  dsimp only at e2
  rw [outsAt1_B V c t h0 h1]
  dsimp only
  rw [out1_B_eq, e2, sout1_A_eq]

section
variable (V : (c : Dev nD) → (b : Ref sig .tc) → Buf (Elt Ideal) ((c : Thread nD τ).loc b))
variable (c : Dev nD) (A : S4096x4096.Idx → EReal) (Z : S4096x256.Idx → EReal) (B : S1x256.Idx → EReal)
variable (hA : V c main_v11 = A) (hZ : V c main_v13 = Z) (hB : V c main_v14 = B)
include hA hZ hB

/-- After an odd position the output block holds, at an entry, the layer's entry of its row in the array. -/
theorem out1_odd_apply (t : Fin cfg1.N) (h1 : t.val % 2 = 1) (p : Fin 2048) (d : Fin 256) (r : Fin 4096)
    (hr : r.val = t.val / 2 * 2048 + p.val) :
    ((outsAt1 V c t.val t.isLt).1 : FVec Ideal S2048x256 .f32) (ix2 p d) = lay1 A Z B r d := by
  have hlt : t.val - 1 < cfg1.N := Nat.lt_of_le_of_lt (Nat.sub_le _ _) t.isLt
  rw [out1_odd V c t h1 hlt]
  refine (pay1_chain_apply (iblk1 V c 0 ⟨t.val - 1, hlt⟩) (iblk1 V c 0 t) (iblk1 V c 1 ⟨t.val - 1, hlt⟩) (iblk1 V c 1 t) (iblk1 V c 2 t) p d).trans ?_
  rw [lay1_halves]
  have hm0 : (⟨t.val - 1, hlt⟩ : Fin cfg1.N).val % 2 = 0 := by show (t.val - 1) % 2 = 0; omega
  have hq0 : (⟨t.val - 1, hlt⟩ : Fin cfg1.N).val / 2 = t.val / 2 := by show (t.val - 1) / 2 = t.val / 2; omega
  refine congrArg₂ max (congrArg₂ (· + ·) (congrArg₂ (· + ·) (Finset.sum_congr rfl fun k _ => ?_) (Finset.sum_congr rfl fun k _ => ?_)) ?_) rfl
  · rw [iblk1_0_apply V c A hA ⟨t.val - 1, hlt⟩ p k r ⟨k.val, by omega⟩ (by rw [hq0]; exact hr) (by rw [hm0]; show k.val = 0 * 2048 + k.val; omega),
      iblk1_1_apply V c Z hZ ⟨t.val - 1, hlt⟩ k d ⟨k.val, by omega⟩ (by rw [hm0]; show k.val = 0 * 2048 + k.val; omega)]
  · rw [iblk1_0_apply V c A hA t p k r ⟨2048 + k.val, by omega⟩ hr (by rw [h1]),
      iblk1_1_apply V c Z hZ t k d ⟨2048 + k.val, by omega⟩ (by rw [h1])]
  · exact iblk1_2_apply V c B hB t d

/-! ## From the blocks to the array -/

/-- What a flushing position writes back is its block of the layer. -/
theorem flushed1_eq (t : Fin cfg1.N) (hf : (cfg1.win 3).flush t = true) :
    (dat1 V c).flushed 3 t = ((cfg1.win 3).blk t).view.read (Elt Ideal) (G1 A Z B) := by
  have h1 : t.val % 2 = 1 := (flush1_3 t).mp hf
  have ht : t.val < 4 := lt_of_lt_of_eq t.isLt (show cfg1.N = 4 from N_1)
  obtain ⟨-, -, -, -, -, -, e6, e7⟩ := idx_facts1 t
  show (cfg1.win 3).cut (grid1.coords t) ((dat1 V c).after 3 t) = _
  rw [after1_3]
  funext j
  obtain ⟨p, d, rfl⟩ : ∃ (p : Fin 2048) (d : Fin 256), j = ix2 p d := ⟨j 0, j 1, eq_ix2 (n0 := 2048) (n1 := 256) j⟩
  show ((outsAt1 V c t.val t.isLt).1 : FVec Ideal S2048x256 .f32) (ix2 p d) = G1 A Z B (((cfg1.win 3).blk t).view.emb (ix2 p d))
  have hp : p.val < 2048 := p.isLt
  refine (out1_odd_apply V c A Z B hA hZ hB t h1 p d ⟨t.val / 2 * 2048 + p.val, by omega⟩ rfl).trans (G1_apply_of A Z B _ _ _ ?_ ?_).symm
  · show win1_3.index t (0 : Fin 2) * 2048 + 1 * p.val = t.val / 2 * 2048 + p.val; omega
  · show win1_3.index t (1 : Fin 2) * 256 + 1 * d.val = d.val; omega

omit hA hZ hB in
/-- An index of the array is in position t's block iff each coordinate is in the block's range on its axis. -/
theorem mem_blk1_3 (t : Fin cfg1.N) (i : S4096x256.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v15).slice (win1_3.rect t)).set ↔ _
  rw [View.set_slice_whole, Rect.mem_set_unit]
  exact Iff.rfl

omit hA hZ hB in
/-- Every row is in the block of the flushing position of its row block. -/
theorem cover1_3 (i : S4096x256.Idx) : ∃ t : Fin cfg1.N, (cfg1.win 3).flush t = true ∧ i ∈ ((cfg1.win 3).blk t).view.set := by
  have hi0 : (i 0).val < 4096 := (i 0).isLt
  have hi1 : (i 1).val < 256 := (i 1).isLt
  have hN : cfg1.N = 4 := N_1
  obtain ⟨t, ht⟩ : ∃ t : Fin cfg1.N, t.val = 2 * ((i 0).val / 2048) + 1 := ⟨⟨2 * ((i 0).val / 2048) + 1, by rw [hN]; omega⟩, rfl⟩
  obtain ⟨-, -, -, -, -, -, e6, e7⟩ := idx_facts1 t
  refine ⟨t, (flush1_3 t).mpr (by omega), ?_⟩
  rw [mem_blk1_3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 256 ≤ (i 1).val ∧ (i 1).val < win1_3.index t (1 : Fin 2) * 256 + 256; omega

/-- The output array after the region is the layer. -/
theorem final1 : (dat1 V c).arrAt 3 cfg1.N = G1 A Z B :=
  (dat1 V c).arrAt_eq_of_cover 3 (G1 A Z B) (flushed1_eq V c A Z B hA hZ hB) cover1_3

/-- THE OUTPUT ARRAY, ENTRY BY ENTRY: row i of the fused matrix times column d of the layer's input, plus the bias of
    column d, through the activation. -/
theorem arr1_apply (i : Fin 4096) (d : Fin 256) :
    ((dat1 V c).arrAt 3 cfg1.N : S4096x256.Idx → EReal) (ix2 i d)
      = max ((∑ k : Fin 4096, A (ix2 i k) * Z (ix2 k d)) + B (ix2 (0 : Fin 1) d)) 0 :=
  (congrFun (final1 V c A Z B hA hZ hB) (ix2 i d)).trans (G1_apply_of A Z B (ix2 i d) i d rfl rfl)

end

end Cert.KernelIdeal.Hand

end
-- ==== Proof.KI.V2.lean ====
/-
  Region 2, read as values: what each control case of the body leaves in the accumulator and in the output block, and
  the output array after the region, entry by entry, over the extended reals: one layer's aggregation, the product
  of the fused matrix with the layer's input plus the bias, through the activation.
-/
import proofs.«137211_j12206297055730_2_alg».proof.Proof.KI.R2
import Idealize.ShloMosaic.Lib.Pipeline.Value
import Idealize.ShloMosaic.Lib.ValueIdx
import Idealize.ShloMosaic.PureOps.Ideal.Laws
import Idealize.ShloMosaic.Lib.ValueLayout
import proofs.«137211_j12206297055730_2_alg».proof.Proof.LibPlainDot
import proofs.«137211_j12206297055730_2_alg».proof.Proof.NetAssoc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem hz2 : (![0, 0] : Fin 2 → Nat) = fun _ => 0 := funext fun a => by fin_cases a <;> rfl

/-- Contraction block 0: the accumulator is reset and the first block product added to the zero block. -/
theorem sout2_A_eq (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond2_0 i) (hc1 : ¬cond2_1 i) (x0 : Vec F S2048x2048 .bf16) (x1 : Vec F S2048x256 .bf16) (x2 : Vec F S1x256 .f32) :
    sout2_A c i arg2 harg2 arg3 harg3 arg4 harg4 arg5 harg5 arg6 harg6 hc0 hc1 x0 x1 x2 = k2_pay2 x0 x1 (k2_pay1 (F := F)) := by
  unfold sout2_A
  rw [View.read_writes_eq_canon _ _ _ (scover2_A c i arg2 harg2 arg3 harg3 arg4 harg4 arg5 harg5 arg6 harg6 hc0 hc1 x0 x1 x2)]
  unfold kernelRun2_A
  dsimp only
  sl_unfold_words
  rw [View.canon_cons_unit_zero (S := S2048x256) hz2, View.readCov_unit_zero (S := S2048x256) _ hz2]
  simp only [View.readAt_eq_ld, harg2.read_unread, harg3.read_unread, View.ld_unit_zero (S := S2048x2048) hz2, View.ld_unit_zero (S := S2048x256) hz2]

/-- The last contraction block: the block product is added to what the accumulator held. -/
theorem sout2_B_eq (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) :
    sout2_B c i arg2 harg2 arg3 harg3 arg4 harg4 arg5 harg5 arg6 harg6 hc0 hc1 x0 x1 x2 xs = k2_pay2 x0 x1 xs := by
  unfold sout2_B
  rw [View.read_writes_eq_canon _ _ _ (scover2_B c i arg2 harg2 arg3 harg3 arg4 harg4 arg5 harg5 arg6 harg6 hc0 hc1 x0 x1 x2 xs)]
  unfold kernelRun2_B
  dsimp only
  sl_unfold_words
  rw [View.canon_unit_zero hz2]
  simp only [View.readAt_eq_ld, harg2.read_unread, harg3.read_unread, harg6.read_unread, View.ld_unit_zero (S := S2048x2048) hz2, View.ld_unit_zero (S := S2048x256) hz2]

/-- The last contraction block stores out the new accumulator plus the bias, through the activation. -/
theorem out2_B_eq (c : Dev nD) (i : grid2.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond2_0 i) (hc1 : cond2_1 i) (x0 : Vec F S2048x2048 .bf16) (x1 : Vec F S2048x256 .bf16) (x2 : Vec F S1x256 .f32) (xs : Vec F S2048x256 .f32) :
    out2_B c i arg2 harg2 arg3 harg3 arg4 harg4 arg5 harg5 arg6 harg6 hc0 hc1 x0 x1 x2 xs = k2_pay3 (k2_pay2 x0 x1 xs) x2 := by
  unfold out2_B
  rw [View.read_writes_eq_canon _ _ _ (cover2_B c i arg2 harg2 arg3 harg3 arg4 harg4 arg5 harg5 arg6 harg6 hc0 hc1 x0 x1 x2 xs)]
  unfold kernelRun2_B
  dsimp only
  sl_unfold_words
  rw [View.canon_unit_zero hz2, View.readCov_unit_zero (S := S2048x256) _ hz2]
  simp only [View.readAt_eq_ld, harg2.read_unread, harg3.read_unread, harg4.read_unread, harg6.read_unread, View.ld_unit_zero (S := S2048x2048) hz2, View.ld_unit_zero (S := S2048x256) hz2, View.ld_unit_zero (S := S1x256) hz2]

/-! ## The payloads at an entry, over the extended reals -/

/-- The printed dimension numbers are the plain rows × contraction times contraction × columns ones. -/
theorem dot2_eq_plain : dot_S2048x2048_S2048x256_S2048x256_1_0_0_1_n_n = DotDims.plain 2048 2048 256 := rfl

/-- The zero block, at an entry. -/
theorem k2_pay1_apply (j : S2048x256.Idx) : k2_pay1 (F := Ideal) j = 0 := by
  unfold k2_pay1
  simp only [shapeCast_self]
  exact Ideal.ofBits_zero_f32

/-- The block product added to an accumulator, at an entry: the accumulator's entry plus the sum over the block's
    contraction index. -/
theorem k2_pay2_apply (a : FVec Ideal S2048x2048 .bf16) (z : FVec Ideal S2048x256 .bf16) (acc : FVec Ideal S2048x256 .f32)
    (p : Fin 2048) (d : Fin 256) :
    k2_pay2 (F := Ideal) a z acc (ix2 p d) = acc (ix2 p d) + ∑ k : Fin 2048, a (ix2 p k) * z (ix2 k d) := by
  unfold k2_pay2
  simp only [shapeCast_self, dot2_eq_plain]
  exact congrArg (acc (ix2 p d) + ·) (Cert.Lib.PlainDot.matmul_plain_zero_apply none a z p d)

/-- What is stored out, at an entry: the accumulator's entry plus the bias of its column, through the activation. -/
theorem k2_pay3_apply (acc : FVec Ideal S2048x256 .f32) (b : FVec Ideal S1x256 .f32) (p : Fin 2048) (d : Fin 256) :
    k2_pay3 (F := Ideal) acc b (ix2 p d) = max (acc (ix2 p d) + b (ix2 (0 : Fin 1) d)) 0 := by
  unfold k2_pay3
  simp only [shapeCast_self]
  show max (acc (ix2 p d) + broadcastTo S2048x256 b broadcasts_S1x256_S2048x256 (ix2 p d)) (Ideal.ofBits .f32 0x00000000#32) = _
  rw [Ideal.ofBits_zero_f32, broadcastTo_1b_ab_apply b broadcasts_S1x256_S2048x256 p d]

/-- The two contraction blocks of one row block, at an entry. -/
theorem pay2_chain_apply (a0 a1 : FVec Ideal S2048x2048 .bf16) (z0 z1 : FVec Ideal S2048x256 .bf16) (b : FVec Ideal S1x256 .f32)
    (p : Fin 2048) (d : Fin 256) :
    k2_pay3 (F := Ideal) (k2_pay2 (F := Ideal) a1 z1 (k2_pay2 (F := Ideal) a0 z0 (k2_pay1 (F := Ideal)))) b (ix2 p d)
      = max (((∑ k : Fin 2048, a0 (ix2 p k) * z0 (ix2 k d)) + ∑ k : Fin 2048, a1 (ix2 p k) * z1 (ix2 k d)) + b (ix2 (0 : Fin 1) d)) 0 := by
  rw [k2_pay3_apply, k2_pay2_apply, k2_pay2_apply, k2_pay1_apply, zero_add]

/-- A sum over 4096 indices, in two halves. -/
theorem sum_halves2_4096 {M : Type} [AddCommMonoid M] (g : Fin 4096 → M) :
    ∑ k : Fin 4096, g k = (∑ b : Fin 2048, g ⟨b.val, by omega⟩) + ∑ b : Fin 2048, g ⟨2048 + b.val, by omega⟩ :=
  Fin.sum_univ_add (a := 2048) (b := 2048) g

/-! ## The layer, entry by entry -/

/-- One entry of the layer: row i of the fused matrix times column d of the layer's input, plus the bias of column d,
    through the activation. -/
def lay2 (A : S4096x4096.Idx → EReal) (Z : S4096x256.Idx → EReal) (B : S1x256.Idx → EReal) (i : Fin 4096) (d : Fin 256) : EReal :=
  max ((∑ k : Fin 4096, A (ix2 i k) * Z (ix2 k d)) + B (ix2 (0 : Fin 1) d)) 0

/-- The layer as contents of the output array. -/
def G2 (A : S4096x4096.Idx → EReal) (Z : S4096x256.Idx → EReal) (B : S1x256.Idx → EReal) : S4096x256.Idx → EReal :=
  fun j => lay2 A Z B ⟨(j 0).val, idx2_lt0 j⟩ ⟨(j 1).val, idx2_lt1 j⟩

theorem G2_apply_of (A : S4096x4096.Idx → EReal) (Z : S4096x256.Idx → EReal) (B : S1x256.Idx → EReal)
    (j : S4096x256.Idx) (i : Fin 4096) (d : Fin 256) (hi : (j 0).val = i.val) (hd : (j 1).val = d.val) :
    G2 A Z B j = lay2 A Z B i d := by
  unfold G2
  rw [show (⟨(j 0).val, idx2_lt0 j⟩ : Fin 4096) = i from Fin.ext hi, show (⟨(j 1).val, idx2_lt1 j⟩ : Fin 256) = d from Fin.ext hd]

/-- The layer's entry with its contraction sum in two halves. -/
theorem lay2_halves (A : S4096x4096.Idx → EReal) (Z : S4096x256.Idx → EReal) (B : S1x256.Idx → EReal) (i : Fin 4096) (d : Fin 256) :
    lay2 A Z B i d
      = max (((∑ k : Fin 2048, A (ix2 i ⟨k.val, by omega⟩) * Z (ix2 (⟨k.val, by omega⟩ : Fin 4096) d))
          + ∑ k : Fin 2048, A (ix2 i ⟨2048 + k.val, by omega⟩) * Z (ix2 (⟨2048 + k.val, by omega⟩ : Fin 4096) d))
          + B (ix2 (0 : Fin 1) d)) 0 := by
  unfold lay2
  rw [sum_halves2_4096]

section
variable (V : (c : Dev nD) → (b : Ref sig .tc) → Buf (Elt Ideal) ((c : Thread nD τ).loc b))

/-! ## The blocks the body reads, entry by entry -/

/-- The printed index maps over the grid: the row block is the position's quotient by 2, the contraction block its
    remainder. -/
theorem idx_facts2 : ∀ t : Fin cfg2.N,
    win2_0.index t (0 : Fin 2) = t.val / 2 ∧ win2_0.index t (1 : Fin 2) = t.val % 2
    ∧ win2_1.index t (0 : Fin 2) = t.val % 2 ∧ win2_1.index t (1 : Fin 2) = 0
    ∧ win2_2.index t (0 : Fin 2) = 0 ∧ win2_2.index t (1 : Fin 2) = 0
    ∧ win2_3.index t (0 : Fin 2) = t.val / 2 ∧ win2_3.index t (1 : Fin 2) = 0 :=
  (by decide +kernel : ∀ t : Fin grid2.N, _)

/-- The fused matrix's block at position t, at an entry. -/
theorem iblk2_0_apply (c : Dev nD) (A : S4096x4096.Idx → EReal) (hA : V c main_v11 = A) (t : Fin cfg2.N) (p k : Fin 2048) (r s : Fin 4096)
    (hr : r.val = t.val / 2 * 2048 + p.val) (hs : s.val = t.val % 2 * 2048 + k.val) :
    (iblk2 V c 0 t : FVec Ideal S2048x2048 .bf16) (ix2 p k) = A (ix2 r s) := by
  subst hA
  obtain ⟨e0, e1, -⟩ := idx_facts2 t
  show (V c main_v11 : S4096x4096.Idx → EReal) (((cfg2.win 0).blk t).view.emb (ix2 p k)) = _
  refine congrArg _ (funext fun a => Fin.ext ?_)
  match a with
  | ⟨0, _⟩ => show win2_0.index t (0 : Fin 2) * 2048 + 1 * p.val = r.val; omega
  | ⟨1, _⟩ => show win2_0.index t (1 : Fin 2) * 2048 + 1 * k.val = s.val; omega

/-- The layer input's block at position t, at an entry. -/
theorem iblk2_1_apply (c : Dev nD) (Z : S4096x256.Idx → EReal) (hZ : V c main_v17 = Z) (t : Fin cfg2.N) (k : Fin 2048) (d : Fin 256) (s : Fin 4096)
    (hs : s.val = t.val % 2 * 2048 + k.val) :
    (iblk2 V c 1 t : FVec Ideal S2048x256 .bf16) (ix2 k d) = Z (ix2 s d) := by
  subst hZ
  obtain ⟨-, -, e2, e3, -⟩ := idx_facts2 t
  show (V c main_v17 : S4096x256.Idx → EReal) (((cfg2.win 1).blk t).view.emb (ix2 k d)) = _
  refine congrArg _ (funext fun a => Fin.ext ?_)
  match a with
  | ⟨0, _⟩ => show win2_1.index t (0 : Fin 2) * 2048 + 1 * k.val = s.val; omega
  | ⟨1, _⟩ => show win2_1.index t (1 : Fin 2) * 256 + 1 * d.val = d.val; omega

/-- The bias's block at position t, at an entry. -/
theorem iblk2_2_apply (c : Dev nD) (B : S1x256.Idx → EReal) (hB : V c main_v18 = B) (t : Fin cfg2.N) (d : Fin 256) :
    (iblk2 V c 2 t : FVec Ideal S1x256 .f32) (ix2 (0 : Fin 1) d) = B (ix2 (0 : Fin 1) d) := by
  subst hB
  obtain ⟨-, -, -, -, e4, e5, -⟩ := idx_facts2 t
  show (V c main_v18 : S1x256.Idx → EReal) (((cfg2.win 2).blk t).view.emb (ix2 (0 : Fin 1) d)) = _
  refine congrArg _ (funext fun a => Fin.ext ?_)
  match a with
  | ⟨0, _⟩ => show win2_2.index t (0 : Fin 2) * 1 + 1 * 0 = 0; omega
  | ⟨1, _⟩ => show win2_2.index t (1 : Fin 2) * 256 + 1 * d.val = d.val; omega

end

/-! ## Position by position -/

/-- After an odd position the output block holds what is stored out of the two contraction blocks of its row block. -/
theorem out2_odd {F : FTy → Type} [FloatOps F] (V : (c : Dev nD) → (b : Ref sig .tc) → Buf (Elt F) ((c : Thread nD τ).loc b))
    (c : Dev nD) (t : Fin cfg2.N) (h1 : t.val % 2 = 1) (hlt : t.val - 1 < cfg2.N) :
    (outsAt2 V c t.val t.isLt).1
      = k2_pay3 (k2_pay2 (iblk2 V c 0 t) (iblk2 V c 1 t) (k2_pay2 (iblk2 V c 0 ⟨t.val - 1, hlt⟩) (iblk2 V c 1 ⟨t.val - 1, hlt⟩) (k2_pay1 (F := F)))) (iblk2 V c 2 t) := by
  have h0 : ¬t.val % 2 = 0 := by omega
  have h0' : (⟨t.val - 1, hlt⟩ : Fin cfg2.N).val % 2 = 0 := by show (t.val - 1) % 2 = 0; omega
  have h1' : ¬(⟨t.val - 1, hlt⟩ : Fin cfg2.N).val % 2 = 1 := by show ¬(t.val - 1) % 2 = 1; omega
  have e2 := congrArg Prod.snd (outsAt2_A V c ⟨t.val - 1, hlt⟩ h0' h1')
  dsimp only at e2
  rw [outsAt2_B V c t h0 h1]
  dsimp only
  rw [out2_B_eq, e2, sout2_A_eq]

section
variable (V : (c : Dev nD) → (b : Ref sig .tc) → Buf (Elt Ideal) ((c : Thread nD τ).loc b))
variable (c : Dev nD) (A : S4096x4096.Idx → EReal) (Z : S4096x256.Idx → EReal) (B : S1x256.Idx → EReal)
variable (hA : V c main_v11 = A) (hZ : V c main_v17 = Z) (hB : V c main_v18 = B)
include hA hZ hB

/-- After an odd position the output block holds, at an entry, the layer's entry of its row in the array. -/
theorem out2_odd_apply (t : Fin cfg2.N) (h1 : t.val % 2 = 1) (p : Fin 2048) (d : Fin 256) (r : Fin 4096)
    (hr : r.val = t.val / 2 * 2048 + p.val) :
    ((outsAt2 V c t.val t.isLt).1 : FVec Ideal S2048x256 .f32) (ix2 p d) = lay2 A Z B r d := by
  have hlt : t.val - 1 < cfg2.N := Nat.lt_of_le_of_lt (Nat.sub_le _ _) t.isLt
  rw [out2_odd V c t h1 hlt]
  refine (pay2_chain_apply (iblk2 V c 0 ⟨t.val - 1, hlt⟩) (iblk2 V c 0 t) (iblk2 V c 1 ⟨t.val - 1, hlt⟩) (iblk2 V c 1 t) (iblk2 V c 2 t) p d).trans ?_
  rw [lay2_halves]
  have hm0 : (⟨t.val - 1, hlt⟩ : Fin cfg2.N).val % 2 = 0 := by show (t.val - 1) % 2 = 0; omega
  have hq0 : (⟨t.val - 1, hlt⟩ : Fin cfg2.N).val / 2 = t.val / 2 := by show (t.val - 1) / 2 = t.val / 2; omega
  refine congrArg₂ max (congrArg₂ (· + ·) (congrArg₂ (· + ·) (Finset.sum_congr rfl fun k _ => ?_) (Finset.sum_congr rfl fun k _ => ?_)) ?_) rfl
  · rw [iblk2_0_apply V c A hA ⟨t.val - 1, hlt⟩ p k r ⟨k.val, by omega⟩ (by rw [hq0]; exact hr) (by rw [hm0]; show k.val = 0 * 2048 + k.val; omega),
      iblk2_1_apply V c Z hZ ⟨t.val - 1, hlt⟩ k d ⟨k.val, by omega⟩ (by rw [hm0]; show k.val = 0 * 2048 + k.val; omega)]
  · rw [iblk2_0_apply V c A hA t p k r ⟨2048 + k.val, by omega⟩ hr (by rw [h1]),
      iblk2_1_apply V c Z hZ t k d ⟨2048 + k.val, by omega⟩ (by rw [h1])]
  · exact iblk2_2_apply V c B hB t d

/-! ## From the blocks to the array -/

/-- What a flushing position writes back is its block of the layer. -/
theorem flushed2_eq (t : Fin cfg2.N) (hf : (cfg2.win 3).flush t = true) :
    (dat2 V c).flushed 3 t = ((cfg2.win 3).blk t).view.read (Elt Ideal) (G2 A Z B) := by
  have h1 : t.val % 2 = 1 := (flush2_3 t).mp hf
  have ht : t.val < 4 := lt_of_lt_of_eq t.isLt (show cfg2.N = 4 from N_2)
  obtain ⟨-, -, -, -, -, -, e6, e7⟩ := idx_facts2 t
  show (cfg2.win 3).cut (grid2.coords t) ((dat2 V c).after 3 t) = _
  rw [after2_3]
  funext j
  obtain ⟨p, d, rfl⟩ : ∃ (p : Fin 2048) (d : Fin 256), j = ix2 p d := ⟨j 0, j 1, eq_ix2 (n0 := 2048) (n1 := 256) j⟩
  show ((outsAt2 V c t.val t.isLt).1 : FVec Ideal S2048x256 .f32) (ix2 p d) = G2 A Z B (((cfg2.win 3).blk t).view.emb (ix2 p d))
  have hp : p.val < 2048 := p.isLt
  refine (out2_odd_apply V c A Z B hA hZ hB t h1 p d ⟨t.val / 2 * 2048 + p.val, by omega⟩ rfl).trans (G2_apply_of A Z B _ _ _ ?_ ?_).symm
  · show win2_3.index t (0 : Fin 2) * 2048 + 1 * p.val = t.val / 2 * 2048 + p.val; omega
  · show win2_3.index t (1 : Fin 2) * 256 + 1 * d.val = d.val; omega

omit hA hZ hB in
/-- An index of the array is in position t's block iff each coordinate is in the block's range on its axis. -/
theorem mem_blk2_3 (t : Fin cfg2.N) (i : S4096x256.Idx) :
    i ∈ ((cfg2.win 3).blk t).view.set ↔ ∀ a : Fin 2, win2_3.index t a * S2048x256.size a ≤ (i a).val ∧ (i a).val < win2_3.index t a * S2048x256.size a + S2048x256.size a := by
  show i ∈ ((View.whole main_v19).slice (win2_3.rect t)).set ↔ _
  rw [View.set_slice_whole, Rect.mem_set_unit]
  exact Iff.rfl

omit hA hZ hB in
/-- Every row is in the block of the flushing position of its row block. -/
theorem cover2_3 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  have hN : cfg2.N = 4 := N_2
  obtain ⟨t, ht⟩ : ∃ t : Fin cfg2.N, t.val = 2 * ((i 0).val / 2048) + 1 := ⟨⟨2 * ((i 0).val / 2048) + 1, by rw [hN]; omega⟩, rfl⟩
  obtain ⟨-, -, -, -, -, -, e6, e7⟩ := idx_facts2 t
  refine ⟨t, (flush2_3 t).mpr (by omega), ?_⟩
  rw [mem_blk2_3]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 256 ≤ (i 1).val ∧ (i 1).val < win2_3.index t (1 : Fin 2) * 256 + 256; omega

/-- The output array after the region is the layer. -/
theorem final2 : (dat2 V c).arrAt 3 cfg2.N = G2 A Z B :=
  (dat2 V c).arrAt_eq_of_cover 3 (G2 A Z B) (flushed2_eq V c A Z B hA hZ hB) cover2_3

/-- THE OUTPUT ARRAY, ENTRY BY ENTRY: row i of the fused matrix times column d of the layer's input, plus the bias of
    column d, through the activation. -/
theorem arr2_apply (i : Fin 4096) (d : Fin 256) :
    ((dat2 V c).arrAt 3 cfg2.N : S4096x256.Idx → EReal) (ix2 i d)
      = max ((∑ k : Fin 4096, A (ix2 i k) * Z (ix2 k d)) + B (ix2 (0 : Fin 1) d)) 0 :=
  (congrFun (final2 V c A Z B hA hZ hB) (ix2 i d)).trans (G2_apply_of A Z B (ix2 i d) i d rfl rfl)

end

end Cert.KernelIdeal.Hand

end
-- ==== Proof.KI.V3.lean ====
/-
  Region 3, read as values: what each control case of the body leaves in the accumulator and in the output block, and
  the output array after the region, entry by entry, over the extended reals: one layer's aggregation, the product
  of the fused matrix with the layer's input plus the bias.
-/
import proofs.«137211_j12206297055730_2_alg».proof.Proof.KI.R3
import Idealize.ShloMosaic.Lib.Pipeline.Value
import Idealize.ShloMosaic.Lib.ValueIdx
import Idealize.ShloMosaic.PureOps.Ideal.Laws
import Idealize.ShloMosaic.Lib.ValueLayout
import proofs.«137211_j12206297055730_2_alg».proof.Proof.LibPlainDot
import proofs.«137211_j12206297055730_2_alg».proof.Proof.NetAssoc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

theorem hz3 : (![0, 0] : Fin 2 → Nat) = fun _ => 0 := funext fun a => by fin_cases a <;> rfl

/-- Contraction block 0: the accumulator is reset and the first block product added to the zero block. -/
theorem sout3_A_eq (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : cond3_0 i) (hc1 : ¬cond3_1 i) (x0 : Vec F S2048x2048 .bf16) (x1 : Vec F S2048x256 .bf16) (x2 : Vec F S1x256 .f32) :
    sout3_A c i arg2 harg2 arg3 harg3 arg4 harg4 arg5 harg5 arg6 harg6 hc0 hc1 x0 x1 x2 = k3_pay2 x0 x1 (k3_pay1 (F := F)) := by
  unfold sout3_A
  rw [View.read_writes_eq_canon _ _ _ (scover3_A c i arg2 harg2 arg3 harg3 arg4 harg4 arg5 harg5 arg6 harg6 hc0 hc1 x0 x1 x2)]
  unfold kernelRun3_A
  dsimp only
  sl_unfold_words
  rw [View.canon_cons_unit_zero (S := S2048x256) hz3, View.readCov_unit_zero (S := S2048x256) _ hz3]
  simp only [View.readAt_eq_ld, harg2.read_unread, harg3.read_unread, View.ld_unit_zero (S := S2048x2048) hz3, View.ld_unit_zero (S := S2048x256) hz3]

/-- The last contraction block: the block product is added to what the accumulator held. -/
theorem sout3_B_eq (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) :
    sout3_B c i arg2 harg2 arg3 harg3 arg4 harg4 arg5 harg5 arg6 harg6 hc0 hc1 x0 x1 x2 xs = k3_pay2 x0 x1 xs := by
  unfold sout3_B
  rw [View.read_writes_eq_canon _ _ _ (scover3_B c i arg2 harg2 arg3 harg3 arg4 harg4 arg5 harg5 arg6 harg6 hc0 hc1 x0 x1 x2 xs)]
  unfold kernelRun3_B
  dsimp only
  sl_unfold_words
  rw [View.canon_unit_zero hz3]
  simp only [View.readAt_eq_ld, harg2.read_unread, harg3.read_unread, harg6.read_unread, View.ld_unit_zero (S := S2048x2048) hz3, View.ld_unit_zero (S := S2048x256) hz3]

/-- The last contraction block stores out the new accumulator plus the bias. -/
theorem out3_B_eq (c : Dev nD) (i : grid3.Coords) (arg2 : Memref sig .tc .vmem S2048x2048 .bf16) (harg2 : arg2.IsWhole) (arg3 : Memref sig .tc .vmem S2048x256 .bf16) (harg3 : arg3.IsWhole) (arg4 : Memref sig .tc .vmem S1x256 .f32) (harg4 : arg4.IsWhole) (arg5 : Memref sig .tc .vmem S2048x256 .f32) (harg5 : arg5.IsWhole) (arg6 : Memref sig .tc .vmem S2048x256 .f32) (harg6 : arg6.IsWhole) (hc0 : ¬cond3_0 i) (hc1 : cond3_1 i) (x0 : Vec F S2048x2048 .bf16) (x1 : Vec F S2048x256 .bf16) (x2 : Vec F S1x256 .f32) (xs : Vec F S2048x256 .f32) :
    out3_B c i arg2 harg2 arg3 harg3 arg4 harg4 arg5 harg5 arg6 harg6 hc0 hc1 x0 x1 x2 xs = k3_pay3 (k3_pay2 x0 x1 xs) x2 := by
  unfold out3_B
  rw [View.read_writes_eq_canon _ _ _ (cover3_B c i arg2 harg2 arg3 harg3 arg4 harg4 arg5 harg5 arg6 harg6 hc0 hc1 x0 x1 x2 xs)]
  unfold kernelRun3_B
  dsimp only
  sl_unfold_words
  rw [View.canon_unit_zero hz3, View.readCov_unit_zero (S := S2048x256) _ hz3]
  simp only [View.readAt_eq_ld, harg2.read_unread, harg3.read_unread, harg4.read_unread, harg6.read_unread, View.ld_unit_zero (S := S2048x2048) hz3, View.ld_unit_zero (S := S2048x256) hz3, View.ld_unit_zero (S := S1x256) hz3]

/-! ## The payloads at an entry, over the extended reals -/

/-- The printed dimension numbers are the plain rows × contraction times contraction × columns ones. -/
theorem dot3_eq_plain : dot_S2048x2048_S2048x256_S2048x256_1_0_0_1_n_n = DotDims.plain 2048 2048 256 := rfl

/-- The zero block, at an entry. -/
theorem k3_pay1_apply (j : S2048x256.Idx) : k3_pay1 (F := Ideal) j = 0 := by
  unfold k3_pay1
  simp only [shapeCast_self]
  exact Ideal.ofBits_zero_f32

/-- The block product added to an accumulator, at an entry: the accumulator's entry plus the sum over the block's
    contraction index. -/
theorem k3_pay2_apply (a : FVec Ideal S2048x2048 .bf16) (z : FVec Ideal S2048x256 .bf16) (acc : FVec Ideal S2048x256 .f32)
    (p : Fin 2048) (d : Fin 256) :
    k3_pay2 (F := Ideal) a z acc (ix2 p d) = acc (ix2 p d) + ∑ k : Fin 2048, a (ix2 p k) * z (ix2 k d) := by
  unfold k3_pay2
  simp only [shapeCast_self, dot3_eq_plain]
  exact congrArg (acc (ix2 p d) + ·) (Cert.Lib.PlainDot.matmul_plain_zero_apply none a z p d)

/-- What is stored out, at an entry: the accumulator's entry plus the bias of its column. -/
theorem k3_pay3_apply (acc : FVec Ideal S2048x256 .f32) (b : FVec Ideal S1x256 .f32) (p : Fin 2048) (d : Fin 256) :
    k3_pay3 (F := Ideal) acc b (ix2 p d) = acc (ix2 p d) + b (ix2 (0 : Fin 1) d) := by
  unfold k3_pay3
  simp only [shapeCast_self]
  show acc (ix2 p d) + broadcastTo S2048x256 b broadcasts_S1x256_S2048x256 (ix2 p d) = _
  rw [broadcastTo_1b_ab_apply b broadcasts_S1x256_S2048x256 p d]

/-- The two contraction blocks of one row block, at an entry. -/
theorem pay3_chain_apply (a0 a1 : FVec Ideal S2048x2048 .bf16) (z0 z1 : FVec Ideal S2048x256 .bf16) (b : FVec Ideal S1x256 .f32)
    (p : Fin 2048) (d : Fin 256) :
    k3_pay3 (F := Ideal) (k3_pay2 (F := Ideal) a1 z1 (k3_pay2 (F := Ideal) a0 z0 (k3_pay1 (F := Ideal)))) b (ix2 p d)
      = ((∑ k : Fin 2048, a0 (ix2 p k) * z0 (ix2 k d)) + ∑ k : Fin 2048, a1 (ix2 p k) * z1 (ix2 k d)) + b (ix2 (0 : Fin 1) d) := by
  rw [k3_pay3_apply, k3_pay2_apply, k3_pay2_apply, k3_pay1_apply, zero_add]

/-- A sum over 4096 indices, in two halves. -/
theorem sum_halves3_4096 {M : Type} [AddCommMonoid M] (g : Fin 4096 → M) :
    ∑ k : Fin 4096, g k = (∑ b : Fin 2048, g ⟨b.val, by omega⟩) + ∑ b : Fin 2048, g ⟨2048 + b.val, by omega⟩ :=
  Fin.sum_univ_add (a := 2048) (b := 2048) g

/-! ## The layer, entry by entry -/

/-- One entry of the layer: row i of the fused matrix times column d of the layer's input, plus the bias of column d. -/
def lay3 (A : S4096x4096.Idx → EReal) (Z : S4096x256.Idx → EReal) (B : S1x256.Idx → EReal) (i : Fin 4096) (d : Fin 256) : EReal :=
  (∑ k : Fin 4096, A (ix2 i k) * Z (ix2 k d)) + B (ix2 (0 : Fin 1) d)

/-- The layer as contents of the output array. -/
def G3 (A : S4096x4096.Idx → EReal) (Z : S4096x256.Idx → EReal) (B : S1x256.Idx → EReal) : S4096x256.Idx → EReal :=
  fun j => lay3 A Z B ⟨(j 0).val, idx2_lt0 j⟩ ⟨(j 1).val, idx2_lt1 j⟩

theorem G3_apply_of (A : S4096x4096.Idx → EReal) (Z : S4096x256.Idx → EReal) (B : S1x256.Idx → EReal)
    (j : S4096x256.Idx) (i : Fin 4096) (d : Fin 256) (hi : (j 0).val = i.val) (hd : (j 1).val = d.val) :
    G3 A Z B j = lay3 A Z B i d := by
  unfold G3
  rw [show (⟨(j 0).val, idx2_lt0 j⟩ : Fin 4096) = i from Fin.ext hi, show (⟨(j 1).val, idx2_lt1 j⟩ : Fin 256) = d from Fin.ext hd]

/-- The layer's entry with its contraction sum in two halves. -/
theorem lay3_halves (A : S4096x4096.Idx → EReal) (Z : S4096x256.Idx → EReal) (B : S1x256.Idx → EReal) (i : Fin 4096) (d : Fin 256) :
    lay3 A Z B i d
      = ((∑ k : Fin 2048, A (ix2 i ⟨k.val, by omega⟩) * Z (ix2 (⟨k.val, by omega⟩ : Fin 4096) d))
          + ∑ k : Fin 2048, A (ix2 i ⟨2048 + k.val, by omega⟩) * Z (ix2 (⟨2048 + k.val, by omega⟩ : Fin 4096) d))
          + B (ix2 (0 : Fin 1) d) := by
  unfold lay3
  rw [sum_halves3_4096]

section
variable (V : (c : Dev nD) → (b : Ref sig .tc) → Buf (Elt Ideal) ((c : Thread nD τ).loc b))

/-! ## The blocks the body reads, entry by entry -/

/-- The printed index maps over the grid: the row block is the position's quotient by 2, the contraction block its
    remainder. -/
theorem idx_facts3 : ∀ t : Fin cfg3.N,
    win3_0.index t (0 : Fin 2) = t.val / 2 ∧ win3_0.index t (1 : Fin 2) = t.val % 2
    ∧ win3_1.index t (0 : Fin 2) = t.val % 2 ∧ win3_1.index t (1 : Fin 2) = 0
    ∧ win3_2.index t (0 : Fin 2) = 0 ∧ win3_2.index t (1 : Fin 2) = 0
    ∧ win3_3.index t (0 : Fin 2) = t.val / 2 ∧ win3_3.index t (1 : Fin 2) = 0 :=
  (by decide +kernel : ∀ t : Fin grid3.N, _)

/-- The fused matrix's block at position t, at an entry. -/
theorem iblk3_0_apply (c : Dev nD) (A : S4096x4096.Idx → EReal) (hA : V c main_v11 = A) (t : Fin cfg3.N) (p k : Fin 2048) (r s : Fin 4096)
    (hr : r.val = t.val / 2 * 2048 + p.val) (hs : s.val = t.val % 2 * 2048 + k.val) :
    (iblk3 V c 0 t : FVec Ideal S2048x2048 .bf16) (ix2 p k) = A (ix2 r s) := by
  subst hA
  obtain ⟨e0, e1, -⟩ := idx_facts3 t
  show (V c main_v11 : S4096x4096.Idx → EReal) (((cfg3.win 0).blk t).view.emb (ix2 p k)) = _
  refine congrArg _ (funext fun a => Fin.ext ?_)
  match a with
  | ⟨0, _⟩ => show win3_0.index t (0 : Fin 2) * 2048 + 1 * p.val = r.val; omega
  | ⟨1, _⟩ => show win3_0.index t (1 : Fin 2) * 2048 + 1 * k.val = s.val; omega

/-- The layer input's block at position t, at an entry. -/
theorem iblk3_1_apply (c : Dev nD) (Z : S4096x256.Idx → EReal) (hZ : V c main_v21 = Z) (t : Fin cfg3.N) (k : Fin 2048) (d : Fin 256) (s : Fin 4096)
    (hs : s.val = t.val % 2 * 2048 + k.val) :
    (iblk3 V c 1 t : FVec Ideal S2048x256 .bf16) (ix2 k d) = Z (ix2 s d) := by
  subst hZ
  obtain ⟨-, -, e2, e3, -⟩ := idx_facts3 t
  show (V c main_v21 : S4096x256.Idx → EReal) (((cfg3.win 1).blk t).view.emb (ix2 k d)) = _
  refine congrArg _ (funext fun a => Fin.ext ?_)
  match a with
  | ⟨0, _⟩ => show win3_1.index t (0 : Fin 2) * 2048 + 1 * k.val = s.val; omega
  | ⟨1, _⟩ => show win3_1.index t (1 : Fin 2) * 256 + 1 * d.val = d.val; omega

/-- The bias's block at position t, at an entry. -/
theorem iblk3_2_apply (c : Dev nD) (B : S1x256.Idx → EReal) (hB : V c main_v22 = B) (t : Fin cfg3.N) (d : Fin 256) :
    (iblk3 V c 2 t : FVec Ideal S1x256 .f32) (ix2 (0 : Fin 1) d) = B (ix2 (0 : Fin 1) d) := by
  subst hB
  obtain ⟨-, -, -, -, e4, e5, -⟩ := idx_facts3 t
  show (V c main_v22 : S1x256.Idx → EReal) (((cfg3.win 2).blk t).view.emb (ix2 (0 : Fin 1) d)) = _
  refine congrArg _ (funext fun a => Fin.ext ?_)
  match a with
  | ⟨0, _⟩ => show win3_2.index t (0 : Fin 2) * 1 + 1 * 0 = 0; omega
  | ⟨1, _⟩ => show win3_2.index t (1 : Fin 2) * 256 + 1 * d.val = d.val; omega

end

/-! ## Position by position -/

/-- After an odd position the output block holds what is stored out of the two contraction blocks of its row block. -/
theorem out3_odd {F : FTy → Type} [FloatOps F] (V : (c : Dev nD) → (b : Ref sig .tc) → Buf (Elt F) ((c : Thread nD τ).loc b))
    (c : Dev nD) (t : Fin cfg3.N) (h1 : t.val % 2 = 1) (hlt : t.val - 1 < cfg3.N) :
    (outsAt3 V c t.val t.isLt).1
      = k3_pay3 (k3_pay2 (iblk3 V c 0 t) (iblk3 V c 1 t) (k3_pay2 (iblk3 V c 0 ⟨t.val - 1, hlt⟩) (iblk3 V c 1 ⟨t.val - 1, hlt⟩) (k3_pay1 (F := F)))) (iblk3 V c 2 t) := by
  have h0 : ¬t.val % 2 = 0 := by omega
  have h0' : (⟨t.val - 1, hlt⟩ : Fin cfg3.N).val % 2 = 0 := by show (t.val - 1) % 2 = 0; omega
  have h1' : ¬(⟨t.val - 1, hlt⟩ : Fin cfg3.N).val % 2 = 1 := by show ¬(t.val - 1) % 2 = 1; omega
  have e2 := congrArg Prod.snd (outsAt3_A V c ⟨t.val - 1, hlt⟩ h0' h1')
  dsimp only at e2
  rw [outsAt3_B V c t h0 h1]
  dsimp only
  rw [out3_B_eq, e2, sout3_A_eq]

section
variable (V : (c : Dev nD) → (b : Ref sig .tc) → Buf (Elt Ideal) ((c : Thread nD τ).loc b))
variable (c : Dev nD) (A : S4096x4096.Idx → EReal) (Z : S4096x256.Idx → EReal) (B : S1x256.Idx → EReal)
variable (hA : V c main_v11 = A) (hZ : V c main_v21 = Z) (hB : V c main_v22 = B)
include hA hZ hB

/-- After an odd position the output block holds, at an entry, the layer's entry of its row in the array. -/
theorem out3_odd_apply (t : Fin cfg3.N) (h1 : t.val % 2 = 1) (p : Fin 2048) (d : Fin 256) (r : Fin 4096)
    (hr : r.val = t.val / 2 * 2048 + p.val) :
    ((outsAt3 V c t.val t.isLt).1 : FVec Ideal S2048x256 .f32) (ix2 p d) = lay3 A Z B r d := by
  have hlt : t.val - 1 < cfg3.N := Nat.lt_of_le_of_lt (Nat.sub_le _ _) t.isLt
  rw [out3_odd V c t h1 hlt]
  refine (pay3_chain_apply (iblk3 V c 0 ⟨t.val - 1, hlt⟩) (iblk3 V c 0 t) (iblk3 V c 1 ⟨t.val - 1, hlt⟩) (iblk3 V c 1 t) (iblk3 V c 2 t) p d).trans ?_
  rw [lay3_halves]
  have hm0 : (⟨t.val - 1, hlt⟩ : Fin cfg3.N).val % 2 = 0 := by show (t.val - 1) % 2 = 0; omega
  have hq0 : (⟨t.val - 1, hlt⟩ : Fin cfg3.N).val / 2 = t.val / 2 := by show (t.val - 1) / 2 = t.val / 2; omega
  refine congrArg₂ (· + ·) (congrArg₂ (· + ·) (Finset.sum_congr rfl fun k _ => ?_) (Finset.sum_congr rfl fun k _ => ?_)) ?_
  · rw [iblk3_0_apply V c A hA ⟨t.val - 1, hlt⟩ p k r ⟨k.val, by omega⟩ (by rw [hq0]; exact hr) (by rw [hm0]; show k.val = 0 * 2048 + k.val; omega),
      iblk3_1_apply V c Z hZ ⟨t.val - 1, hlt⟩ k d ⟨k.val, by omega⟩ (by rw [hm0]; show k.val = 0 * 2048 + k.val; omega)]
  · rw [iblk3_0_apply V c A hA t p k r ⟨2048 + k.val, by omega⟩ hr (by rw [h1]),
      iblk3_1_apply V c Z hZ t k d ⟨2048 + k.val, by omega⟩ (by rw [h1])]
  · exact iblk3_2_apply V c B hB t d

/-! ## From the blocks to the array -/

/-- What a flushing position writes back is its block of the layer. -/
theorem flushed3_eq (t : Fin cfg3.N) (hf : (cfg3.win 3).flush t = true) :
    (dat3 V c).flushed 3 t = ((cfg3.win 3).blk t).view.read (Elt Ideal) (G3 A Z B) := by
  have h1 : t.val % 2 = 1 := (flush3_3 t).mp hf
  have ht : t.val < 4 := lt_of_lt_of_eq t.isLt (show cfg3.N = 4 from N_3)
  obtain ⟨-, -, -, -, -, -, e6, e7⟩ := idx_facts3 t
  show (cfg3.win 3).cut (grid3.coords t) ((dat3 V c).after 3 t) = _
  rw [after3_3]
  funext j
  obtain ⟨p, d, rfl⟩ : ∃ (p : Fin 2048) (d : Fin 256), j = ix2 p d := ⟨j 0, j 1, eq_ix2 (n0 := 2048) (n1 := 256) j⟩
  show ((outsAt3 V c t.val t.isLt).1 : FVec Ideal S2048x256 .f32) (ix2 p d) = G3 A Z B (((cfg3.win 3).blk t).view.emb (ix2 p d))
  have hp : p.val < 2048 := p.isLt
  refine (out3_odd_apply V c A Z B hA hZ hB t h1 p d ⟨t.val / 2 * 2048 + p.val, by omega⟩ rfl).trans (G3_apply_of A Z B _ _ _ ?_ ?_).symm
  · show win3_3.index t (0 : Fin 2) * 2048 + 1 * p.val = t.val / 2 * 2048 + p.val; omega
  · show win3_3.index t (1 : Fin 2) * 256 + 1 * d.val = d.val; omega

omit hA hZ hB in
/-- An index of the array is in position t's block iff each coordinate is in the block's range on its axis. -/
theorem mem_blk3_3 (t : Fin cfg3.N) (i : S4096x256.Idx) :
    i ∈ ((cfg3.win 3).blk t).view.set ↔ ∀ a : Fin 2, win3_3.index t a * S2048x256.size a ≤ (i a).val ∧ (i a).val < win3_3.index t a * S2048x256.size a + S2048x256.size a := by
  show i ∈ ((View.whole main_v23).slice (win3_3.rect t)).set ↔ _
  rw [View.set_slice_whole, Rect.mem_set_unit]
  exact Iff.rfl

omit hA hZ hB in
/-- Every row is in the block of the flushing position of its row block. -/
theorem cover3_3 (i : S4096x256.Idx) : ∃ t : Fin cfg3.N, (cfg3.win 3).flush t = true ∧ i ∈ ((cfg3.win 3).blk t).view.set := by
  have hi0 : (i 0).val < 4096 := (i 0).isLt
  have hi1 : (i 1).val < 256 := (i 1).isLt
  have hN : cfg3.N = 4 := N_3
  obtain ⟨t, ht⟩ : ∃ t : Fin cfg3.N, t.val = 2 * ((i 0).val / 2048) + 1 := ⟨⟨2 * ((i 0).val / 2048) + 1, by rw [hN]; omega⟩, rfl⟩
  obtain ⟨-, -, -, -, -, -, e6, e7⟩ := idx_facts3 t
  refine ⟨t, (flush3_3 t).mpr (by omega), ?_⟩
  rw [mem_blk3_3]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 256 ≤ (i 1).val ∧ (i 1).val < win3_3.index t (1 : Fin 2) * 256 + 256; omega

/-- The output array after the region is the layer. -/
theorem final3 : (dat3 V c).arrAt 3 cfg3.N = G3 A Z B :=
  (dat3 V c).arrAt_eq_of_cover 3 (G3 A Z B) (flushed3_eq V c A Z B hA hZ hB) cover3_3

/-- THE OUTPUT ARRAY, ENTRY BY ENTRY: row i of the fused matrix times column d of the layer's input, plus the bias of
    column d. -/
theorem arr3_apply (i : Fin 4096) (d : Fin 256) :
    ((dat3 V c).arrAt 3 cfg3.N : S4096x256.Idx → EReal) (ix2 i d)
      = (∑ k : Fin 4096, A (ix2 i k) * Z (ix2 k d)) + B (ix2 (0 : Fin 1) d) :=
  (congrFun (final3 V c A Z B hA hZ hB) (ix2 i d)).trans (G3_apply_of A Z B (ix2 i d) i d rfl rfl)

end

end Cert.KernelIdeal.Hand

end
-- ==== Proof.FinitePre.lean ====
/-
  Finiteness from the precondition, over the extended reals.

  The precondition is the conjunction, over the nine arrays, of "every entry x has |x| < +∞". Over the extended reals
  |x| is max x (-x) and the pattern 0x7F800000 denotes +∞, so each conjunct says that no entry is +∞ or -∞: every entry
  is a real number.
-/
import proofs.«137211_j12206297055730_2_alg».proof.Pre_finite_inputs
import proofs.«137211_j12206297055730_2_alg».proof.Proof.Gen.Pre_finite_inputs
import proofs.«137211_j12206297055730_2_alg».proof.Proof.Spec
import Idealize.ShloMosaic.Lib.ReduceAll
import Idealize.ShloMosaic.PureOps.Ideal

noncomputable section

namespace Cert.Pre_finite_inputs.Hand

open Idealize.ShloMosaic Cert.Pre_finite_inputs

/-- The scalar shape has one index. -/
instance subsingleton_scalar_idx : Subsingleton S_.Idx := ⟨fun a b => funext fun d => d.elim0⟩

/-- An extended real whose absolute value is below +∞ is a real number. -/
theorem isReal_of_abs_lt_top (x : EReal) (h : max x (-x) < ⊤) : Cert.Spec.IsReal x := by
  induction x using EReal.rec with
  | bot => simp at h
  | coe r => exact ⟨r, rfl⟩
  | top => simp at h

/-- The element fact: the comparison |x| < +∞ came out 1, so x is a real number. -/
theorem isReal_of_cmp (x : Ideal .f32)
    (h : FloatOps.cmpf .olt (FloatOps.hostAbsf x) (FloatOps.ofBits (F := Ideal) .f32 0x7F800000#32) = 1#1) :
    Cert.Spec.IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  refine isReal_of_abs_lt_top x ?_
  by_contra hlt
  simp [Ideal.cmp, hlt] at h

/-- One conjunct of the predicate: "all entries of x have |x| < +∞" is 1, so every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
          (cmpf .olt (Host.absf x) (broadcastInDim s ![] hb (constant (F := Ideal) S_ .f32 0x7F800000#32)))
          (constantI S_ 1 1#1) hr hu j = 1#1) :
    ∀ i, Cert.Spec.IsReal (x i) := by
  intro i
  have hi := Host.reduce_andi_all _ _ hr hu j e i
  exact isReal_of_cmp (x i) hi

/-- The precondition holds, so every entry of each of the nine arrays is a real number. -/
theorem real_of_pre
    (a0 : (⟨S4096x256, .f32⟩ : BufTy).Contents (Elt Ideal))
    (a1 a2 : (⟨S4096x4096x2, .f32⟩ : BufTy).Contents (Elt Ideal))
    (a3 : (⟨S256x256, .f32⟩ : BufTy).Contents (Elt Ideal))
    (a4 : (⟨S256, .f32⟩ : BufTy).Contents (Elt Ideal))
    (a5 : (⟨S256x256, .f32⟩ : BufTy).Contents (Elt Ideal))
    (a6 : (⟨S256, .f32⟩ : BufTy).Contents (Elt Ideal))
    (a7 : (⟨S256x256, .f32⟩ : BufTy).Contents (Elt Ideal))
    (a8 : (⟨S256, .f32⟩ : BufTy).Contents (Elt Ideal))
    (h : Cert.Pre_finite_inputs.fn (F := Ideal) a0 a1 a2 a3 a4 a5 a6 a7 a8 = fun _ => 1#1) :
    (∀ j, Cert.Spec.IsReal (a0 j)) ∧ (∀ j, Cert.Spec.IsReal (a1 j)) ∧ (∀ j, Cert.Spec.IsReal (a2 j)) ∧
    (∀ j, Cert.Spec.IsReal (a3 j)) ∧ (∀ j, Cert.Spec.IsReal (a4 j)) ∧ (∀ j, Cert.Spec.IsReal (a5 j)) ∧
    (∀ j, Cert.Spec.IsReal (a6 j)) ∧ (∀ j, Cert.Spec.IsReal (a7 j)) ∧ (∀ j, Cert.Spec.IsReal (a8 j)) := by
  have h0 := congrFun h (fun d => d.elim0)
  dsimp only [fn, fn_part1, fn_part2, Idealize.ShloMosaic.andi] at h0
  simp only [IntOp.andi_eq_one] at h0
  obtain ⟨⟨⟨⟨⟨⟨⟨⟨e0, e1⟩, e2⟩, e3⟩, e4⟩, e5⟩, e6⟩, e7⟩, e8⟩ := h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5,
    real_of_all a6 _ _ _ _ e6, real_of_all a7 _ _ _ _ e7, real_of_all a8 _ _ _ _ e8⟩

end Cert.Pre_finite_inputs.Hand

end
-- ==== Proof.KI.KNet.lean ====
/-
  The four regions and the host operations between them, composed.

  Region 0 leaves the matrix product of the two channel-1 slices, the fused matrix.  Each later region leaves
  fused · z + b (through  max · 0  in regions 1 and 2), where z, computed on the host just before it, is the previous
  layer's output (the node features, for region 1) times the layer's weights.  So what region 3 leaves is, entry by
  entry, the specification's three layers with the product by the weights taken first in each.  The reference takes
  the aggregation first; the two agree when every entry of every argument is a real number, because the matrix
  product is then associative, and the precondition says exactly that.
-/
import proofs.«137211_j12206297055730_2_alg».proof.Proof.KI.V0
import proofs.«137211_j12206297055730_2_alg».proof.Proof.KI.V1
import proofs.«137211_j12206297055730_2_alg».proof.Proof.KI.V2
import proofs.«137211_j12206297055730_2_alg».proof.Proof.KI.V3
import proofs.«137211_j12206297055730_2_alg».proof.Proof.KI.Host
import proofs.«137211_j12206297055730_2_alg».proof.Proof.NetAssoc
import proofs.«137211_j12206297055730_2_alg».proof.Proof.FinitePre
import proofs.«137211_j12206297055730_2_alg».proof.Proof.RefNet
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (c : Dev nD)

open Cert.ReferenceIdeal.RefValue (mat2 vec1)

/-! ## Region by region, as matrices -/

/-- What region 0 leaves in its output array: the fused matrix. -/
abbrev fusedK : S4096x4096.Idx → EReal := (dat0 (E1 m) c).arrAt 2 cfg0.N

/-- The fused matrix is the matrix product of the two channel-1 slices. -/
theorem fusedK_mat :
    mat2 (fusedK m c) = Cert.Spec.mm (fun (i k : Fin 4096) => arg2 m c (ix3 i k (1 : Fin 2))) (fun (k j : Fin 4096) => arg1 m c (ix3 k j (1 : Fin 2))) := by
  funext i j
  show arr0 (E1 m) c (ix2 i j) = ∑ k : Fin 4096, arg2 m c (ix3 i k (1 : Fin 2)) * arg1 m c (ix3 k j (1 : Fin 2))
  rw [arr0_apply]
  refine Finset.sum_congr rfl fun k _ => ?_
  exact congrArg₂ (fun a b : EReal => a * b) (E1_v5 m c i k) (E1_v2 m c k j)

/-- Region 1's output: the first layer of the node features, through the activation. -/
theorem out1_mat :
    mat2 (out1 m c) = Cert.Spec.relu (Cert.Spec.layW (mat2 (fusedK m c)) (mat2 (arg0 m c)) (mat2 (arg3 m c)) (vec1 (arg4 m c))) := by
  funext i d
  show out1 m c (ix2 i d) = max ((∑ k : Fin 4096, fusedK m c (ix2 i k) * ∑ e : Fin 256, arg0 m c (ix2 k e) * arg3 m c (ix2 e d)) + arg4 m c (ix1 d)) 0
  refine (arr1_apply (E3 m) c (E3 m c main_v11) (E3 m c main_v13) (E3 m c main_v14) rfl rfl rfl i d).trans ?_
  rw [E3_v14]
  refine congrArg (fun s : EReal => max (s + arg4 m c (ix1 d)) 0) (Finset.sum_congr rfl fun k _ => ?_)
  exact congrArg₂ (fun a b : EReal => a * b) (congrFun (E3_v11 m c) (ix2 i k)) (E3_v13 m c k d)

/-- Region 2's output: the second layer, of region 1's output, through the activation. -/
theorem out2_mat :
    mat2 (out2 m c) = Cert.Spec.relu (Cert.Spec.layW (mat2 (fusedK m c)) (mat2 (out1 m c)) (mat2 (arg5 m c)) (vec1 (arg6 m c))) := by
  funext i d
  show out2 m c (ix2 i d) = max ((∑ k : Fin 4096, fusedK m c (ix2 i k) * ∑ e : Fin 256, out1 m c (ix2 k e) * arg5 m c (ix2 e d)) + arg6 m c (ix1 d)) 0
  refine (arr2_apply (E5 m) c (E5 m c main_v11) (E5 m c main_v17) (E5 m c main_v18) rfl rfl rfl i d).trans ?_
  rw [E5_v18]
  refine congrArg (fun s : EReal => max (s + arg6 m c (ix1 d)) 0) (Finset.sum_congr rfl fun k _ => ?_)
  exact congrArg₂ (fun a b : EReal => a * b) (congrFun (E5_v11 m c) (ix2 i k)) (E5_v17 m c k d)

/-- Region 3's output: the third layer, of region 2's output. -/
theorem out3_mat :
    mat2 (out3 m c) = Cert.Spec.layW (mat2 (fusedK m c)) (mat2 (out2 m c)) (mat2 (arg7 m c)) (vec1 (arg8 m c)) := by
  funext i d
  show out3 m c (ix2 i d) = (∑ k : Fin 4096, fusedK m c (ix2 i k) * ∑ e : Fin 256, out2 m c (ix2 k e) * arg7 m c (ix2 e d)) + arg8 m c (ix1 d)
  refine (arr3_apply (E7 m) c (E7 m c main_v11) (E7 m c main_v21) (E7 m c main_v22) rfl rfl rfl i d).trans ?_
  rw [E7_v22]
  refine congrArg (fun s : EReal => s + arg8 m c (ix1 d)) (Finset.sum_congr rfl fun k _ => ?_)
  exact congrArg₂ (fun a b : EReal => a * b) (congrFun (E7_v11 m c) (ix2 i k)) (E7_v21 m c k d)

/-! ## The three layers -/

/-- What region 3 leaves, at the entry (i, d): the specification's three layers, the product by the weights taken
    first in each, over the matrix product of the channel-1 slices. -/
theorem kernel_net_apply (i : Fin 4096) (d : Fin 256) :
    out3 m c (ix2 i d)
      = Cert.Spec.netW (Cert.Spec.mm (fun (i k : Fin 4096) => arg2 m c (ix3 i k (1 : Fin 2))) (fun (k j : Fin 4096) => arg1 m c (ix3 k j (1 : Fin 2))))
        (fun (i : Fin 4096) (e : Fin 256) => arg0 m c (ix2 i e))
        (fun (e d : Fin 256) => arg3 m c (ix2 e d)) (fun (d : Fin 256) => arg4 m c (ix1 d))
        (fun (e d : Fin 256) => arg5 m c (ix2 e d)) (fun (d : Fin 256) => arg6 m c (ix1 d))
        (fun (e d : Fin 256) => arg7 m c (ix2 e d)) (fun (d : Fin 256) => arg8 m c (ix1 d)) i d := by
  show mat2 (out3 m c) i d = _
  rw [out3_mat, out2_mat, out1_mat, fusedK_mat]
  rfl

/-- When every entry of every argument is a real number, what region 3 leaves is the reference's three layers. -/
theorem kernel_net_eq
    (hpre : Cert.Pre_finite_inputs.fn (F := Ideal) (arg0 m c) (arg1 m c) (arg2 m c) (arg3 m c) (arg4 m c) (arg5 m c) (arg6 m c) (arg7 m c) (arg8 m c) = fun _ => 1#1) :
    out3 m c = Cert.ReferenceIdeal.RefValue.net (arg0 m c) (arg1 m c) (arg2 m c) (arg3 m c) (arg4 m c) (arg5 m c) (arg6 m c) (arg7 m c) (arg8 m c) := by
  obtain ⟨h0, h1, h2, h3, h4, h5, h6, h7, h8⟩ := Cert.Pre_finite_inputs.Hand.real_of_pre _ _ _ _ _ _ _ _ _ hpre
  funext j
  obtain ⟨i, d, rfl⟩ : ∃ (i : Fin 4096) (d : Fin 256), j = ix2 i d := ⟨j 0, j 1, eq_ix2 (n0 := 4096) (n1 := 256) j⟩
  rw [kernel_net_apply]
  refine Eq.trans ?_ (Cert.ReferenceIdeal.RefValue.net_apply _ _ _ _ _ _ _ _ _ i d).symm
  exact congrFun (congrFun (Cert.Spec.netW_eq_netA
    (Cert.Spec.mm_isReal (fun _ _ => h2 _) (fun _ _ => h1 _)) (fun _ _ => h0 _)
    (fun _ _ => h3 _) (fun _ => h4 _) (fun _ _ => h5 _) (fun _ => h6 _) (fun _ _ => h7 _) (fun _ => h8 _)) i) d

end Cert.KernelIdeal.Hand

end
-- ==== Proof.lean ====
/-
  The certificate of a graph network's vector field: fused = (dA/dt) · A once, then three layers
  x ↦ fused · (x · W) + b (max · 0 after the first two), scaled row by row by the mean over source nodes of
  channel 0 of dA/dt — four kernel regions and the host operations between them — against the reference
  x ↦ (fused · x) · W + b.

  The three frames: the kernel program (at the word level and at the ideal values) runs as host stretch, region,
  host stretch, …, each region a product accumulated over contraction blocks in a buffer of its own, zeroed at the
  first block and stored out at the last; the reference is a straight line of host operations. Nothing was
  rewritten by the ideal pass. At the ideal values both programs' results are  t ⊙ net  with the same t; the
  kernel's net takes the product with the weights first, the reference's the aggregation first, and the two agree
  because the matrix product is associative on matrices of real numbers — which every input is, by the precondition,
  and every layer's output then is again.
-/
import proofs.«137211_j12206297055730_2_alg».proof.Defs
import proofs.«137211_j12206297055730_2_alg».proof.Proof.Gen.Kernel
import proofs.«137211_j12206297055730_2_alg».proof.Proof.Gen.KernelIdeal
import proofs.«137211_j12206297055730_2_alg».proof.Proof.Gen.ReferenceIdeal
import proofs.«137211_j12206297055730_2_alg».proof.Proof.Gen.Pre_finite_inputs
import proofs.«137211_j12206297055730_2_alg».proof.Proof.K.Run
import proofs.«137211_j12206297055730_2_alg».proof.Proof.KI.Run
import proofs.«137211_j12206297055730_2_alg».proof.Proof.RefNet
import proofs.«137211_j12206297055730_2_alg».proof.Proof.KI.KRun
import proofs.«137211_j12206297055730_2_alg».proof.Proof.KI.KNet

noncomputable section

namespace Cert.Proof

open Idealize.ShloMosaic Idealize.SL.Sem

/-- The word-level kernel program runs to the end, faults nowhere and leaves its arguments as launched. -/
theorem frame_k : Cert.frame_Kernel := fun m ρ _ => Cert.Kernel.Hand.frameH (F := Bits) m ρ

/-- The same program read at the ideal values. -/
theorem frame_ki : Cert.frame_KernelIdeal := fun m ρ _ => Cert.KernelIdeal.Hand.frameH (F := Ideal) m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- At the ideal values, from memories agreeing on the arguments, both programs run, and end with equal results:
    both are the row-wise time gradient (one and the same term of the third argument) times a net of the arguments;
    the kernel's net takes the product with the weights first in each layer, the reference's the aggregation first,
    and on inputs that are real numbers — the precondition — the two are one function. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact congrArg _ (Cert.KernelIdeal.Hand.kernel_net_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
